-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x640000 : Shape := ⟨2, ![2, 640000]⟩
abbrev S128x32 : Shape := ⟨2, ![128, 32]⟩
abbrev S32 : Shape := ⟨1, ![32]⟩
abbrev S128x640000 : Shape := ⟨2, ![128, 640000]⟩
abbrev S128 : Shape := ⟨1, ![128]⟩
abbrev S20000 : Shape := ⟨1, ![20000]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S128x640000 : S_.BroadcastsInDim S128x640000 (![] : Fin 0 → Fin S128x640000.rank)
  reducesTo_S128x640000_S_d0_1 : S128x640000.ReducesTo [0, 1] S_
  bcast_S_S128 : S_.BroadcastsInDim S128 (![] : Fin 0 → Fin S128.rank)
  reducesTo_S128_S_d0 : S128.ReducesTo [0] S_
  bcast_S_S20000 : S_.BroadcastsInDim S20000 (![] : Fin 0 → Fin S20000.rank)
  reducesTo_S20000_S_d0 : S20000.ReducesTo [0] S_

variable [Facts]

def fn_part1 {F : FTy → Type} [FloatOps F] (main_arg5 : FVec F S128 .f32) (main_arg6 : FVec F S20000x128 .f32) (main_arg7 : FVec F S20000 .f32) (main_v13 : IVec S_ 1) (main_v16 : IVec S128x640000 1) : IVec S_ 1 :=
  let main_c_5 : IVec S_ 1 := constantI S_ 1 1#1
  let main_v17 : IVec S_ 1 := (fun x v => Host.reduce IntOp.andi x v reducesTo_S128x640000_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S20000x128 .f32 := Host.absf main_arg6
  let main_cst_8 : FVec F S_ .f32 := constant S_ .f32 0x7F800000#32
  let main_v25 : FVec F S20000x128 .f32 := broadcastInDim S20000x128 ![] bcast_S_S20000x128 main_cst_8
  let main_v26 : IVec S20000x128 1 := cmpf .olt main_v24 main_v25
  let main_c_9 : IVec S_ 1 := constantI S_ 1 1#1
  let main_v27 : IVec S_ 1 := (fun x v => Host.reduce IntOp.andi x v reducesTo_S20000x128_S_d0_1 h_S_) main_v26 main_c_9
  let main_v28 : IVec S_ 1 := andi main_v23 main_v27
  let main_v29 : FVec F S20000 .f32 := Host.absf main_arg7
  let main_cst_10 : FVec F S_ .f32 := constant S_ .f32 0x7F800000#32
  let main_v30 : FVec F S20000 .f32 := broadcastInDim S20000 ![] bcast_S_S20000 main_cst_10
  let main_v31 : IVec S20000 1 := cmpf .olt main_v29 main_v30
  let main_c_11 : IVec S_ 1 := constantI S_ 1 1#1
  let main_v32 : IVec S_ 1 := (fun x v => Host.reduce IntOp.andi x v reducesTo_S20000_S_d0 h_S_) main_v31 main_c_11
  let main_v33 : IVec S_ 1 := andi main_v28 main_v32
  main_v33

def fn {F : FTy → Type} [FloatOps F] (main_arg0 : FVec F S20000x128 .f32) (main_arg1 : IVec S2x640000 32) (main_arg2 : FVec F S128x32 .f32) (main_arg3 : FVec F S32 .f32) (main_arg4 : FVec F S128x640000 .f32) (main_arg5 : FVec F S128 .f32) (main_arg6 : FVec F S20000x128 .f32) (main_arg7 : FVec F S20000 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S128x640000 .f32 := Host.absf main_arg4
  let main_cst_4 : FVec F S_ .f32 := constant S_ .f32 0x7F800000#32
  let main_v15 : FVec F S128x640000 .f32 := broadcastInDim S128x640000 ![] bcast_S_S128x640000 main_cst_4
  let main_v16 : IVec S128x640000 1 := cmpf .olt main_v14 main_v15
  fn_part1 (F := F) main_arg5 main_arg6 main_arg7 main_v13 main_v16
-- ==== Kernel.lean ====
abbrev S20000x128 : Shape := ⟨2, ![20000, 128]⟩
abbrev S2x640000 : Shape := ⟨2, ![2, 640000]⟩
abbrev S128x32 : Shape := ⟨2, ![128, 32]⟩
abbrev S32 : Shape := ⟨1, ![32]⟩
abbrev S128x640000 : Shape := ⟨2, ![128, 640000]⟩
abbrev S128 : Shape := ⟨1, ![128]⟩
abbrev S20000 : Shape := ⟨1, ![20000]⟩
abbrev S20000x32 : Shape := ⟨2, ![20000, 32]⟩
abbrev S2000x128 : Shape := ⟨2, ![2000, 128]⟩
abbrev S2000x32 : Shape := ⟨2, ![2000, 32]⟩
abbrev S1x640000 : Shape := ⟨2, ![1, 640000]⟩
abbrev S640000 : Shape := ⟨1, ![640000]⟩
abbrev S660000 : Shape := ⟨1, ![660000]⟩
abbrev S_ : Shape := ⟨0, ![]⟩
abbrev S660000x1 : Shape := ⟨2, ![660000, 1]⟩
abbrev S660000x32 : Shape := ⟨2, ![660000, 32]⟩
abbrev S1x32 : Shape := ⟨2, ![1, 32]⟩
abbrev S1x128 : Shape := ⟨2, ![1, 128]⟩
abbrev S1x12800 : Shape := ⟨2, ![1, 12800]⟩
abbrev S128x12800 : Shape := ⟨2, ![128, 12800]⟩
abbrev S1x20000 : Shape := ⟨2, ![1, 20000]⟩

abbrev nBuf : Space → Nat
  | .hbm => 76
  | .vmem => 16
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S128x32, .f32⟩
  | .hbm, ⟨3, _⟩ => ⟨S32, .f32⟩
  | .hbm, ⟨4, _⟩ => ⟨S128x640000, .f32⟩
  | .hbm, ⟨5, _⟩ => ⟨S128, .f32⟩
  | .hbm, ⟨6, _⟩ => ⟨S20000x128, .f32⟩
  | .hbm, ⟨7, _⟩ => ⟨S20000, .f32⟩
  | .hbm, ⟨8, _⟩ => ⟨S20000x32, .f32⟩
  | .hbm, ⟨9, _⟩ => ⟨S20000, .i32⟩
  | .hbm, ⟨10, _⟩ => ⟨S1x640000, .i32⟩
  | .hbm, ⟨11, _⟩ => ⟨S640000, .i32⟩
  | .hbm, ⟨12, _⟩ => ⟨S660000, .i32⟩
  | .hbm, ⟨13, _⟩ => ⟨S1x640000, .i32⟩
  | .hbm, ⟨14, _⟩ => ⟨S640000, .i32⟩
  | .hbm, ⟨15, _⟩ => ⟨S660000, .i32⟩
  | .hbm, ⟨16, _⟩ => ⟨S_, .f32⟩
  | .hbm, ⟨17, _⟩ => ⟨S660000, .f32⟩
  | .hbm, ⟨18, _⟩ => ⟨S_, .f32⟩
  | .hbm, ⟨19, _⟩ => ⟨S20000, .f32⟩
  | .hbm, ⟨20, _⟩ => ⟨S660000x1, .i32⟩
  | .hbm, ⟨21, _⟩ => ⟨S20000, .f32⟩
  | .hbm, ⟨22, _⟩ => ⟨S_, .f32⟩
  | .hbm, ⟨23, _⟩ => ⟨S20000, .f32⟩
  | .hbm, ⟨24, _⟩ => ⟨S20000, .i1⟩
  | .hbm, ⟨25, _⟩ => ⟨S20000, .f32⟩
  | .hbm, ⟨26, _⟩ => ⟨S_, .f32⟩
  | .hbm, ⟨27, _⟩ => ⟨S_, .f32⟩
  | .hbm, ⟨28, _⟩ => ⟨S20000, .f32⟩
  | .hbm, ⟨29, _⟩ => ⟨S20000, .f32⟩
  | .hbm, ⟨30, _⟩ => ⟨S_, .i32⟩
  | .hbm, ⟨31, _⟩ => ⟨S660000, .i32⟩
  | .hbm, ⟨32, _⟩ => ⟨S660000, .i1⟩
  | .hbm, ⟨33, _⟩ => ⟨S_, .i32⟩
  | .hbm, ⟨34, _⟩ => ⟨S660000, .i32⟩
  | .hbm, ⟨35, _⟩ => ⟨S660000, .i32⟩
  | .hbm, ⟨36, _⟩ => ⟨S660000, .i32⟩
  | .hbm, ⟨37, _⟩ => ⟨S660000x1, .i32⟩
  | .hbm, ⟨38, _⟩ => ⟨S660000, .f32⟩
  | .hbm, ⟨39, _⟩ => ⟨S_, .i32⟩
  | .hbm, ⟨40, _⟩ => ⟨S660000, .i32⟩
  | .hbm, ⟨41, _⟩ => ⟨S660000, .i1⟩
  | .hbm, ⟨42, _⟩ => ⟨S_, .i32⟩
  | .hbm, ⟨43, _⟩ => ⟨S660000, .i32⟩
  | .hbm, ⟨44, _⟩ => ⟨S660000, .i32⟩
  | .hbm, ⟨45, _⟩ => ⟨S660000, .i32⟩
  | .hbm, ⟨46, _⟩ => ⟨S660000x1, .i32⟩
  | .hbm, ⟨47, _⟩ => ⟨S660000, .f32⟩
  | .hbm, ⟨48, _⟩ => ⟨S660000, .f32⟩
  | .hbm, ⟨49, _⟩ => ⟨S_, .i32⟩
  | .hbm, ⟨50, _⟩ => ⟨S660000, .i32⟩
  | .hbm, ⟨51, _⟩ => ⟨S660000, .i1⟩
  | .hbm, ⟨52, _⟩ => ⟨S_, .i32⟩
  | .hbm, ⟨53, _⟩ => ⟨S660000, .i32⟩
  | .hbm, ⟨54, _⟩ => ⟨S660000, .i32⟩
  | .hbm, ⟨55, _⟩ => ⟨S660000, .i32⟩
  | .hbm, ⟨56, _⟩ => ⟨S660000x1, .i32⟩
  | .hbm, ⟨57, _⟩ => ⟨S660000x32, .f32⟩
  | .hbm, ⟨58, _⟩ => ⟨S660000x1, .f32⟩
  | .hbm, ⟨59, _⟩ => ⟨S660000x32, .f32⟩
  | .hbm, ⟨60, _⟩ => ⟨S660000x32, .f32⟩
  | .hbm, ⟨61, _⟩ => ⟨S_, .f32⟩
  | .hbm, ⟨62, _⟩ => ⟨S20000x32, .f32⟩
  | .hbm, ⟨63, _⟩ => ⟨S660000x1, .i32⟩
  | .hbm, ⟨64, _⟩ => ⟨S20000x32, .f32⟩
  | .hbm, ⟨65, _⟩ => ⟨S1x32, .f32⟩
  | .hbm, ⟨66, _⟩ => ⟨S20000x32, .f32⟩
  | .hbm, ⟨67, _⟩ => ⟨S20000x32, .f32⟩
  | .hbm, ⟨68, _⟩ => ⟨S_, .f32⟩
  | .hbm, ⟨69, _⟩ => ⟨S20000x32, .f32⟩
  | .hbm, ⟨70, _⟩ => ⟨S20000x32, .f32⟩
  | .hbm, ⟨71, _⟩ => ⟨S1x640000, .f32⟩
  | .hbm, ⟨72, _⟩ => ⟨S1x128, .f32⟩
  | .hbm, ⟨73, _⟩ => ⟨S1x128, .f32⟩
  | .hbm, ⟨74, _⟩ => ⟨S1x20000, .f32⟩
  | .hbm, ⟨75, _⟩ => ⟨S1x20000, .f32⟩
  | .local _ .vmem, ⟨0, _⟩ => ⟨S2000x128, .f32⟩
  | .local _ .vmem, ⟨1, _⟩ => ⟨S2000x128, .f32⟩
  | .local _ .vmem, ⟨2, _⟩ => ⟨S128x32, .f32⟩
  | .local _ .vmem, ⟨3, _⟩ => ⟨S2000x32, .f32⟩
  | .local _ .vmem, ⟨4, _⟩ => ⟨S2000x32, .f32⟩
  | .local _ .vmem, ⟨5, _⟩ => ⟨S1x12800, .f32⟩
  | .local _ .vmem, ⟨6, _⟩ => ⟨S1x12800, .f32⟩
  | .local _ .vmem, ⟨7, _⟩ => ⟨S128x12800, .f32⟩
  | .local _ .vmem, ⟨8, _⟩ => ⟨S128x12800, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S20000x128, .f32⟩
  | .local _ .vmem, ⟨14, _⟩ => ⟨S1x20000, .f32⟩
  | .local _ .vmem, ⟨15, _⟩ => ⟨S1x20000, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc2_sem0_0 : DmaSem sig := 11
abbrev cc2_sem1_0 : DmaSem sig := 12
abbrev cc2_sem2_0 : DmaSem sig := 13
abbrev cc2_sem3_0 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v14 : BitVec 1 := Scalar.cmpi .eq arg0 c49_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x12800 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x12800 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S20000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x20000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x20000 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S2000x32_S2000x32_0_0 : ∀ a, (![0, 0] : Fin 2 → Nat) a + S2000x32.size a ≤ S2000x32.size a
  h_S2000x32 : 0 < S2000x32.numel
  slices_S2x640000_S1x640000_0_0 : S2x640000.Slices ![0, 0] S1x640000
  shapeCasts_S1x640000_S640000 : S1x640000.ShapeCasts S640000
  concatenates_S640000_S20000_S660000_d0 : Shape.Concatenates [S640000, S20000] S660000 0
  slices_S2x640000_S1x640000_1_0 : S2x640000.Slices ![1, 0] S1x640000
  bcast_S_S660000 : S_.BroadcastsInDim S660000 (![] : Fin 0 → Fin S660000.rank)
  bcast_S_S20000 : S_.BroadcastsInDim S20000 (![] : Fin 0 → Fin S20000.rank)
  bcast_S660000_S660000x1_0 : S660000.BroadcastsInDim S660000x1 (![0] : Fin 1 → Fin S660000x1.rank)
  bcast_S660000x1_S660000x32_0_1 : S660000x1.BroadcastsInDim S660000x32 (![0, 1] : Fin 2 → Fin S660000x32.rank)
  bcast_S_S20000x32 : S_.BroadcastsInDim S20000x32 (![] : Fin 0 → Fin S20000x32.rank)
  bcast_S32_S1x32_1 : S32.BroadcastsInDim S1x32 (![1] : Fin 1 → Fin S1x32.rank)
  bcast_S1x32_S20000x32_0_1 : S1x32.BroadcastsInDim S20000x32 (![0, 1] : Fin 2 → Fin S20000x32.rank)
  shapeCasts_S20000x32_S1x640000 : S20000x32.ShapeCasts S1x640000
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x12800_S1x12800_0_0 : ∀ a, (![0, 0] : Fin 2 → Nat) a + S1x12800.size a ≤ S1x12800.size a
  h_S1x12800 : 0 < S1x12800.numel
  shapeCasts_S1x12800_S1x12800 : S1x12800.ShapeCasts S1x12800
  inb_S128x12800_S128x12800_0_0 : ∀ a, (![0, 0] : Fin 2 → Nat) a + S128x12800.size a ≤ S128x12800.size a
  h_S128x12800 : 0 < S128x12800.numel
  shapeCasts_S20000_S1x20000 : S20000.ShapeCasts S1x20000
  inb_S20000x128_S20000x128_0_0 : ∀ a, (![0, 0] : Fin 2 → Nat) a + S20000x128.size a ≤ S20000x128.size a
  h_S20000x128 : 0 < S20000x128.numel
  inb_S1x20000_S1x20000_0_0 : ∀ a, (![0, 0] : Fin 2 → Nat) a + S1x20000.size a ≤ S1x20000.size a
  h_S1x20000 : 0 < S1x20000.numel
  shapeCasts_S1x20000_S1x20000 : S1x20000.ShapeCasts S1x20000
  dot_S2000x128_S128x32_S2000x32_1_0_0_1_n_n_wf : DotDims.WF S2000x128 S128x32 S2000x32 [1] [0] [0] [1] [] []
  scatter_S20000_S660000x1_S660000_n_0_0_1_wf : ScatterDims.WF S20000 S660000x1 S660000 [] [0] [0] 1
  gather_S20000_S660000x1_S660000_n_0_n_n_0_1_1_wf : GatherDims.WF S20000 S660000x1 S660000 [] [0] [] [0] [] 1 ![1]
  gather_S20000x32_S660000x1_S660000x32_1_0_n_n_0_1_132_wf : GatherDims.WF S20000x32 S660000x1 S660000x32 [1] [0] [] [0] [] 1 ![1, 32]
  scatter_S20000x32_S660000x1_S660000x32_1_0_0_1_wf : ScatterDims.WF S20000x32 S660000x1 S660000x32 [1] [0] [0] 1
  dot_S1x12800_S128x12800_S1x128_1_1_0_0_n_n_wf : DotDims.WF S1x12800 S128x12800 S1x128 [1] [1] [0] [0] [] []
  dot_S1x128_S20000x128_S1x20000_1_1_0_0_n_n_wf : DotDims.WF S1x128 S20000x128 S1x20000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x32.size a ≤ S20000x32.size a
  hwx0_2 : ∀ i : grid0.Coords, EltTy.bits .f32 = 32 ∨ (Rect.block (s := S20000x32) S2000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x12800.size a ≤ S1x640000.size a
  hwx1_0 : ∀ i : grid1.Coords, EltTy.bits .f32 = 32 ∨ (Rect.block (s := S1x640000) S1x12800.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x12800.size a ≤ S128x640000.size a
  hwx1_1 : ∀ i : grid1.Coords, EltTy.bits .f32 = 32 ∨ (Rect.block (s := S128x640000) S128x12800.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x128.size a ≤ S1x128.size a
  hwx2_0 : ∀ i : grid2.Coords, EltTy.bits .f32 = 32 ∨ (Rect.block (s := S1x128) S1x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S20000x128.size a ≤ S20000x128.size a
  hwx2_1 : ∀ i : grid2.Coords, EltTy.bits .f32 = 32 ∨ (Rect.block (s := S20000x128) S20000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x20000.size a ≤ S1x20000.size a
  hwx2_2 : ∀ i : grid2.Coords, EltTy.bits .f32 = 32 ∨ (Rect.block (s := S1x20000) S1x20000.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x20000.size a ≤ S1x20000.size a
  hwx2_3 : ∀ i : grid2.Coords, EltTy.bits .f32 = 32 ∨ (Rect.block (s := S1x20000) S1x20000.size (cc2_transform_3 i) (hinb2_3 i)).WholeWords (EltTy.packing .f32)

variable [Facts₀]

def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf
def scatter_S20000_S660000x1_S660000_n_0_0_1 : ScatterDims S20000 S660000x1 S660000 where
  updateWindowDims := []
  insertedWindowDims := [0]
  scatterDimsToOperandDims := [0]
  indexVectorDim := 1
  wf := scatter_S20000_S660000x1_S660000_n_0_0_1_wf
def gather_S20000_S660000x1_S660000_n_0_n_n_0_1_1 : GatherDims S20000 S660000x1 S660000 where
  offsetDims := []
  collapsedSliceDims := [0]
  operandBatchingDims := []
  startIndicesBatchingDims := []
  startIndexMap := [0]
  indexVectorDim := 1
  sliceSizes := ![1]
  wf := gather_S20000_S660000x1_S660000_n_0_n_n_0_1_1_wf
def gather_S20000x32_S660000x1_S660000x32_1_0_n_n_0_1_132 : GatherDims S20000x32 S660000x1 S660000x32 where
  offsetDims := [1]
  collapsedSliceDims := [0]
  operandBatchingDims := []
  startIndicesBatchingDims := []
  startIndexMap := [0]
  indexVectorDim := 1
  sliceSizes := ![1, 32]
  wf := gather_S20000x32_S660000x1_S660000x32_1_0_n_n_0_1_132_wf
def scatter_S20000x32_S660000x1_S660000x32_1_0_0_1 : ScatterDims S20000x32 S660000x1 S660000x32 where
  updateWindowDims := [1]
  insertedWindowDims := [0]
  scatterDimsToOperandDims := [0]
  indexVectorDim := 1
  wf := scatter_S20000x32_S660000x1_S660000x32_1_0_0_1_wf
def dot_S1x12800_S128x12800_S1x128_1_1_0_0_n_n : DotDims S1x12800 S128x12800 S1x128 where
  lhsContracting := [1]
  rhsContracting := [1]
  lhsNonContracting := [0]
  rhsNonContracting := [0]
  lhsBatch := []
  rhsBatch := []
  wf := dot_S1x12800_S128x12800_S1x128_1_1_0_0_n_n_wf
def dot_S1x128_S20000x128_S1x20000_1_1_0_0_n_n : DotDims S1x128 S20000x128 S1x20000 where
  lhsContracting := [1]
  rhsContracting := [1]
  lhsNonContracting := [0]
  rhsNonContracting := [0]
  lhsBatch := []
  rhsBatch := []
  wf := dot_S1x128_S20000x128_S1x20000_1_1_0_0_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S1x12800.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x12800.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v50) S1x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S20000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x20000.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x20000.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S20000x128 : Shape := ⟨2, ![20000, 128]⟩
abbrev S2x640000 : Shape := ⟨2, ![2, 640000]⟩
abbrev S128x32 : Shape := ⟨2, ![128, 32]⟩
abbrev S32 : Shape := ⟨1, ![32]⟩
abbrev S128x640000 : Shape := ⟨2, ![128, 640000]⟩
abbrev S128 : Shape := ⟨1, ![128]⟩
abbrev S20000 : Shape := ⟨1, ![20000]⟩
abbrev S1x640000 : Shape := ⟨2, ![1, 640000]⟩
abbrev S640000 : Shape := ⟨1, ![640000]⟩
abbrev S660000 : Shape := ⟨1, ![660000]⟩
abbrev S_ : Shape := ⟨0, ![]⟩
abbrev S660000x1 : Shape := ⟨2, ![660000, 1]⟩
abbrev S20000x32 : Shape := ⟨2, ![20000, 32]⟩
abbrev S660000x32 : Shape := ⟨2, ![660000, 32]⟩
abbrev S1x32 : Shape := ⟨2, ![1, 32]⟩
abbrev S640000x128 : Shape := ⟨2, ![640000, 128]⟩
abbrev S1x128 : Shape := ⟨2, ![1, 128]⟩
abbrev S128x20000 : Shape := ⟨2, ![128, 20000]⟩
abbrev S1x20000 : Shape := ⟨2, ![1, 20000]⟩

abbrev nBuf : Space → Nat
  | .hbm => 86
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S128x32, .f32⟩
  | .hbm, ⟨3, _⟩ => ⟨S32, .f32⟩
  | .hbm, ⟨4, _⟩ => ⟨S128x640000, .f32⟩
  | .hbm, ⟨5, _⟩ => ⟨S128, .f32⟩
  | .hbm, ⟨6, _⟩ => ⟨S20000x128, .f32⟩
  | .hbm, ⟨7, _⟩ => ⟨S20000, .f32⟩
  | .hbm, ⟨8, _⟩ => ⟨S20000, .i32⟩
  | .hbm, ⟨9, _⟩ => ⟨S1x640000, .i32⟩
  | .hbm, ⟨10, _⟩ => ⟨S640000, .i32⟩
  | .hbm, ⟨11, _⟩ => ⟨S660000, .i32⟩
  | .hbm, ⟨12, _⟩ => ⟨S1x640000, .i32⟩
  | .hbm, ⟨13, _⟩ => ⟨S640000, .i32⟩
  | .hbm, ⟨14, _⟩ => ⟨S660000, .i32⟩
  | .hbm, ⟨15, _⟩ => ⟨S_, .f32⟩
  | .hbm, ⟨16, _⟩ => ⟨S660000, .f32⟩
  | .hbm, ⟨17, _⟩ => ⟨S_, .f32⟩
  | .hbm, ⟨18, _⟩ => ⟨S20000, .f32⟩
  | .hbm, ⟨19, _⟩ => ⟨S660000x1, .i32⟩
  | .hbm, ⟨20, _⟩ => ⟨S20000, .f32⟩
  | .hbm, ⟨21, _⟩ => ⟨S_, .f32⟩
  | .hbm, ⟨22, _⟩ => ⟨S20000, .f32⟩
  | .hbm, ⟨23, _⟩ => ⟨S20000, .i1⟩
  | .hbm, ⟨24, _⟩ => ⟨S20000, .f32⟩
  | .hbm, ⟨25, _⟩ => ⟨S_, .f32⟩
  | .hbm, ⟨26, _⟩ => ⟨S_, .f32⟩
  | .hbm, ⟨27, _⟩ => ⟨S20000, .f32⟩
  | .hbm, ⟨28, _⟩ => ⟨S20000, .f32⟩
  | .hbm, ⟨29, _⟩ => ⟨S_, .i32⟩
  | .hbm, ⟨30, _⟩ => ⟨S660000, .i32⟩
  | .hbm, ⟨31, _⟩ => ⟨S660000, .i1⟩
  | .hbm, ⟨32, _⟩ => ⟨S_, .i32⟩
  | .hbm, ⟨33, _⟩ => ⟨S660000, .i32⟩
  | .hbm, ⟨34, _⟩ => ⟨S660000, .i32⟩
  | .hbm, ⟨35, _⟩ => ⟨S660000, .i32⟩
  | .hbm, ⟨36, _⟩ => ⟨S660000x1, .i32⟩
  | .hbm, ⟨37, _⟩ => ⟨S660000, .f32⟩
  | .hbm, ⟨38, _⟩ => ⟨S_, .i32⟩
  | .hbm, ⟨39, _⟩ => ⟨S660000, .i32⟩
  | .hbm, ⟨40, _⟩ => ⟨S660000, .i1⟩
  | .hbm, ⟨41, _⟩ => ⟨S_, .i32⟩
  | .hbm, ⟨42, _⟩ => ⟨S660000, .i32⟩
  | .hbm, ⟨43, _⟩ => ⟨S660000, .i32⟩
  | .hbm, ⟨44, _⟩ => ⟨S660000, .i32⟩
  | .hbm, ⟨45, _⟩ => ⟨S660000x1, .i32⟩
  | .hbm, ⟨46, _⟩ => ⟨S660000, .f32⟩
  | .hbm, ⟨47, _⟩ => ⟨S660000, .f32⟩
  | .hbm, ⟨48, _⟩ => ⟨S20000x32, .f32⟩
  | .hbm, ⟨49, _⟩ => ⟨S_, .i32⟩
  | .hbm, ⟨50, _⟩ => ⟨S660000, .i32⟩
  | .hbm, ⟨51, _⟩ => ⟨S660000, .i1⟩
  | .hbm, ⟨52, _⟩ => ⟨S_, .i32⟩
  | .hbm, ⟨53, _⟩ => ⟨S660000, .i32⟩
  | .hbm, ⟨54, _⟩ => ⟨S660000, .i32⟩
  | .hbm, ⟨55, _⟩ => ⟨S660000, .i32⟩
  | .hbm, ⟨56, _⟩ => ⟨S660000x1, .i32⟩
  | .hbm, ⟨57, _⟩ => ⟨S660000x32, .f32⟩
  | .hbm, ⟨58, _⟩ => ⟨S660000x1, .f32⟩
  | .hbm, ⟨59, _⟩ => ⟨S660000x32, .f32⟩
  | .hbm, ⟨60, _⟩ => ⟨S660000x32, .f32⟩
  | .hbm, ⟨61, _⟩ => ⟨S_, .f32⟩
  | .hbm, ⟨62, _⟩ => ⟨S20000x32, .f32⟩
  | .hbm, ⟨63, _⟩ => ⟨S660000x1, .i32⟩
  | .hbm, ⟨64, _⟩ => ⟨S20000x32, .f32⟩
  | .hbm, ⟨65, _⟩ => ⟨S1x32, .f32⟩
  | .hbm, ⟨66, _⟩ => ⟨S20000x32, .f32⟩
  | .hbm, ⟨67, _⟩ => ⟨S20000x32, .f32⟩
  | .hbm, ⟨68, _⟩ => ⟨S_, .f32⟩
  | .hbm, ⟨69, _⟩ => ⟨S20000x32, .f32⟩
  | .hbm, ⟨70, _⟩ => ⟨S20000x32, .f32⟩
  | .hbm, ⟨71, _⟩ => ⟨S1x640000, .f32⟩
  | .hbm, ⟨72, _⟩ => ⟨S640000x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S_, .f32⟩
  | .hbm, ⟨77, _⟩ => ⟨S1x128, .f32⟩
  | .hbm, ⟨78, _⟩ => ⟨S1x128, .f32⟩
  | .hbm, ⟨79, _⟩ => ⟨S128x20000, .f32⟩
  | .hbm, ⟨80, _⟩ => ⟨S1x20000, .f32⟩
  | .hbm, ⟨81, _⟩ => ⟨S1x20000, .f32⟩
  | .hbm, ⟨82, _⟩ => ⟨S1x20000, .f32⟩
  | .hbm, ⟨83, _⟩ => ⟨S_, .f32⟩
  | .hbm, ⟨84, _⟩ => ⟨S1x20000, .f32⟩
  | .hbm, ⟨85, _⟩ => ⟨S1x20000, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call2_cst : Ref sig .tc := ⟨.hbm, 76, rfl⟩
abbrev main_call2_v0 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_call3_cst : Ref sig .tc := ⟨.hbm, 83, rfl⟩
abbrev main_call3_v0 : Ref sig .tc := ⟨.hbm, 84, rfl⟩
abbrev main_v58 : Ref sig .tc := ⟨.hbm, 85, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S20000_S660000_d0 : Shape.Concatenates [S640000, S20000] S660000 0
  slices_S2x640000_S1x640000_1_0 : S2x640000.Slices ![1, 0] S1x640000
  bcast_S_S660000 : S_.BroadcastsInDim S660000 (![] : Fin 0 → Fin S660000.rank)
  bcast_S_S20000 : S_.BroadcastsInDim S20000 (![] : Fin 0 → Fin S20000.rank)
  bcast_S660000_S660000x1_0 : S660000.BroadcastsInDim S660000x1 (![0] : Fin 1 → Fin S660000x1.rank)
  bcast_S660000x1_S660000x32_0_1 : S660000x1.BroadcastsInDim S660000x32 (![0, 1] : Fin 2 → Fin S660000x32.rank)
  bcast_S_S20000x32 : S_.BroadcastsInDim S20000x32 (![] : Fin 0 → Fin S20000x32.rank)
  bcast_S32_S1x32_1 : S32.BroadcastsInDim S1x32 (![1] : Fin 1 → Fin S1x32.rank)
  bcast_S1x32_S20000x32_0_1 : S1x32.BroadcastsInDim S20000x32 (![0, 1] : Fin 2 → Fin S20000x32.rank)
  shapeCasts_S20000x32_S1x640000 : S20000x32.ShapeCasts S1x640000
  transposes_S128x640000_S640000x128_1_0 : S128x640000.Transposes [1, 0] S640000x128
  bcast_S128_S1x128_1 : S128.BroadcastsInDim S1x128 (![1] : Fin 1 → Fin S1x128.rank)
  bcast_S_S1x128 : S_.BroadcastsInDim S1x128 (![] : Fin 0 → Fin S1x128.rank)
  transposes_S20000x128_S128x20000_1_0 : S20000x128.Transposes [1, 0] S128x20000
  bcast_S20000_S1x20000_1 : S20000.BroadcastsInDim S1x20000 (![1] : Fin 1 → Fin S1x20000.rank)
  bcast_S_S1x20000 : S_.BroadcastsInDim S1x20000 (![] : Fin 0 → Fin S1x20000.rank)
  scatter_S20000_S660000x1_S660000_n_0_0_1_wf : ScatterDims.WF S20000 S660000x1 S660000 [] [0] [0] 1
  gather_S20000_S660000x1_S660000_n_0_n_n_0_1_1_wf : GatherDims.WF S20000 S660000x1 S660000 [] [0] [] [0] [] 1 ![1]
  dot_S20000x128_S128x32_S20000x32_1_0_0_1_n_n_wf : DotDims.WF S20000x128 S128x32 S20000x32 [1] [0] [0] [1] [] []
  gather_S20000x32_S660000x1_S660000x32_1_0_n_n_0_1_132_wf : GatherDims.WF S20000x32 S660000x1 S660000x32 [1] [0] [] [0] [] 1 ![1, 32]
  scatter_S20000x32_S660000x1_S660000x32_1_0_0_1_wf : ScatterDims.WF S20000x32 S660000x1 S660000x32 [1] [0] [0] 1
  dot_S1x640000_S640000x128_S1x128_1_0_0_1_n_n_wf : DotDims.WF S1x640000 S640000x128 S1x128 [1] [0] [0] [1] [] []
  dot_S1x128_S128x20000_S1x20000_1_0_0_1_n_n_wf : DotDims.WF S1x128 S128x20000 S1x20000 [1] [0] [0] [1] [] []

variable [Facts₀]

def scatter_S20000_S660000x1_S660000_n_0_0_1 : ScatterDims S20000 S660000x1 S660000 where
  updateWindowDims := []
  insertedWindowDims := [0]
  scatterDimsToOperandDims := [0]
  indexVectorDim := 1
  wf := scatter_S20000_S660000x1_S660000_n_0_0_1_wf
def gather_S20000_S660000x1_S660000_n_0_n_n_0_1_1 : GatherDims S20000 S660000x1 S660000 where
  offsetDims := []
  collapsedSliceDims := [0]
  operandBatchingDims := []
  startIndicesBatchingDims := []
  startIndexMap := [0]
  indexVectorDim := 1
  sliceSizes := ![1]
  wf := gather_S20000_S660000x1_S660000_n_0_n_n_0_1_1_wf
def dot_S20000x128_S128x32_S20000x32_1_0_0_1_n_n : DotDims S20000x128 S128x32 S20000x32 where
  lhsContracting := [1]
  rhsContracting := [0]
  lhsNonContracting := [0]
  rhsNonContracting := [1]
  lhsBatch := []
  rhsBatch := []
  wf := dot_S20000x128_S128x32_S20000x32_1_0_0_1_n_n_wf
def gather_S20000x32_S660000x1_S660000x32_1_0_n_n_0_1_132 : GatherDims S20000x32 S660000x1 S660000x32 where
  offsetDims := [1]
  collapsedSliceDims := [0]
  operandBatchingDims := []
  startIndicesBatchingDims := []
  startIndexMap := [0]
  indexVectorDim := 1
  sliceSizes := ![1, 32]
  wf := gather_S20000x32_S660000x1_S660000x32_1_0_n_n_0_1_132_wf
def scatter_S20000x32_S660000x1_S660000x32_1_0_0_1 : ScatterDims S20000x32 S660000x1 S660000x32 where
  updateWindowDims := [1]
  insertedWindowDims := [0]
  scatterDimsToOperandDims := [0]
  indexVectorDim := 1
  wf := scatter_S20000x32_S660000x1_S660000x32_1_0_0_1_wf
def dot_S1x640000_S640000x128_S1x128_1_0_0_1_n_n : DotDims S1x640000 S640000x128 S1x128 where
  lhsContracting := [1]
  rhsContracting := [0]
  lhsNonContracting := [0]
  rhsNonContracting := [1]
  lhsBatch := []
  rhsBatch := []
  wf := dot_S1x640000_S640000x128_S1x128_1_0_0_1_n_n_wf
def dot_S1x128_S128x20000_S1x20000_1_0_0_1_n_n : DotDims S1x128 S128x20000 S1x20000 where
  lhsContracting := [1]
  rhsContracting := [0]
  lhsNonContracting := [0]
  rhsNonContracting := [1]
  lhsBatch := []
  rhsBatch := []
  wf := dot_S1x128_S128x20000_S1x20000_1_0_0_1_n_n_wf

class Facts : Prop extends Facts₀ where

variable [Facts]
-- ==== Proof.KBounds.lean ====
/-
  What the three regions leave behind, as plain functions of what they find.

  Each region is entered from the core's buffer contents `V`. At a grid point an input window's staging tile
  holds that window's block of its array; the body then leaves, in the output tile, a pure function of the
  input blocks. Region 0 leaves the product of its row tile with the right factor. Region 1 keeps a scratch
  row across its fifty points: after point 0 it holds the zero row plus tile 0's product, after point n+1 what
  it held after point n plus tile n+1's product; its output tile, stored at the last point only, is
  max(scratch + bias, 0). Region 2 leaves max(row · weightsᵀ + bias, 0). Between two regions the contents are
  those the region left in its arrays, every other buffer as before, followed by the host operations of the
  stretch in between.
-/
import proofs.«107239_j17016660427224_1_alg».proof.Proof.Gen.Kernel.Launch
import proofs.«107239_j17016660427224_1_alg».proof.Proof.Gen.Kernel.Skeleton
import proofs.«107239_j17016660427224_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0 -/

/-- Window `w`'s block at grid point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging tile holds its block at every point, fetched there or kept from before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The proof data of region 0: its arrays as found; after the body the input tiles at their blocks and the output
    tile at the product of the two input blocks; the invariant is the untouched scoped buffers and generator state. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay1 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## Region 1 -/

/-- Window `w`'s block at grid point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The scratch row of region 1, a whole scoped buffer of the kernel's own. -/
abbrev scM1 : Memref sig .tc .vmem S1x128 .f32 := Memref.whole cc1_scratch0

/-- What the scratch row holds after grid point `n`: the zero row plus tile 0's product after point 0, and after
    point `n + 1` what it held after point `n` plus tile `n + 1`'s product. -/
def accAt1 (c : Dev nD) : (n : ℕ) → n < cfg1.N → Vec F S1x128 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩) (accAt1 c n (Nat.lt_of_succ_lt hn))

theorem accAt1_zero (c : Dev nD) (hn : 0 < cfg1.N) :
    accAt1 V c 0 hn = k1_pay2 (iblk1 V c 0 ⟨0, hn⟩) (iblk1 V c 1 ⟨0, hn⟩) (k1_pay1 (F := F)) := rfl
theorem accAt1_succ (c : Dev nD) (n : ℕ) (hn : n + 1 < cfg1.N) :
    accAt1 V c (n + 1) hn = k1_pay2 (iblk1 V c 0 ⟨n + 1, hn⟩) (iblk1 V c 1 ⟨n + 1, hn⟩) (accAt1 V c n (Nat.lt_of_succ_lt hn)) := rfl

/-- The scoped buffers region 1 neither stages nor uses: the other regions' staging tiles, each whole at something. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f))

/-- The invariant of region 1 before grid position `n`: before the first point, every scoped buffer it does not stage
    at anything and the generator register at some state; afterwards the same with the scratch row at what the point
    before left in it. -/
def PhiS1 (c : Dev nD) : (n : ℕ) → n ≤ cfg1.N → sProp 𝕄
  | 0, _ => Pipeline.ΦA spec1 c
  | n + 1, hn => iprop(owns (c : Thread nD τ) scM1 fullShare (accAt1 V c n hn) ∗ rest1 (F := F) c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare (accAt1 V c n hn) ∗ rest1 (F := F) c ∗ (∃ r, prngReg c r)) := rfl
theorem PhiS1_pos (c : Dev nD) (n : ℕ) (h : n ≤ cfg1.N) (hz : n ≠ 0) :
    PhiS1 V c n h = iprop(owns (c : Thread nD τ) scM1 fullShare (accAt1 V c (n - 1) (by omega)) ∗ rest1 (F := F) c ∗ (∃ r, prngReg c r)) := by
  cases n with
  | zero => exact absurd rfl hz
  | succ n => rfl

/-- The proof data of region 1: its arrays as found; after the body the input tiles at their blocks and the output
    tile at max(scratch + bias, 0) of the scratch after the point (consulted at the last point only, where the tile
    is stored and written back); the invariant tracks the scratch. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (accAt1 V c t.val t.isLt) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem PhiS1_castSucc (c : Dev nD) (t : Fin cfg1.N) :
    (dat1 V c).Φ t.castSucc = PhiS1 V c t.val (Nat.le_of_lt t.isLt) := by
  dsimp only [dat1]; simp only [Fin.coe_castSucc]

/-! ## Region 2 -/

/-- Window `w`'s block at grid point `t` of region 2, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The proof data of region 2: its arrays as found; after the body the input tiles at their blocks and the output
    tile at max(row · weightsᵀ + bias, 0). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay1 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay1 (iblk2 V c 0 t) (iblk2 V c 1 t) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

end Regions

/-! ## The buffer contents at each item boundary of the program -/

variable (m : (ℓ : Loc nD τ sig) → Buf (Elt F) ℓ)

/-- Core `c`'s buffers at launch (region 0 comes first). -/
abbrev W0 : Dev nD → Valuation τ sig (Elt F) := fun c b => m ((c : Dev nD), b)
abbrev Vr0 : (c : Dev nD) → (b : Ref sig .tc) → Buf (Elt F) ((c : Thread nD τ).loc b) := fun c b => W0 m c b
/-- After region 0: its arrays at what its write-backs leave, every other buffer as before. -/
def W1 (c : Dev nD) : Valuation τ sig (Elt F) :=
  Pipeline.withArrays spec0 c (W0 m c) fun w => (dat0 (Vr0 m) c).arrAt w cfg0.N
/-- After each of the five host stretches between regions 0 and 1. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev W5 : Dev nD → Valuation τ sig (Elt F) := fun c => StableHlo.after hostOps1_3 (W4 m c)
abbrev W6 : Dev nD → Valuation τ sig (Elt F) := fun c => StableHlo.after hostOps1_4 (W5 m c)
abbrev Vr6 : (c : Dev nD) → (b : Ref sig .tc) → Buf (Elt F) ((c : Thread nD τ).loc b) := fun c b => W6 m c b
/-- After region 1. -/
def W7 (c : Dev nD) : Valuation τ sig (Elt F) :=
  Pipeline.withArrays spec1 c (W6 m c) fun w => (dat1 (Vr6 m) c).arrAt w cfg1.N
/-- After the host stretch between regions 1 and 2. -/
abbrev W8 : Dev nD → Valuation τ sig (Elt F) := fun c => StableHlo.after hostOps2 (W7 m c)
abbrev Vr8 : (c : Dev nD) → (b : Ref sig .tc) → Buf (Elt F) ((c : Thread nD τ).loc b) := fun c b => W8 m c b
/-- After region 2: the end of the program. -/
def W9 (c : Dev nD) : Valuation τ sig (Elt F) :=
  Pipeline.withArrays spec2 c (W8 m c) fun w => (dat2 (Vr8 m) c).arrAt w cfg2.N

theorem W1_arr (c : Dev nD) (w : Fin cfg0.W) :
    W1 m c (Proc.devRef .tc (Pipeline.arrRef spec0 w)) = (dat0 (Vr0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W7_arr (c : Dev nD) (w : Fin cfg1.W) :
    W7 m c (Proc.devRef .tc (Pipeline.arrRef spec1 w)) = (dat1 (Vr6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
theorem W9_arr (c : Dev nD) (w : Fin cfg2.W) :
    W9 m c (Proc.devRef .tc (Pipeline.arrRef spec2 w)) = (dat2 (Vr8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr6 m) c
  | ⟨2, _⟩ => fun c => dat2 (Vr8 m) c

end Cert.Kernel.Hand

end
-- ==== Proof.LibWholeStore.lean ====
/-
  A store over a whole block, made last, is what the block then reads.

  A list of stores through rectangles of a view is read back index by index: each index reads the payload of
  the last store whose rectangle holds it. When the last store's rectangle is the whole shape at zero offsets,
  every index is under it, so the contents read back are that store's payload, whatever was stored before and
  whatever the buffer held. Stated over an abstract shape, so that applying it at a large literal shape never
  asks for the shape's index set.
-/
import Idealize.ShloMosaic.Lib.Pipeline.Value

noncomputable section

namespace Cert.WholeStore

open Idealize.ShloMosaic

variable {sig : RefSig} {κ : Kind} {sp : Space} {S : Shape} {e : EltTy} {Val : EltTy → Type}

/-- The whole-shape rectangle at zero offsets covers every index, so a list of stores headed by one through it
    covers the shape. -/
theorem cover_cons [∀ e, Nonempty (Val e)] {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set :=
  ⟨⟨Rect.unit off S.size inb, w⟩, List.mem_cons_self .., View.mem_set_unit_zero h inb y⟩

/-- A buffer read after a list of stores whose last is a store of `w` over the whole shape reads `w`. -/
theorem read_writes_cons [∀ e, Nonempty (Val e)] (v : View sig κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (cover_cons h inb w L)]
  exact View.canon_cons_unit_zero h inb w L

end Cert.WholeStore

end
-- ==== Proof.KBody0.lean ====
/-
  Region 0 of the program: the row-tile product. At one grid point the body loads a tile of 2000 rows of the
  left factor and the whole right factor, and stores their product (formed from a zero accumulator) over the
  whole output tile. Since the store is over the whole tile, the tile afterwards holds exactly that product,
  whatever it held before.
-/
import proofs.«107239_j17016660427224_1_alg».proof.Proof.Gen.Kernel.Launch
import proofs.«107239_j17016660427224_1_alg».proof.Proof.Gen.Kernel.Skeleton
import proofs.«107239_j17016660427224_1_alg».proof.Proof.Gen.Kernel.Points
import proofs.«107239_j17016660427224_1_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-two whole-shape rectangle. -/
theorem zero_off2 : (![0, 0] : Fin 2 → Nat) = fun _ => 0 := by
  funext a; fin_cases a <;> rfl

set_option maxHeartbeats 2000000 in
/-- The body of region 0 on whole tiles: with the two inputs held at `x0` and `x1` and the output tile at
    anything, it runs to its end handing back the inputs as they were and the output tile at the product
    `k0_pay1 x0 x1`. -/
theorem sound_kernel0 (c : Dev nD) (E : Set ℕ) (i : grid0.Coords)
    (arg1 : Memref sig .tc .vmem S2000x128 .f32) (harg1 : arg1.IsWhole)
    (arg2 : Memref sig .tc .vmem S128x32 .f32) (harg2 : arg2.IsWhole)
    (arg3 : Memref sig .tc .vmem S2000x32 .f32) (harg3 : arg3.IsWhole)
    (x0 : Vec F S2000x128 .f32) (x1 : Vec F S128x32 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__xw_kernel i arg1 harg1 arg2 harg2 arg3 harg3) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [Cert.WholeStore.read_writes_cons _ _ zero_off2]
  simp only [View.readAt_eq_ld, View.ld_unit_zero (S := S2000x128) zero_off2, View.ld_unit_zero (S := S128x32) zero_off2]

end Cert.Kernel.Hand

end
-- ==== Proof.KBody1.lean ====
/-
  Region 1 of the program: the wide dense layer, accumulated over fifty tiles of the contracted axis in a
  scratch row that lives across grid points. At the first point the scratch is set to zero before the tile's
  product is added; at every point the tile's product is added to the scratch; at the last point the output
  row is stored as max(scratch + bias, 0). Every store is over a whole row, so after a point the scratch (and
  at the last point the output) holds exactly the stored value. The two branch conditions are functions of
  the grid coordinate alone: "first point" and "last point".
-/
import proofs.«107239_j17016660427224_1_alg».proof.Proof.Gen.Kernel.Launch
import proofs.«107239_j17016660427224_1_alg».proof.Proof.Gen.Kernel.Skeleton
import proofs.«107239_j17016660427224_1_alg».proof.Proof.Gen.Kernel.Points
import proofs.«107239_j17016660427224_1_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-two whole-shape rectangle. -/
theorem zero_off2'' : (![0, 0] : Fin 2 → Nat) = fun _ => 0 := by
  funext a; fin_cases a <;> rfl

/-- The body's first branch condition as the kernel computes it from the grid coordinate: "this is point 0". -/
abbrev cond1_0 (i : grid1.Coords) : Prop :=
  (Scalar.cmpi .ne (Scalar.extui (Scalar.cmpi .eq (BitVec.ofNat 32 (i 0).val) 0#32)) 0#32) = 1#1
/-- It holds at the first grid point only. -/
theorem hcond1_0 : ∀ t : Fin cfg1.N, cond1_0 (grid1.coords t) ↔ t.val = 0 :=
  (by decide +kernel : ∀ t : Fin grid1.N, cond1_0 (grid1.coords t) ↔ t.val = 0)
/-- The body's second branch condition: "this is the last point". -/
abbrev cond1_1 (i : grid1.Coords) : Prop := k1_cond2 i = 1#1
/-- It holds at the last grid point only. -/
theorem hcond1_1 : ∀ t : Fin cfg1.N, cond1_1 (grid1.coords t) ↔ t.val = 49 :=
  (by decide +kernel : ∀ t : Fin grid1.N, cond1_1 (grid1.coords t) ↔ t.val = 49)

set_option maxHeartbeats 4000000 in
/-- The body at the FIRST point (zeroing branch taken, output branch not): the scratch, held at anything, ends at
    the tile's product added to the zero row; the output row, untouched, is handed back as it was. -/
theorem sound_kernel1_first (c : Dev nD) (E : Set ℕ) (i : grid1.Coords)
    (arg1 : Memref sig .tc .vmem S1x12800 .f32) (harg1 : arg1.IsWhole)
    (arg2 : Memref sig .tc .vmem S128x12800 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : cond1_0 i) (hc1 : ¬ cond1_1 i)
    (x0 : Vec F S1x12800 .f32) (x1 : Vec F S128x12800 .f32) (x2 : Vec F S1x128 .f32) (x3 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k1_pay2 x0 x1 (k1_pay1 (F := F)))) -∗ K ⟨⟩))
      ⊢ wp frame (wpE (defs₀ (F := F)) Variants.none c none) E (cc1__fc1_kernel i arg1 harg1 arg2 harg2 arg3 harg3 arg4 harg4 arg5 harg5) K := by
  simp only [cc1__fc1_kernel_eq_skeleton]; unfold cc1__fc1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_run_names
  rw [Cert.WholeStore.read_writes_cons _ _ zero_off2'', View.readCov_unit_zero _ zero_off2'']
  simp only [View.readAt_eq_ld, View.ld_unit_zero (S := S1x12800) zero_off2'', View.ld_unit_zero (S := S128x12800) zero_off2'', View.ld_unit_zero (S := S1x128) zero_off2'']

set_option maxHeartbeats 4000000 in
/-- The body at a MIDDLE point (neither branch taken): the scratch, held at `xs`, ends at `xs` plus the tile's
    product; the output row is handed back as it was. -/
theorem sound_kernel1_mid (c : Dev nD) (E : Set ℕ) (i : grid1.Coords)
    (arg1 : Memref sig .tc .vmem S1x12800 .f32) (harg1 : arg1.IsWhole)
    (arg2 : Memref sig .tc .vmem S128x12800 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : ¬ cond1_0 i) (hc1 : ¬ cond1_1 i)
    (x0 : Vec F S1x12800 .f32) (x1 : Vec F S128x12800 .f32) (x2 : Vec F S1x128 .f32) (x3 : Vec F S1x128 .f32)
    (xs : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k1_pay2 x0 x1 xs)) -∗ K ⟨⟩))
      ⊢ wp frame (wpE (defs₀ (F := F)) Variants.none c none) E (cc1__fc1_kernel i arg1 harg1 arg2 harg2 arg3 harg3 arg4 harg4 arg5 harg5) K := by
  simp only [cc1__fc1_kernel_eq_skeleton]; unfold cc1__fc1_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [Cert.WholeStore.read_writes_cons _ _ zero_off2'']
  simp only [View.readAt_eq_ld, View.ld_unit_zero (S := S1x12800) zero_off2'', View.ld_unit_zero (S := S128x12800) zero_off2'', View.ld_unit_zero (S := S1x128) zero_off2'']

set_option maxHeartbeats 4000000 in
/-- The body at the LAST point (zeroing branch not taken, output branch taken): the scratch, held at `xs`, ends at
    `xs` plus the tile's product, and the output row, held at anything, ends at max(that + bias, 0). -/
theorem sound_kernel1_last (c : Dev nD) (E : Set ℕ) (i : grid1.Coords)
    (arg1 : Memref sig .tc .vmem S1x12800 .f32) (harg1 : arg1.IsWhole)
    (arg2 : Memref sig .tc .vmem S128x12800 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : ¬ cond1_0 i) (hc1 : cond1_1 i)
    (x0 : Vec F S1x12800 .f32) (x1 : Vec F S128x12800 .f32) (x2 : Vec F S1x128 .f32)
    (xs : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k1_pay3 (k1_pay2 x0 x1 xs) x2)
            ∗ owns (c : Thread nD τ) arg5 fullShare (k1_pay2 x0 x1 xs)) -∗ K ⟨⟩))
      ⊢ wp frame (wpE (defs₀ (F := F)) Variants.none c none) E (cc1__fc1_kernel i arg1 harg1 arg2 harg2 arg3 harg3 arg4 harg4 arg5 harg5) K := by
  simp only [cc1__fc1_kernel_eq_skeleton]; unfold cc1__fc1_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [Cert.WholeStore.read_writes_cons _ _ zero_off2'', View.readCov_unit_zero _ zero_off2'']
    simp only [View.readAt_eq_ld, View.ld_unit_zero (S := S1x12800) zero_off2'', View.ld_unit_zero (S := S128x12800) zero_off2'', View.ld_unit_zero (S := S1x128) zero_off2'']
  iexists _; isplitr
  swap; · iexact H4
  ipureintro
  sl_unfold_run_names
  rw [Cert.WholeStore.read_writes_cons _ _ zero_off2'']
  simp only [View.readAt_eq_ld, View.ld_unit_zero (S := S1x12800) zero_off2'', View.ld_unit_zero (S := S128x12800) zero_off2'', View.ld_unit_zero (S := S1x128) zero_off2'']

end Cert.Kernel.Hand

end
-- ==== Proof.KBody2.lean ====
/-
  Region 2 of the program: the last dense layer. Its one grid point loads the hidden row, the whole weight
  matrix and the bias row, and stores max(row · weightsᵀ + bias, 0) over the whole output row; the row
  afterwards holds exactly that value.
-/
import proofs.«107239_j17016660427224_1_alg».proof.Proof.Gen.Kernel.Launch
import proofs.«107239_j17016660427224_1_alg».proof.Proof.Gen.Kernel.Skeleton
import proofs.«107239_j17016660427224_1_alg».proof.Proof.Gen.Kernel.Points
import proofs.«107239_j17016660427224_1_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-two whole-shape rectangle. -/
theorem zero_off2' : (![0, 0] : Fin 2 → Nat) = fun _ => 0 := by
  funext a; fin_cases a <;> rfl

set_option maxHeartbeats 2000000 in
/-- The body of region 2 on whole buffers: with the three inputs held at `x0`, `x1`, `x2` and the output row
    at anything, it runs to its end handing back the inputs as they were and the output row at
    `k2_pay1 x0 x1 x2`. -/
theorem sound_kernel2 (c : Dev nD) (E : Set ℕ) (i : grid2.Coords)
    (arg1 : Memref sig .tc .vmem S1x128 .f32) (harg1 : arg1.IsWhole)
    (arg2 : Memref sig .tc .vmem S20000x128 .f32) (harg2 : arg2.IsWhole)
    (arg3 : Memref sig .tc .vmem S1x20000 .f32) (harg3 : arg3.IsWhole)
    (arg4 : Memref sig .tc .vmem S1x20000 .f32) (harg4 : arg4.IsWhole)
    (x0 : Vec F S1x128 .f32) (x1 : Vec F S20000x128 .f32) (x2 : Vec F S1x20000 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (k2_pay1 x0 x1 x2)) -∗ K ⟨⟩))
      ⊢ wp frame (wpE (defs₀ (F := F)) Variants.none c none) E (cc2__fc2_kernel i arg1 harg1 arg2 harg2 arg3 harg3 arg4 harg4) K := by
  simp only [cc2__fc2_kernel_eq_skeleton]; unfold cc2__fc2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [Cert.WholeStore.read_writes_cons _ _ zero_off2']
  simp only [View.readAt_eq_ld, View.ld_unit_zero (S := S1x128) zero_off2', View.ld_unit_zero (S := S20000x128) zero_off2',
    View.ld_unit_zero (S := S1x20000) zero_off2']

end Cert.Kernel.Hand

end
-- ==== Proof.KRegions.lean ====
/-
  The three regions as steps of one run.

  Each region's body, run at a grid point on tiles that hold the windows' blocks, leaves what the proof data say
  (the body obligation). Region 1's invariant tracks its scratch row: before the first point the row holds
  anything; after point n it holds the running total through tile n. With the obligations in hand each region
  takes the core's unscoped buffers from the contents before it to the contents after it, and the program is
  the chain: region 0, five stretches of host operations, region 1, one stretch, region 2. Every weakly fair
  execution therefore ends, without fault, with every unscoped buffer at the last boundary's contents.
-/
import proofs.«107239_j17016660427224_1_alg».proof.Proof.Gen.Kernel.Launch
import proofs.«107239_j17016660427224_1_alg».proof.Proof.Gen.Kernel.Skeleton
import proofs.«107239_j17016660427224_1_alg».proof.Proof.Gen.Kernel.Points
import proofs.«107239_j17016660427224_1_alg».proof.Proof.KBounds
import proofs.«107239_j17016660427224_1_alg».proof.Proof.KBody0
import proofs.«107239_j17016660427224_1_alg».proof.Proof.KBody1
import proofs.«107239_j17016660427224_1_alg».proof.Proof.KBody2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0: the body obligation -/

/-- What the body of region 0 is called with at grid point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input tiles hold their blocks, so the body's run applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 0 at every point. -/
theorem body_obligation0 (c : Dev nD) : BodyObligation (dat0 (F := F) V c) (defs₀ (F := F)) Variants.none () Set.univ := fun t => by
  rw [bigSep_W0, bigSep_W0]
  exact sound_body0 V c t

/-! ## Region 2: the body obligation -/

/-- What the body of region 2 is called with at grid point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input tiles hold their blocks, so the body's run applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 2 at every point. -/
theorem body_obligation2 (c : Dev nD) : BodyObligation (dat2 (F := F) V c) (defs₀ (F := F)) Variants.none () Set.univ := fun t => by
  rw [bigSep_W2, bigSep_W2]
  exact sound_body2 V c t

/-! ## Region 1: the scratch row at a point, the invariant against the scoped buffers, the body obligation -/

/-- At the first point the scratch ends at the zero row plus tile 0's product. -/
theorem accAt1_first (c : Dev nD) (t : Fin cfg1.N) (h0 : t.val = 0) :
    accAt1 V c t.val t.isLt = k1_pay2 (iblk1 V c 0 t) (iblk1 V c 1 t) (k1_pay1 (F := F)) := by
  obtain ⟨n, hn⟩ := t
  cases n with
  | zero => rfl
  | succ n => exact absurd h0 (Nat.succ_ne_zero n)

/-- At a later point it ends at what the point before left plus this tile's product. -/
theorem accAt1_later (c : Dev nD) (t : Fin cfg1.N) (h0 : t.val ≠ 0) :
    accAt1 V c t.val t.isLt
      = k1_pay2 (iblk1 V c 0 t) (iblk1 V c 1 t) (accAt1 V c (t.val - 1) (Nat.lt_of_le_of_lt (Nat.sub_le _ _) t.isLt)) := by
  obtain ⟨n, hn⟩ := t
  cases n with
  | zero => exact absurd rfl h0
  | succ n => rfl

/-- The scoped buffers region 1 does not stage are its scratch row and the other regions' staging tiles: the
    scratch taken out, -/
theorem PhiA1_split (c : Dev nD) :
    (Pipeline.ΦA spec1 c : sProp 𝕄)
      ⊢ iprop((∃ d, owns (c : Thread nD τ) scM1 fullShare d) ∗ rest1 (F := F) c ∗ (∃ r, prngReg c r)) := by
  unfold Pipeline.ΦA rest1; rw [scopedRest1_eq]; simp only [owns_whole]
  iintro ⟨⟨A0, A1, A2, A3, A4, AS, B0, B1, B2, B3⟩, Hp⟩
  isplitl [AS]; · iexact AS
  isplitl [A0 A1 A2 A3 A4 B0 B1 B2 B3]
  · isplitl [A0]; · iexact A0
    isplitl [A1]; · iexact A1
    isplitl [A2]; · iexact A2
    isplitl [A3]; · iexact A3
    isplitl [A4]; · iexact A4
    isplitl [B0]; · iexact B0
    isplitl [B1]; · iexact B1
    isplitl [B2]; · iexact B2
    iexact B3
  iexact Hp

/-- and put back. -/
theorem PhiA1_join (c : Dev nD) :
    iprop((∃ d, owns (c : Thread nD τ) scM1 fullShare d) ∗ rest1 (F := F) c ∗ (∃ r, prngReg c r))
      ⊢ (Pipeline.ΦA spec1 c : sProp 𝕄) := by
  unfold Pipeline.ΦA rest1; rw [scopedRest1_eq]; simp only [owns_whole]
  iintro ⟨AS, ⟨A0, A1, A2, A3, A4, B0, B1, B2, B3⟩, Hp⟩
  isplitl [AS A0 A1 A2 A3 A4 B0 B1 B2 B3]
  · isplitl [A0]; · iexact A0
    isplitl [A1]; · iexact A1
    isplitl [A2]; · iexact A2
    isplitl [A3]; · iexact A3
    isplitl [A4]; · iexact A4
    isplitl [AS]; · iexact AS
    isplitl [B0]; · iexact B0
    isplitl [B1]; · iexact B1
    isplitl [B2]; · iexact B2
    iexact B3
  iexact Hp

/-- No input window of region 1 is ever idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- The output window is idle before the last point: the body stores nothing into it and it is not written back, -/
theorem idleAt1_3 : ∀ t : Fin cfg1.N, t.val ≠ 49 → cfg1.idle 3 (grid1.coords t) = true := by decide +kernel
theorem noFlush1_3 : ∀ t : Fin cfg1.N, t.val ≠ 49 → (cfg1.win 3).flush t = false := by decide +kernel
/-- and live at the last point. -/
theorem liveAt1_3 : ∀ t : Fin cfg1.N, t.val = 49 → cfg1.idle 3 (grid1.coords t) = false := by decide +kernel

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body of region 1 at any point. The point is the first, a middle one or the last; in each case the matching
    run of the body applies: the invariant hands over the scratch row at what the point before left (at anything
    at the first point) and takes it back at this point's running total. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
      unfold Dat.leavesExact; rw [liveAt1_0 t], after1_0]
  rw [show (dat1 V c).leavesExact 1 t = owns (c : Thread nD τ) (st1_1 t) fullShare ((dat1 V c).after 1 t) from by
      unfold Dat.leavesExact; rw [liveAt1_1 t], after1_1]
  rw [show (dat1 V c).leavesExact 2 t = owns (c : Thread nD τ) (st1_2 t) fullShare ((dat1 V c).after 2 t) from by
      unfold Dat.leavesExact; rw [liveAt1_2 t], after1_2]
  have hN : t.val < 50 := lt_of_lt_of_eq t.isLt (show cfg1.N = 50 from N_1)
  rw [PhiS1_castSucc V c t]
  by_cases h0 : t.val = 0
  · have h1 : t.val ≠ 49 := by omega
    rw [Dat.leavesExact_idle (dat1 V c) 3 t (idleAt1_3 t h1) (noFlush1_3 t h1)]
    rw [PhiS1_zero V c _ _ h0, accAt1_first V c t h0]
    iintro ⟨HΦ, Ho, ⟨%d0, H0⟩, ⟨%d1, H1⟩, ⟨%d2, H2⟩, ⟨%d3, H3⟩⟩
    ihave HΦ' := (PhiA1_split (F := F) c) $$ HΦ
    icases HΦ' with ⟨HS, Hrest, Hg⟩
    iapply (sound_kernel1_first c Set.univ _ _ _ _ _ _ _ _ _ _ _ ((hcond1_0 t).mpr h0) (fun h => h1 ((hcond1_1 t).mp h))
      (iblk1 V c 0 t) (iblk1 V c 1 t) (iblk1 V c 2 t) _ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    isplitl [H2]; · iexact H2
    iexists _; iexact H3
  · rw [PhiS1_pos V c _ _ h0, accAt1_later V c t h0]
    by_cases h1 : t.val = 49
    · rw [show (dat1 V c).leavesExact 3 t = owns (c : Thread nD τ) (st1_3 t) fullShare ((dat1 V c).after 3 t) from by
          unfold Dat.leavesExact; rw [liveAt1_3 t h1], after1_3, accAt1_later V c t h0]
      iintro ⟨⟨HS, Hrest, Hg⟩, Ho, ⟨%d0, H0⟩, ⟨%d1, H1⟩, ⟨%d2, H2⟩, ⟨%d3, H3⟩⟩
      iapply (sound_kernel1_last c Set.univ _ _ _ _ _ _ _ _ _ _ _ (fun h => h0 ((hcond1_0 t).mp h)) ((hcond1_1 t).mpr h1)
        (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t h1) (noFlush1_3 t h1)]
      iintro ⟨⟨HS, Hrest, Hg⟩, Ho, ⟨%d0, H0⟩, ⟨%d1, H1⟩, ⟨%d2, H2⟩, ⟨%d3, H3⟩⟩
      iapply (sound_kernel1_mid c Set.univ _ _ _ _ _ _ _ _ _ _ _ (fun h => h0 ((hcond1_0 t).mp h)) (fun h => h1 ((hcond1_1 t).mp h))
        (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexists _; iexact H3

/-- The body obligation of region 1 at every point. -/
theorem body_obligation1 (c : Dev nD) : BodyObligation (dat1 (F := F) V c) (defs₀ (F := F)) Variants.none () Set.univ := fun t => by
  rw [bigSep_W1, bigSep_W1]
  exact sound_body1 V c t

/-- What the launch hands region 1 is its invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers back, the scratch row's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 50 := N_1; omega)]
  iintro ⟨HS, Hrest, Hg⟩
  iapply (PhiA1_join (F := F) c)
  isplitl [HS]; · iexists _; iexact HS
  isplitl [Hrest]; · iexact Hrest
  iexact Hg

end Regions

/-! # The run -/

variable (m : (ℓ : Loc nD τ sig) → Buf (Elt F) ℓ)

abbrev W1r : (c : Dev nD) → (b : Ref sig .tc) → Buf (Elt F) ((c : Thread nD τ).loc b) := fun c b => W1 m c b
abbrev W7r : (c : Dev nD) → (b : Ref sig .tc) → Buf (Elt F) ((c : Thread nD τ).loc b) := fun c b => W7 m c b
abbrev W9r : (c : Dev nD) → (b : Ref sig .tc) → Buf (Elt F) ((c : Thread nD τ).loc b) := fun c b => W9 m c b

theorem hF0 (c : Dev nD) (w : Fin cfg0.W) : (dat0 (Vr0 m) c).arrAt w cfg0.N = W1r m c (Pipeline.arrRef spec0 w) :=
  (W1_arr m c w).symm
theorem hrest0 (c : Dev nD) : ∀ b, b ∉ Finset.univ.image (Pipeline.arrRef spec0) → W1r m c b = Vr0 m c b :=
  fun b hb => W1_of_ne m c b fun w e => hb (Finset.mem_image.mpr ⟨w, Finset.mem_univ _, e⟩)
theorem hF1 (c : Dev nD) (w : Fin cfg1.W) : (dat1 (Vr6 m) c).arrAt w cfg1.N = W7r m c (Pipeline.arrRef spec1 w) :=
  (W7_arr m c w).symm
theorem hrest1 (c : Dev nD) : ∀ b, b ∉ Finset.univ.image (Pipeline.arrRef spec1) → W7r m c b = Vr6 m c b :=
  fun b hb => W7_of_ne m c b fun w e => hb (Finset.mem_image.mpr ⟨w, Finset.mem_univ _, e⟩)
theorem hF2 (c : Dev nD) (w : Fin cfg2.W) : (dat2 (Vr8 m) c).arrAt w cfg2.N = W9r m c (Pipeline.arrRef spec2 w) :=
  (W9_arr m c w).symm
theorem hrest2 (c : Dev nD) : ∀ b, b ∉ Finset.univ.image (Pipeline.arrRef spec2) → W9r m c b = Vr8 m c b :=
  fun b hb => W9_of_ne m c b fun w e => hb (Finset.mem_image.mpr ⟨w, Finset.mem_univ _, e⟩)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every step: the generator register at some state, and nothing owed. -/
abbrev R (c : Dev nD) : sProp 𝕄 := iprop((∃ r, prngReg c r) ∗ ∃ W, owes (c : Thread nD τ) (0 : CellTallies nD τ sig Unit) W)
/-- A stretch of host operations as a step from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- The last thread state beside nothing owed: every unscoped buffer at the last contents, the generator register. -/
abbrev Tₙ (c : Dev nD) : sProp 𝕄 := iprop(StableHlo.held (c : Thread nD τ) (Pipeline.ucRefs τ sig) (W9 m c) ∗ ∃ r, prngReg c r)

set_option backward.isDefEq.respectTransparency.types false in
/-- Region 0 over the thread state: entered with every unscoped buffer at the contents before it, left with them
    at the contents after it. Its arrays are split out of the unscoped buffers at entry and put back at exit; the
    generator register goes into the region's invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (W1r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them
    at the contents after it. Its arrays are split out of the unscoped buffers at entry and put back at exit; the
    generator register goes into the region's invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (Vr6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (Vr6 m) c
    unfold Pipeline.ΦA at h
    rw [show (pdats m 1 c).Φ 0 = (dat1 (Vr6 m) c).Φ 0 from rfl]
    iintro ⟨Hp, -, Hr⟩
    iapply h
    isplitl [Hr]; · iexact Hr
    iexact Hp
  hout c := by
    rw [Pipeline.ownSems0_none]
    have h := hout1 (Vr6 m) c
    unfold Pipeline.ΦA at h
    rw [show (pdats m 1 c).Φ (Fin.last _) = (dat1 (Vr6 m) c).Φ (Fin.last cfg1.N) from rfl]
    exact h.trans (show iprop(Pipeline.scopedRest (Ix := Unit) (Name := ℕ) (U := UR sig nD τ) (Lvl := ℕ) (Val := Elt F) spec1 c ∗ ∃ r, prngReg c r) ⊢ _ from by
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr6 m c) (W7r m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them
    at the contents after it. Its arrays are split out of the unscoped buffers at entry and put back at exit; the
    generator register goes into the region's invariant and comes back; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vr8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vr8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vr8 m c) (W9r m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's nine steps in order. -/
abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .host (hseg hostOps1_3 hostOps1_3_sub hostOps1_3_fresh (W4 m)),
    .host (hseg hostOps1_4 hostOps1_4_sub hostOps1_4_fresh (W5 m)),
    .region (reg1 m),
    .host (hseg hostOps2 hostOps2_sub hostOps2_fresh (W7 m)),
    .region (reg2 m) ]

/-- The program is the run of its steps. -/
theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program on the cores terminates,
    nothing faulting, and every final memory holds each unscoped buffer at the last boundary's contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

end Cert.Kernel.Hand

end
-- ==== Proof.KArgs.lean ====
/-
  No step of the program writes an argument array: a region reads it through an input window or passes it by,
  and no host operation's result is stored in it. So each argument's buffer, read at the last boundary, walks
  back through the nine steps to its launch contents.
-/
import proofs.«107239_j17016660427224_1_alg».proof.Proof.KBounds
import proofs.«107239_j17016660427224_1_alg».proof.Proof.Gen.Kernel.Regions

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- A buffer that no region changes and no host stretch writes holds its launch contents at the end. -/
theorem W9_keep (c : Dev nD) (r : Ref sig .tc)
    (h9 : W9 m c (Proc.devRef .tc r) = W8 m c (Proc.devRef .tc r))
    (h7 : W7 m c (Proc.devRef .tc r) = W6 m c (Proc.devRef .tc r))
    (h1 : W1 m c (Proc.devRef .tc r) = W0 m c (Proc.devRef .tc r))
    (w8 : r ∉ Gen.hostOps2_W) (w6 : r ∉ Gen.hostOps1_4_W) (w5 : r ∉ Gen.hostOps1_3_W) (w4 : r ∉ Gen.hostOps1_2_W)
    (w3 : r ∉ Gen.hostOps1_1_W) (w2 : r ∉ Gen.hostOps1_W) :
    W9 m c (Proc.devRef .tc r) = m ((c : Thread nD τ).loc r) :=
  h9.trans <| (StableHlo.after_of_writes_sub hostOps2 _ Gen.hostOps2_writes w8).trans <| h7.trans <|
    (StableHlo.after_of_writes_sub hostOps1_4 _ Gen.hostOps1_4_writes w6).trans <|
    (StableHlo.after_of_writes_sub hostOps1_3 _ Gen.hostOps1_3_writes w5).trans <|
    (StableHlo.after_of_writes_sub hostOps1_2 _ Gen.hostOps1_2_writes w4).trans <|
    (StableHlo.after_of_writes_sub hostOps1_1 _ Gen.hostOps1_1_writes w3).trans <|
    (StableHlo.after_of_writes_sub hostOps1 _ Gen.hostOps1_writes w2).trans <| h1.trans rfl

/-- Argument 0 ends as launched. -/
theorem W9_main_arg0 (c : Dev nD) : W9 m c (Proc.devRef .tc main_arg0) = m ((c : Thread nD τ).loc main_arg0) :=
  W9_keep m c main_arg0 (W9_of_ne m c main_arg0 (by decide))
    (W7_of_ne m c main_arg0 (by decide))
    ((W1_arr m c 0).trans (((dat0 (Vr0 m) c).arrAt_in 0 rfl _).trans (A_eq0 (Vr0 m) c 0)))
    (by decide) (by decide) (by decide) (by decide) (by decide) (by decide)

/-- Argument 1 ends as launched. -/
theorem W9_main_arg1 (c : Dev nD) : W9 m c (Proc.devRef .tc main_arg1) = m ((c : Thread nD τ).loc main_arg1) :=
  W9_keep m c main_arg1 (W9_of_ne m c main_arg1 (by decide))
    (W7_of_ne m c main_arg1 (by decide))
    (W1_of_ne m c main_arg1 (by decide))
    (by decide) (by decide) (by decide) (by decide) (by decide) (by decide)

/-- Argument 2 ends as launched. -/
theorem W9_main_arg2 (c : Dev nD) : W9 m c (Proc.devRef .tc main_arg2) = m ((c : Thread nD τ).loc main_arg2) :=
  W9_keep m c main_arg2 (W9_of_ne m c main_arg2 (by decide))
    (W7_of_ne m c main_arg2 (by decide))
    ((W1_arr m c 1).trans (((dat0 (Vr0 m) c).arrAt_in 1 rfl _).trans (A_eq0 (Vr0 m) c 1)))
    (by decide) (by decide) (by decide) (by decide) (by decide) (by decide)

/-- Argument 3 ends as launched. -/
theorem W9_main_arg3 (c : Dev nD) : W9 m c (Proc.devRef .tc main_arg3) = m ((c : Thread nD τ).loc main_arg3) :=
  W9_keep m c main_arg3 (W9_of_ne m c main_arg3 (by decide))
    (W7_of_ne m c main_arg3 (by decide))
    (W1_of_ne m c main_arg3 (by decide))
    (by decide) (by decide) (by decide) (by decide) (by decide) (by decide)

/-- Argument 4 ends as launched. -/
theorem W9_main_arg4 (c : Dev nD) : W9 m c (Proc.devRef .tc main_arg4) = m ((c : Thread nD τ).loc main_arg4) :=
  W9_keep m c main_arg4 (W9_of_ne m c main_arg4 (by decide))
    ((W7_arr m c 1).trans (((dat1 (Vr6 m) c).arrAt_in 1 rfl _).trans (A_eq1 (Vr6 m) c 1)))
    (W1_of_ne m c main_arg4 (by decide))
    (by decide) (by decide) (by decide) (by decide) (by decide) (by decide)

/-- Argument 5 ends as launched. -/
theorem W9_main_arg5 (c : Dev nD) : W9 m c (Proc.devRef .tc main_arg5) = m ((c : Thread nD τ).loc main_arg5) :=
  W9_keep m c main_arg5 (W9_of_ne m c main_arg5 (by decide))
    (W7_of_ne m c main_arg5 (by decide))
    (W1_of_ne m c main_arg5 (by decide))
    (by decide) (by decide) (by decide) (by decide) (by decide) (by decide)

/-- Argument 6 ends as launched. -/
theorem W9_main_arg6 (c : Dev nD) : W9 m c (Proc.devRef .tc main_arg6) = m ((c : Thread nD τ).loc main_arg6) :=
  W9_keep m c main_arg6 ((W9_arr m c 1).trans (((dat2 (Vr8 m) c).arrAt_in 1 rfl _).trans (A_eq2 (Vr8 m) c 1)))
    (W7_of_ne m c main_arg6 (by decide))
    (W1_of_ne m c main_arg6 (by decide))
    (by decide) (by decide) (by decide) (by decide) (by decide) (by decide)

/-- Argument 7 ends as launched. -/
theorem W9_main_arg7 (c : Dev nD) : W9 m c (Proc.devRef .tc main_arg7) = m ((c : Thread nD τ).loc main_arg7) :=
  W9_keep m c main_arg7 (W9_of_ne m c main_arg7 (by decide))
    (W7_of_ne m c main_arg7 (by decide))
    (W1_of_ne m c main_arg7 (by decide))
    (by decide) (by decide) (by decide) (by decide) (by decide) (by decide)

end Cert.Kernel.Hand

end
-- ==== Proof.KFrame.lean ====
/-
  The run read at the buffers a claim speaks of: every argument array ends as launched, and the result buffer
  ends at the last boundary's contents.
-/
import proofs.«107239_j17016660427224_1_alg».proof.Proof.KRegions
import proofs.«107239_j17016660427224_1_alg».proof.Proof.KArgs

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- Every weakly fair execution terminates without fault and leaves each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W9_main_arg0 m c),
    (h c _ (mem_uc main_arg1 (by decide))).trans (W9_main_arg1 m c),
    (h c _ (mem_uc main_arg2 (by decide))).trans (W9_main_arg2 m c),
    (h c _ (mem_uc main_arg3 (by decide))).trans (W9_main_arg3 m c),
    (h c _ (mem_uc main_arg4 (by decide))).trans (W9_main_arg4 m c),
    (h c _ (mem_uc main_arg5 (by decide))).trans (W9_main_arg5 m c),
    (h c _ (mem_uc main_arg6 (by decide))).trans (W9_main_arg6 m c),
    (h c _ (mem_uc main_arg7 (by decide))).trans (W9_main_arg7 m c)⟩) (run_all m ρ)

/-- The same run with the result buffer named: it ends at the last boundary's contents. -/
theorem run_value : θ_run defs (onTc (τ := τ) (main (F := F))) ⟨m, fun _ => 0, ρ⟩ (fun r => ∀ c : Dev nD,
      r.2.mem ((c.tc : Thread nD τ).loc main_v52) = W9 m c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c _ (mem_uc main_v52 (by decide)),
    (h c _ (mem_uc main_arg0 (by decide))).trans (W9_main_arg0 m c),
    (h c _ (mem_uc main_arg1 (by decide))).trans (W9_main_arg1 m c),
    (h c _ (mem_uc main_arg2 (by decide))).trans (W9_main_arg2 m c),
    (h c _ (mem_uc main_arg3 (by decide))).trans (W9_main_arg3 m c),
    (h c _ (mem_uc main_arg4 (by decide))).trans (W9_main_arg4 m c),
    (h c _ (mem_uc main_arg5 (by decide))).trans (W9_main_arg5 m c),
    (h c _ (mem_uc main_arg6 (by decide))).trans (W9_main_arg6 m c),
    (h c _ (mem_uc main_arg7 (by decide))).trans (W9_main_arg7 m c)⟩) (run_all m ρ)

end Cert.Kernel.Hand

end
-- ==== Proof.KIBounds.lean ====
/-
  What the three regions leave behind, as plain functions of what they find.

  Each region is entered from the core's buffer contents `V`. At a grid point an input window's staging tile
  holds that window's block of its array; the body then leaves, in the output tile, a pure function of the
  input blocks. Region 0 leaves the product of its row tile with the right factor. Region 1 keeps a scratch
  row across its fifty points: after point 0 it holds the zero row plus tile 0's product, after point n+1 what
  it held after point n plus tile n+1's product; its output tile, stored at the last point only, is
  max(scratch + bias, 0). Region 2 leaves max(row · weightsᵀ + bias, 0). Between two regions the contents are
  those the region left in its arrays, every other buffer as before, followed by the host operations of the
  stretch in between.
-/
import proofs.«107239_j17016660427224_1_alg».proof.Proof.Gen.KernelIdeal.Launch
import proofs.«107239_j17016660427224_1_alg».proof.Proof.Gen.KernelIdeal.Skeleton
import proofs.«107239_j17016660427224_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0 -/

/-- Window `w`'s block at grid point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging tile holds its block at every point, fetched there or kept from before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The proof data of region 0: its arrays as found; after the body the input tiles at their blocks and the output
    tile at the product of the two input blocks; the invariant is the untouched scoped buffers and generator state. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay1 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## Region 1 -/

/-- Window `w`'s block at grid point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The scratch row of region 1, a whole scoped buffer of the kernel's own. -/
abbrev scM1 : Memref sig .tc .vmem S1x128 .f32 := Memref.whole cc1_scratch0

/-- What the scratch row holds after grid point `n`: the zero row plus tile 0's product after point 0, and after
    point `n + 1` what it held after point `n` plus tile `n + 1`'s product. -/
def accAt1 (c : Dev nD) : (n : ℕ) → n < cfg1.N → Vec F S1x128 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩) (accAt1 c n (Nat.lt_of_succ_lt hn))

theorem accAt1_zero (c : Dev nD) (hn : 0 < cfg1.N) :
    accAt1 V c 0 hn = k1_pay2 (iblk1 V c 0 ⟨0, hn⟩) (iblk1 V c 1 ⟨0, hn⟩) (k1_pay1 (F := F)) := rfl
theorem accAt1_succ (c : Dev nD) (n : ℕ) (hn : n + 1 < cfg1.N) :
    accAt1 V c (n + 1) hn = k1_pay2 (iblk1 V c 0 ⟨n + 1, hn⟩) (iblk1 V c 1 ⟨n + 1, hn⟩) (accAt1 V c n (Nat.lt_of_succ_lt hn)) := rfl

/-- The scoped buffers region 1 neither stages nor uses: the other regions' staging tiles, each whole at something. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f))

/-- The invariant of region 1 before grid position `n`: before the first point, every scoped buffer it does not stage
    at anything and the generator register at some state; afterwards the same with the scratch row at what the point
    before left in it. -/
def PhiS1 (c : Dev nD) : (n : ℕ) → n ≤ cfg1.N → sProp 𝕄
  | 0, _ => Pipeline.ΦA spec1 c
  | n + 1, hn => iprop(owns (c : Thread nD τ) scM1 fullShare (accAt1 V c n hn) ∗ rest1 (F := F) c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare (accAt1 V c n hn) ∗ rest1 (F := F) c ∗ (∃ r, prngReg c r)) := rfl
theorem PhiS1_pos (c : Dev nD) (n : ℕ) (h : n ≤ cfg1.N) (hz : n ≠ 0) :
    PhiS1 V c n h = iprop(owns (c : Thread nD τ) scM1 fullShare (accAt1 V c (n - 1) (by omega)) ∗ rest1 (F := F) c ∗ (∃ r, prngReg c r)) := by
  cases n with
  | zero => exact absurd rfl hz
  | succ n => rfl

/-- The proof data of region 1: its arrays as found; after the body the input tiles at their blocks and the output
    tile at max(scratch + bias, 0) of the scratch after the point (consulted at the last point only, where the tile
    is stored and written back); the invariant tracks the scratch. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (accAt1 V c t.val t.isLt) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem PhiS1_castSucc (c : Dev nD) (t : Fin cfg1.N) :
    (dat1 V c).Φ t.castSucc = PhiS1 V c t.val (Nat.le_of_lt t.isLt) := by
  dsimp only [dat1]; simp only [Fin.coe_castSucc]

/-! ## Region 2 -/

/-- Window `w`'s block at grid point `t` of region 2, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The proof data of region 2: its arrays as found; after the body the input tiles at their blocks and the output
    tile at max(row · weightsᵀ + bias, 0). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay1 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay1 (iblk2 V c 0 t) (iblk2 V c 1 t) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

end Regions

/-! ## The buffer contents at each item boundary of the program -/

variable (m : (ℓ : Loc nD τ sig) → Buf (Elt F) ℓ)

/-- Core `c`'s buffers at launch (region 0 comes first). -/
abbrev W0 : Dev nD → Valuation τ sig (Elt F) := fun c b => m ((c : Dev nD), b)
abbrev Vr0 : (c : Dev nD) → (b : Ref sig .tc) → Buf (Elt F) ((c : Thread nD τ).loc b) := fun c b => W0 m c b
/-- After region 0: its arrays at what its write-backs leave, every other buffer as before. -/
def W1 (c : Dev nD) : Valuation τ sig (Elt F) :=
  Pipeline.withArrays spec0 c (W0 m c) fun w => (dat0 (Vr0 m) c).arrAt w cfg0.N
/-- After each of the five host stretches between regions 0 and 1. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev W5 : Dev nD → Valuation τ sig (Elt F) := fun c => StableHlo.after hostOps1_3 (W4 m c)
abbrev W6 : Dev nD → Valuation τ sig (Elt F) := fun c => StableHlo.after hostOps1_4 (W5 m c)
abbrev Vr6 : (c : Dev nD) → (b : Ref sig .tc) → Buf (Elt F) ((c : Thread nD τ).loc b) := fun c b => W6 m c b
/-- After region 1. -/
def W7 (c : Dev nD) : Valuation τ sig (Elt F) :=
  Pipeline.withArrays spec1 c (W6 m c) fun w => (dat1 (Vr6 m) c).arrAt w cfg1.N
/-- After the host stretch between regions 1 and 2. -/
abbrev W8 : Dev nD → Valuation τ sig (Elt F) := fun c => StableHlo.after hostOps2 (W7 m c)
abbrev Vr8 : (c : Dev nD) → (b : Ref sig .tc) → Buf (Elt F) ((c : Thread nD τ).loc b) := fun c b => W8 m c b
/-- After region 2: the end of the program. -/
def W9 (c : Dev nD) : Valuation τ sig (Elt F) :=
  Pipeline.withArrays spec2 c (W8 m c) fun w => (dat2 (Vr8 m) c).arrAt w cfg2.N

theorem W1_arr (c : Dev nD) (w : Fin cfg0.W) :
    W1 m c (Proc.devRef .tc (Pipeline.arrRef spec0 w)) = (dat0 (Vr0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W7_arr (c : Dev nD) (w : Fin cfg1.W) :
    W7 m c (Proc.devRef .tc (Pipeline.arrRef spec1 w)) = (dat1 (Vr6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
theorem W9_arr (c : Dev nD) (w : Fin cfg2.W) :
    W9 m c (Proc.devRef .tc (Pipeline.arrRef spec2 w)) = (dat2 (Vr8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr6 m) c
  | ⟨2, _⟩ => fun c => dat2 (Vr8 m) c

end Cert.KernelIdeal.Hand

end
-- ==== Proof.KIBody0.lean ====
/-
  Region 0 of the program: the row-tile product. At one grid point the body loads a tile of 2000 rows of the
  left factor and the whole right factor, and stores their product (formed from a zero accumulator) over the
  whole output tile. Since the store is over the whole tile, the tile afterwards holds exactly that product,
  whatever it held before.
-/
import proofs.«107239_j17016660427224_1_alg».proof.Proof.Gen.KernelIdeal.Launch
import proofs.«107239_j17016660427224_1_alg».proof.Proof.Gen.KernelIdeal.Skeleton
import proofs.«107239_j17016660427224_1_alg».proof.Proof.Gen.KernelIdeal.Points
import proofs.«107239_j17016660427224_1_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-two whole-shape rectangle. -/
theorem zero_off2 : (![0, 0] : Fin 2 → Nat) = fun _ => 0 := by
  funext a; fin_cases a <;> rfl

set_option maxHeartbeats 2000000 in
/-- The body of region 0 on whole tiles: with the two inputs held at `x0` and `x1` and the output tile at
    anything, it runs to its end handing back the inputs as they were and the output tile at the product
    `k0_pay1 x0 x1`. -/
theorem sound_kernel0 (c : Dev nD) (E : Set ℕ) (i : grid0.Coords)
    (arg1 : Memref sig .tc .vmem S2000x128 .f32) (harg1 : arg1.IsWhole)
    (arg2 : Memref sig .tc .vmem S128x32 .f32) (harg2 : arg2.IsWhole)
    (arg3 : Memref sig .tc .vmem S2000x32 .f32) (harg3 : arg3.IsWhole)
    (x0 : Vec F S2000x128 .f32) (x1 : Vec F S128x32 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__xw_kernel i arg1 harg1 arg2 harg2 arg3 harg3) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [Cert.WholeStore.read_writes_cons _ _ zero_off2]
  simp only [View.readAt_eq_ld, View.ld_unit_zero (S := S2000x128) zero_off2, View.ld_unit_zero (S := S128x32) zero_off2]

end Cert.KernelIdeal.Hand

end
-- ==== Proof.KIBody1.lean ====
/-
  Region 1 of the program: the wide dense layer, accumulated over fifty tiles of the contracted axis in a
  scratch row that lives across grid points. At the first point the scratch is set to zero before the tile's
  product is added; at every point the tile's product is added to the scratch; at the last point the output
  row is stored as max(scratch + bias, 0). Every store is over a whole row, so after a point the scratch (and
  at the last point the output) holds exactly the stored value. The two branch conditions are functions of
  the grid coordinate alone: "first point" and "last point".
-/
import proofs.«107239_j17016660427224_1_alg».proof.Proof.Gen.KernelIdeal.Launch
import proofs.«107239_j17016660427224_1_alg».proof.Proof.Gen.KernelIdeal.Skeleton
import proofs.«107239_j17016660427224_1_alg».proof.Proof.Gen.KernelIdeal.Points
import proofs.«107239_j17016660427224_1_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-two whole-shape rectangle. -/
theorem zero_off2'' : (![0, 0] : Fin 2 → Nat) = fun _ => 0 := by
  funext a; fin_cases a <;> rfl

/-- The body's first branch condition as the kernel computes it from the grid coordinate: "this is point 0". -/
abbrev cond1_0 (i : grid1.Coords) : Prop :=
  (Scalar.cmpi .ne (Scalar.extui (Scalar.cmpi .eq (BitVec.ofNat 32 (i 0).val) 0#32)) 0#32) = 1#1
/-- It holds at the first grid point only. -/
theorem hcond1_0 : ∀ t : Fin cfg1.N, cond1_0 (grid1.coords t) ↔ t.val = 0 :=
  (by decide +kernel : ∀ t : Fin grid1.N, cond1_0 (grid1.coords t) ↔ t.val = 0)
/-- The body's second branch condition: "this is the last point". -/
abbrev cond1_1 (i : grid1.Coords) : Prop := k1_cond2 i = 1#1
/-- It holds at the last grid point only. -/
theorem hcond1_1 : ∀ t : Fin cfg1.N, cond1_1 (grid1.coords t) ↔ t.val = 49 :=
  (by decide +kernel : ∀ t : Fin grid1.N, cond1_1 (grid1.coords t) ↔ t.val = 49)

set_option maxHeartbeats 4000000 in
/-- The body at the FIRST point (zeroing branch taken, output branch not): the scratch, held at anything, ends at
    the tile's product added to the zero row; the output row, untouched, is handed back as it was. -/
theorem sound_kernel1_first (c : Dev nD) (E : Set ℕ) (i : grid1.Coords)
    (arg1 : Memref sig .tc .vmem S1x12800 .f32) (harg1 : arg1.IsWhole)
    (arg2 : Memref sig .tc .vmem S128x12800 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : cond1_0 i) (hc1 : ¬ cond1_1 i)
    (x0 : Vec F S1x12800 .f32) (x1 : Vec F S128x12800 .f32) (x2 : Vec F S1x128 .f32) (x3 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k1_pay2 x0 x1 (k1_pay1 (F := F)))) -∗ K ⟨⟩))
      ⊢ wp frame (wpE (defs₀ (F := F)) Variants.none c none) E (cc1__fc1_kernel i arg1 harg1 arg2 harg2 arg3 harg3 arg4 harg4 arg5 harg5) K := by
  simp only [cc1__fc1_kernel_eq_skeleton]; unfold cc1__fc1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_run_names
  rw [Cert.WholeStore.read_writes_cons _ _ zero_off2'', View.readCov_unit_zero _ zero_off2'']
  simp only [View.readAt_eq_ld, View.ld_unit_zero (S := S1x12800) zero_off2'', View.ld_unit_zero (S := S128x12800) zero_off2'', View.ld_unit_zero (S := S1x128) zero_off2'']

set_option maxHeartbeats 4000000 in
/-- The body at a MIDDLE point (neither branch taken): the scratch, held at `xs`, ends at `xs` plus the tile's
    product; the output row is handed back as it was. -/
theorem sound_kernel1_mid (c : Dev nD) (E : Set ℕ) (i : grid1.Coords)
    (arg1 : Memref sig .tc .vmem S1x12800 .f32) (harg1 : arg1.IsWhole)
    (arg2 : Memref sig .tc .vmem S128x12800 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : ¬ cond1_0 i) (hc1 : ¬ cond1_1 i)
    (x0 : Vec F S1x12800 .f32) (x1 : Vec F S128x12800 .f32) (x2 : Vec F S1x128 .f32) (x3 : Vec F S1x128 .f32)
    (xs : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k1_pay2 x0 x1 xs)) -∗ K ⟨⟩))
      ⊢ wp frame (wpE (defs₀ (F := F)) Variants.none c none) E (cc1__fc1_kernel i arg1 harg1 arg2 harg2 arg3 harg3 arg4 harg4 arg5 harg5) K := by
  simp only [cc1__fc1_kernel_eq_skeleton]; unfold cc1__fc1_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [Cert.WholeStore.read_writes_cons _ _ zero_off2'']
  simp only [View.readAt_eq_ld, View.ld_unit_zero (S := S1x12800) zero_off2'', View.ld_unit_zero (S := S128x12800) zero_off2'', View.ld_unit_zero (S := S1x128) zero_off2'']

set_option maxHeartbeats 4000000 in
/-- The body at the LAST point (zeroing branch not taken, output branch taken): the scratch, held at `xs`, ends at
    `xs` plus the tile's product, and the output row, held at anything, ends at max(that + bias, 0). -/
theorem sound_kernel1_last (c : Dev nD) (E : Set ℕ) (i : grid1.Coords)
    (arg1 : Memref sig .tc .vmem S1x12800 .f32) (harg1 : arg1.IsWhole)
    (arg2 : Memref sig .tc .vmem S128x12800 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : ¬ cond1_0 i) (hc1 : cond1_1 i)
    (x0 : Vec F S1x12800 .f32) (x1 : Vec F S128x12800 .f32) (x2 : Vec F S1x128 .f32)
    (xs : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k1_pay3 (k1_pay2 x0 x1 xs) x2)
            ∗ owns (c : Thread nD τ) arg5 fullShare (k1_pay2 x0 x1 xs)) -∗ K ⟨⟩))
      ⊢ wp frame (wpE (defs₀ (F := F)) Variants.none c none) E (cc1__fc1_kernel i arg1 harg1 arg2 harg2 arg3 harg3 arg4 harg4 arg5 harg5) K := by
  simp only [cc1__fc1_kernel_eq_skeleton]; unfold cc1__fc1_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [Cert.WholeStore.read_writes_cons _ _ zero_off2'', View.readCov_unit_zero _ zero_off2'']
    simp only [View.readAt_eq_ld, View.ld_unit_zero (S := S1x12800) zero_off2'', View.ld_unit_zero (S := S128x12800) zero_off2'', View.ld_unit_zero (S := S1x128) zero_off2'']
  iexists _; isplitr
  swap; · iexact H4
  ipureintro
  sl_unfold_run_names
  rw [Cert.WholeStore.read_writes_cons _ _ zero_off2'']
  simp only [View.readAt_eq_ld, View.ld_unit_zero (S := S1x12800) zero_off2'', View.ld_unit_zero (S := S128x12800) zero_off2'', View.ld_unit_zero (S := S1x128) zero_off2'']

end Cert.KernelIdeal.Hand

end
-- ==== Proof.KIBody2.lean ====
/-
  Region 2 of the program: the last dense layer. Its one grid point loads the hidden row, the whole weight
  matrix and the bias row, and stores max(row · weightsᵀ + bias, 0) over the whole output row; the row
  afterwards holds exactly that value.
-/
import proofs.«107239_j17016660427224_1_alg».proof.Proof.Gen.KernelIdeal.Launch
import proofs.«107239_j17016660427224_1_alg».proof.Proof.Gen.KernelIdeal.Skeleton
import proofs.«107239_j17016660427224_1_alg».proof.Proof.Gen.KernelIdeal.Points
import proofs.«107239_j17016660427224_1_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-two whole-shape rectangle. -/
theorem zero_off2' : (![0, 0] : Fin 2 → Nat) = fun _ => 0 := by
  funext a; fin_cases a <;> rfl

set_option maxHeartbeats 2000000 in
/-- The body of region 2 on whole buffers: with the three inputs held at `x0`, `x1`, `x2` and the output row
    at anything, it runs to its end handing back the inputs as they were and the output row at
    `k2_pay1 x0 x1 x2`. -/
theorem sound_kernel2 (c : Dev nD) (E : Set ℕ) (i : grid2.Coords)
    (arg1 : Memref sig .tc .vmem S1x128 .f32) (harg1 : arg1.IsWhole)
    (arg2 : Memref sig .tc .vmem S20000x128 .f32) (harg2 : arg2.IsWhole)
    (arg3 : Memref sig .tc .vmem S1x20000 .f32) (harg3 : arg3.IsWhole)
    (arg4 : Memref sig .tc .vmem S1x20000 .f32) (harg4 : arg4.IsWhole)
    (x0 : Vec F S1x128 .f32) (x1 : Vec F S20000x128 .f32) (x2 : Vec F S1x20000 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (k2_pay1 x0 x1 x2)) -∗ K ⟨⟩))
      ⊢ wp frame (wpE (defs₀ (F := F)) Variants.none c none) E (cc2__fc2_kernel i arg1 harg1 arg2 harg2 arg3 harg3 arg4 harg4) K := by
  simp only [cc2__fc2_kernel_eq_skeleton]; unfold cc2__fc2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [Cert.WholeStore.read_writes_cons _ _ zero_off2']
  simp only [View.readAt_eq_ld, View.ld_unit_zero (S := S1x128) zero_off2', View.ld_unit_zero (S := S20000x128) zero_off2',
    View.ld_unit_zero (S := S1x20000) zero_off2']

end Cert.KernelIdeal.Hand

end
-- ==== Proof.KIRegions.lean ====
/-
  The three regions as steps of one run.

  Each region's body, run at a grid point on tiles that hold the windows' blocks, leaves what the proof data say
  (the body obligation). Region 1's invariant tracks its scratch row: before the first point the row holds
  anything; after point n it holds the running total through tile n. With the obligations in hand each region
  takes the core's unscoped buffers from the contents before it to the contents after it, and the program is
  the chain: region 0, five stretches of host operations, region 1, one stretch, region 2. Every weakly fair
  execution therefore ends, without fault, with every unscoped buffer at the last boundary's contents.
-/
import proofs.«107239_j17016660427224_1_alg».proof.Proof.Gen.KernelIdeal.Launch
import proofs.«107239_j17016660427224_1_alg».proof.Proof.Gen.KernelIdeal.Skeleton
import proofs.«107239_j17016660427224_1_alg».proof.Proof.Gen.KernelIdeal.Points
import proofs.«107239_j17016660427224_1_alg».proof.Proof.KIBounds
import proofs.«107239_j17016660427224_1_alg».proof.Proof.KIBody0
import proofs.«107239_j17016660427224_1_alg».proof.Proof.KIBody1
import proofs.«107239_j17016660427224_1_alg».proof.Proof.KIBody2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0: the body obligation -/

/-- What the body of region 0 is called with at grid point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input tiles hold their blocks, so the body's run applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 0 at every point. -/
theorem body_obligation0 (c : Dev nD) : BodyObligation (dat0 (F := F) V c) (defs₀ (F := F)) Variants.none () Set.univ := fun t => by
  rw [bigSep_W0, bigSep_W0]
  exact sound_body0 V c t

/-! ## Region 2: the body obligation -/

/-- What the body of region 2 is called with at grid point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input tiles hold their blocks, so the body's run applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 2 at every point. -/
theorem body_obligation2 (c : Dev nD) : BodyObligation (dat2 (F := F) V c) (defs₀ (F := F)) Variants.none () Set.univ := fun t => by
  rw [bigSep_W2, bigSep_W2]
  exact sound_body2 V c t

/-! ## Region 1: the scratch row at a point, the invariant against the scoped buffers, the body obligation -/

/-- At the first point the scratch ends at the zero row plus tile 0's product. -/
theorem accAt1_first (c : Dev nD) (t : Fin cfg1.N) (h0 : t.val = 0) :
    accAt1 V c t.val t.isLt = k1_pay2 (iblk1 V c 0 t) (iblk1 V c 1 t) (k1_pay1 (F := F)) := by
  obtain ⟨n, hn⟩ := t
  cases n with
  | zero => rfl
  | succ n => exact absurd h0 (Nat.succ_ne_zero n)

/-- At a later point it ends at what the point before left plus this tile's product. -/
theorem accAt1_later (c : Dev nD) (t : Fin cfg1.N) (h0 : t.val ≠ 0) :
    accAt1 V c t.val t.isLt
      = k1_pay2 (iblk1 V c 0 t) (iblk1 V c 1 t) (accAt1 V c (t.val - 1) (Nat.lt_of_le_of_lt (Nat.sub_le _ _) t.isLt)) := by
  obtain ⟨n, hn⟩ := t
  cases n with
  | zero => exact absurd rfl h0
  | succ n => rfl

/-- The scoped buffers region 1 does not stage are its scratch row and the other regions' staging tiles: the
    scratch taken out, -/
theorem PhiA1_split (c : Dev nD) :
    (Pipeline.ΦA spec1 c : sProp 𝕄)
      ⊢ iprop((∃ d, owns (c : Thread nD τ) scM1 fullShare d) ∗ rest1 (F := F) c ∗ (∃ r, prngReg c r)) := by
  unfold Pipeline.ΦA rest1; rw [scopedRest1_eq]; simp only [owns_whole]
  iintro ⟨⟨A0, A1, A2, A3, A4, AS, B0, B1, B2, B3⟩, Hp⟩
  isplitl [AS]; · iexact AS
  isplitl [A0 A1 A2 A3 A4 B0 B1 B2 B3]
  · isplitl [A0]; · iexact A0
    isplitl [A1]; · iexact A1
    isplitl [A2]; · iexact A2
    isplitl [A3]; · iexact A3
    isplitl [A4]; · iexact A4
    isplitl [B0]; · iexact B0
    isplitl [B1]; · iexact B1
    isplitl [B2]; · iexact B2
    iexact B3
  iexact Hp

/-- and put back. -/
theorem PhiA1_join (c : Dev nD) :
    iprop((∃ d, owns (c : Thread nD τ) scM1 fullShare d) ∗ rest1 (F := F) c ∗ (∃ r, prngReg c r))
      ⊢ (Pipeline.ΦA spec1 c : sProp 𝕄) := by
  unfold Pipeline.ΦA rest1; rw [scopedRest1_eq]; simp only [owns_whole]
  iintro ⟨AS, ⟨A0, A1, A2, A3, A4, B0, B1, B2, B3⟩, Hp⟩
  isplitl [AS A0 A1 A2 A3 A4 B0 B1 B2 B3]
  · isplitl [A0]; · iexact A0
    isplitl [A1]; · iexact A1
    isplitl [A2]; · iexact A2
    isplitl [A3]; · iexact A3
    isplitl [A4]; · iexact A4
    isplitl [AS]; · iexact AS
    isplitl [B0]; · iexact B0
    isplitl [B1]; · iexact B1
    isplitl [B2]; · iexact B2
    iexact B3
  iexact Hp

/-- No input window of region 1 is ever idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- The output window is idle before the last point: the body stores nothing into it and it is not written back, -/
theorem idleAt1_3 : ∀ t : Fin cfg1.N, t.val ≠ 49 → cfg1.idle 3 (grid1.coords t) = true := by decide +kernel
theorem noFlush1_3 : ∀ t : Fin cfg1.N, t.val ≠ 49 → (cfg1.win 3).flush t = false := by decide +kernel
/-- and live at the last point. -/
theorem liveAt1_3 : ∀ t : Fin cfg1.N, t.val = 49 → cfg1.idle 3 (grid1.coords t) = false := by decide +kernel

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body of region 1 at any point. The point is the first, a middle one or the last; in each case the matching
    run of the body applies: the invariant hands over the scratch row at what the point before left (at anything
    at the first point) and takes it back at this point's running total. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
      unfold Dat.leavesExact; rw [liveAt1_0 t], after1_0]
  rw [show (dat1 V c).leavesExact 1 t = owns (c : Thread nD τ) (st1_1 t) fullShare ((dat1 V c).after 1 t) from by
      unfold Dat.leavesExact; rw [liveAt1_1 t], after1_1]
  rw [show (dat1 V c).leavesExact 2 t = owns (c : Thread nD τ) (st1_2 t) fullShare ((dat1 V c).after 2 t) from by
      unfold Dat.leavesExact; rw [liveAt1_2 t], after1_2]
  have hN : t.val < 50 := lt_of_lt_of_eq t.isLt (show cfg1.N = 50 from N_1)
  rw [PhiS1_castSucc V c t]
  by_cases h0 : t.val = 0
  · have h1 : t.val ≠ 49 := by omega
    rw [Dat.leavesExact_idle (dat1 V c) 3 t (idleAt1_3 t h1) (noFlush1_3 t h1)]
    rw [PhiS1_zero V c _ _ h0, accAt1_first V c t h0]
    iintro ⟨HΦ, Ho, ⟨%d0, H0⟩, ⟨%d1, H1⟩, ⟨%d2, H2⟩, ⟨%d3, H3⟩⟩
    ihave HΦ' := (PhiA1_split (F := F) c) $$ HΦ
    icases HΦ' with ⟨HS, Hrest, Hg⟩
    iapply (sound_kernel1_first c Set.univ _ _ _ _ _ _ _ _ _ _ _ ((hcond1_0 t).mpr h0) (fun h => h1 ((hcond1_1 t).mp h))
      (iblk1 V c 0 t) (iblk1 V c 1 t) (iblk1 V c 2 t) _ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    isplitl [H2]; · iexact H2
    iexists _; iexact H3
  · rw [PhiS1_pos V c _ _ h0, accAt1_later V c t h0]
    by_cases h1 : t.val = 49
    · rw [show (dat1 V c).leavesExact 3 t = owns (c : Thread nD τ) (st1_3 t) fullShare ((dat1 V c).after 3 t) from by
          unfold Dat.leavesExact; rw [liveAt1_3 t h1], after1_3, accAt1_later V c t h0]
      iintro ⟨⟨HS, Hrest, Hg⟩, Ho, ⟨%d0, H0⟩, ⟨%d1, H1⟩, ⟨%d2, H2⟩, ⟨%d3, H3⟩⟩
      iapply (sound_kernel1_last c Set.univ _ _ _ _ _ _ _ _ _ _ _ (fun h => h0 ((hcond1_0 t).mp h)) ((hcond1_1 t).mpr h1)
        (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t h1) (noFlush1_3 t h1)]
      iintro ⟨⟨HS, Hrest, Hg⟩, Ho, ⟨%d0, H0⟩, ⟨%d1, H1⟩, ⟨%d2, H2⟩, ⟨%d3, H3⟩⟩
      iapply (sound_kernel1_mid c Set.univ _ _ _ _ _ _ _ _ _ _ _ (fun h => h0 ((hcond1_0 t).mp h)) (fun h => h1 ((hcond1_1 t).mp h))
        (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexists _; iexact H3

/-- The body obligation of region 1 at every point. -/
theorem body_obligation1 (c : Dev nD) : BodyObligation (dat1 (F := F) V c) (defs₀ (F := F)) Variants.none () Set.univ := fun t => by
  rw [bigSep_W1, bigSep_W1]
  exact sound_body1 V c t

/-- What the launch hands region 1 is its invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers back, the scratch row's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 50 := N_1; omega)]
  iintro ⟨HS, Hrest, Hg⟩
  iapply (PhiA1_join (F := F) c)
  isplitl [HS]; · iexists _; iexact HS
  isplitl [Hrest]; · iexact Hrest
  iexact Hg

end Regions

/-! # The run -/

variable (m : (ℓ : Loc nD τ sig) → Buf (Elt F) ℓ)

abbrev W1r : (c : Dev nD) → (b : Ref sig .tc) → Buf (Elt F) ((c : Thread nD τ).loc b) := fun c b => W1 m c b
abbrev W7r : (c : Dev nD) → (b : Ref sig .tc) → Buf (Elt F) ((c : Thread nD τ).loc b) := fun c b => W7 m c b
abbrev W9r : (c : Dev nD) → (b : Ref sig .tc) → Buf (Elt F) ((c : Thread nD τ).loc b) := fun c b => W9 m c b

theorem hF0 (c : Dev nD) (w : Fin cfg0.W) : (dat0 (Vr0 m) c).arrAt w cfg0.N = W1r m c (Pipeline.arrRef spec0 w) :=
  (W1_arr m c w).symm
theorem hrest0 (c : Dev nD) : ∀ b, b ∉ Finset.univ.image (Pipeline.arrRef spec0) → W1r m c b = Vr0 m c b :=
  fun b hb => W1_of_ne m c b fun w e => hb (Finset.mem_image.mpr ⟨w, Finset.mem_univ _, e⟩)
theorem hF1 (c : Dev nD) (w : Fin cfg1.W) : (dat1 (Vr6 m) c).arrAt w cfg1.N = W7r m c (Pipeline.arrRef spec1 w) :=
  (W7_arr m c w).symm
theorem hrest1 (c : Dev nD) : ∀ b, b ∉ Finset.univ.image (Pipeline.arrRef spec1) → W7r m c b = Vr6 m c b :=
  fun b hb => W7_of_ne m c b fun w e => hb (Finset.mem_image.mpr ⟨w, Finset.mem_univ _, e⟩)
theorem hF2 (c : Dev nD) (w : Fin cfg2.W) : (dat2 (Vr8 m) c).arrAt w cfg2.N = W9r m c (Pipeline.arrRef spec2 w) :=
  (W9_arr m c w).symm
theorem hrest2 (c : Dev nD) : ∀ b, b ∉ Finset.univ.image (Pipeline.arrRef spec2) → W9r m c b = Vr8 m c b :=
  fun b hb => W9_of_ne m c b fun w e => hb (Finset.mem_image.mpr ⟨w, Finset.mem_univ _, e⟩)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every step: the generator register at some state, and nothing owed. -/
abbrev R (c : Dev nD) : sProp 𝕄 := iprop((∃ r, prngReg c r) ∗ ∃ W, owes (c : Thread nD τ) (0 : CellTallies nD τ sig Unit) W)
/-- A stretch of host operations as a step from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- The last thread state beside nothing owed: every unscoped buffer at the last contents, the generator register. -/
abbrev Tₙ (c : Dev nD) : sProp 𝕄 := iprop(StableHlo.held (c : Thread nD τ) (Pipeline.ucRefs τ sig) (W9 m c) ∗ ∃ r, prngReg c r)

set_option backward.isDefEq.respectTransparency.types false in
/-- Region 0 over the thread state: entered with every unscoped buffer at the contents before it, left with them
    at the contents after it. Its arrays are split out of the unscoped buffers at entry and put back at exit; the
    generator register goes into the region's invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (W1r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them
    at the contents after it. Its arrays are split out of the unscoped buffers at entry and put back at exit; the
    generator register goes into the region's invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (Vr6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (Vr6 m) c
    unfold Pipeline.ΦA at h
    rw [show (pdats m 1 c).Φ 0 = (dat1 (Vr6 m) c).Φ 0 from rfl]
    iintro ⟨Hp, -, Hr⟩
    iapply h
    isplitl [Hr]; · iexact Hr
    iexact Hp
  hout c := by
    rw [Pipeline.ownSems0_none]
    have h := hout1 (Vr6 m) c
    unfold Pipeline.ΦA at h
    rw [show (pdats m 1 c).Φ (Fin.last _) = (dat1 (Vr6 m) c).Φ (Fin.last cfg1.N) from rfl]
    exact h.trans (show iprop(Pipeline.scopedRest (Ix := Unit) (Name := ℕ) (U := UR sig nD τ) (Lvl := ℕ) (Val := Elt F) spec1 c ∗ ∃ r, prngReg c r) ⊢ _ from by
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr6 m c) (W7r m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them
    at the contents after it. Its arrays are split out of the unscoped buffers at entry and put back at exit; the
    generator register goes into the region's invariant and comes back; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vr8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vr8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vr8 m c) (W9r m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's nine steps in order. -/
abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .host (hseg hostOps1_3 hostOps1_3_sub hostOps1_3_fresh (W4 m)),
    .host (hseg hostOps1_4 hostOps1_4_sub hostOps1_4_fresh (W5 m)),
    .region (reg1 m),
    .host (hseg hostOps2 hostOps2_sub hostOps2_fresh (W7 m)),
    .region (reg2 m) ]

/-- The program is the run of its steps. -/
theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program on the cores terminates,
    nothing faulting, and every final memory holds each unscoped buffer at the last boundary's contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

end Cert.KernelIdeal.Hand

end
-- ==== Proof.KIArgs.lean ====
/-
  No step of the program writes an argument array: a region reads it through an input window or passes it by,
  and no host operation's result is stored in it. So each argument's buffer, read at the last boundary, walks
  back through the nine steps to its launch contents.
-/
import proofs.«107239_j17016660427224_1_alg».proof.Proof.KIBounds
import proofs.«107239_j17016660427224_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- A buffer that no region changes and no host stretch writes holds its launch contents at the end. -/
theorem W9_keep (c : Dev nD) (r : Ref sig .tc)
    (h9 : W9 m c (Proc.devRef .tc r) = W8 m c (Proc.devRef .tc r))
    (h7 : W7 m c (Proc.devRef .tc r) = W6 m c (Proc.devRef .tc r))
    (h1 : W1 m c (Proc.devRef .tc r) = W0 m c (Proc.devRef .tc r))
    (w8 : r ∉ Gen.hostOps2_W) (w6 : r ∉ Gen.hostOps1_4_W) (w5 : r ∉ Gen.hostOps1_3_W) (w4 : r ∉ Gen.hostOps1_2_W)
    (w3 : r ∉ Gen.hostOps1_1_W) (w2 : r ∉ Gen.hostOps1_W) :
    W9 m c (Proc.devRef .tc r) = m ((c : Thread nD τ).loc r) :=
  h9.trans <| (StableHlo.after_of_writes_sub hostOps2 _ Gen.hostOps2_writes w8).trans <| h7.trans <|
    (StableHlo.after_of_writes_sub hostOps1_4 _ Gen.hostOps1_4_writes w6).trans <|
    (StableHlo.after_of_writes_sub hostOps1_3 _ Gen.hostOps1_3_writes w5).trans <|
    (StableHlo.after_of_writes_sub hostOps1_2 _ Gen.hostOps1_2_writes w4).trans <|
    (StableHlo.after_of_writes_sub hostOps1_1 _ Gen.hostOps1_1_writes w3).trans <|
    (StableHlo.after_of_writes_sub hostOps1 _ Gen.hostOps1_writes w2).trans <| h1.trans rfl

/-- Argument 0 ends as launched. -/
theorem W9_main_arg0 (c : Dev nD) : W9 m c (Proc.devRef .tc main_arg0) = m ((c : Thread nD τ).loc main_arg0) :=
  W9_keep m c main_arg0 (W9_of_ne m c main_arg0 (by decide))
    (W7_of_ne m c main_arg0 (by decide))
    ((W1_arr m c 0).trans (((dat0 (Vr0 m) c).arrAt_in 0 rfl _).trans (A_eq0 (Vr0 m) c 0)))
    (by decide) (by decide) (by decide) (by decide) (by decide) (by decide)

/-- Argument 1 ends as launched. -/
theorem W9_main_arg1 (c : Dev nD) : W9 m c (Proc.devRef .tc main_arg1) = m ((c : Thread nD τ).loc main_arg1) :=
  W9_keep m c main_arg1 (W9_of_ne m c main_arg1 (by decide))
    (W7_of_ne m c main_arg1 (by decide))
    (W1_of_ne m c main_arg1 (by decide))
    (by decide) (by decide) (by decide) (by decide) (by decide) (by decide)

/-- Argument 2 ends as launched. -/
theorem W9_main_arg2 (c : Dev nD) : W9 m c (Proc.devRef .tc main_arg2) = m ((c : Thread nD τ).loc main_arg2) :=
  W9_keep m c main_arg2 (W9_of_ne m c main_arg2 (by decide))
    (W7_of_ne m c main_arg2 (by decide))
    ((W1_arr m c 1).trans (((dat0 (Vr0 m) c).arrAt_in 1 rfl _).trans (A_eq0 (Vr0 m) c 1)))
    (by decide) (by decide) (by decide) (by decide) (by decide) (by decide)

/-- Argument 3 ends as launched. -/
theorem W9_main_arg3 (c : Dev nD) : W9 m c (Proc.devRef .tc main_arg3) = m ((c : Thread nD τ).loc main_arg3) :=
  W9_keep m c main_arg3 (W9_of_ne m c main_arg3 (by decide))
    (W7_of_ne m c main_arg3 (by decide))
    (W1_of_ne m c main_arg3 (by decide))
    (by decide) (by decide) (by decide) (by decide) (by decide) (by decide)

/-- Argument 4 ends as launched. -/
theorem W9_main_arg4 (c : Dev nD) : W9 m c (Proc.devRef .tc main_arg4) = m ((c : Thread nD τ).loc main_arg4) :=
  W9_keep m c main_arg4 (W9_of_ne m c main_arg4 (by decide))
    ((W7_arr m c 1).trans (((dat1 (Vr6 m) c).arrAt_in 1 rfl _).trans (A_eq1 (Vr6 m) c 1)))
    (W1_of_ne m c main_arg4 (by decide))
    (by decide) (by decide) (by decide) (by decide) (by decide) (by decide)

/-- Argument 5 ends as launched. -/
theorem W9_main_arg5 (c : Dev nD) : W9 m c (Proc.devRef .tc main_arg5) = m ((c : Thread nD τ).loc main_arg5) :=
  W9_keep m c main_arg5 (W9_of_ne m c main_arg5 (by decide))
    (W7_of_ne m c main_arg5 (by decide))
    (W1_of_ne m c main_arg5 (by decide))
    (by decide) (by decide) (by decide) (by decide) (by decide) (by decide)

/-- Argument 6 ends as launched. -/
theorem W9_main_arg6 (c : Dev nD) : W9 m c (Proc.devRef .tc main_arg6) = m ((c : Thread nD τ).loc main_arg6) :=
  W9_keep m c main_arg6 ((W9_arr m c 1).trans (((dat2 (Vr8 m) c).arrAt_in 1 rfl _).trans (A_eq2 (Vr8 m) c 1)))
    (W7_of_ne m c main_arg6 (by decide))
    (W1_of_ne m c main_arg6 (by decide))
    (by decide) (by decide) (by decide) (by decide) (by decide) (by decide)

/-- Argument 7 ends as launched. -/
theorem W9_main_arg7 (c : Dev nD) : W9 m c (Proc.devRef .tc main_arg7) = m ((c : Thread nD τ).loc main_arg7) :=
  W9_keep m c main_arg7 (W9_of_ne m c main_arg7 (by decide))
    (W7_of_ne m c main_arg7 (by decide))
    (W1_of_ne m c main_arg7 (by decide))
    (by decide) (by decide) (by decide) (by decide) (by decide) (by decide)

end Cert.KernelIdeal.Hand

end
-- ==== Proof.KIFrame.lean ====
/-
  The run read at the buffers a claim speaks of: every argument array ends as launched, and the result buffer
  ends at the last boundary's contents.
-/
import proofs.«107239_j17016660427224_1_alg».proof.Proof.KIRegions
import proofs.«107239_j17016660427224_1_alg».proof.Proof.KIArgs

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- Every weakly fair execution terminates without fault and leaves each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W9_main_arg0 m c),
    (h c _ (mem_uc main_arg1 (by decide))).trans (W9_main_arg1 m c),
    (h c _ (mem_uc main_arg2 (by decide))).trans (W9_main_arg2 m c),
    (h c _ (mem_uc main_arg3 (by decide))).trans (W9_main_arg3 m c),
    (h c _ (mem_uc main_arg4 (by decide))).trans (W9_main_arg4 m c),
    (h c _ (mem_uc main_arg5 (by decide))).trans (W9_main_arg5 m c),
    (h c _ (mem_uc main_arg6 (by decide))).trans (W9_main_arg6 m c),
    (h c _ (mem_uc main_arg7 (by decide))).trans (W9_main_arg7 m c)⟩) (run_all m ρ)

/-- The same run with the result buffer named: it ends at the last boundary's contents. -/
theorem run_value : θ_run defs (onTc (τ := τ) (main (F := F))) ⟨m, fun _ => 0, ρ⟩ (fun r => ∀ c : Dev nD,
      r.2.mem ((c.tc : Thread nD τ).loc main_v52) = W9 m c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c _ (mem_uc main_v52 (by decide)),
    (h c _ (mem_uc main_arg0 (by decide))).trans (W9_main_arg0 m c),
    (h c _ (mem_uc main_arg1 (by decide))).trans (W9_main_arg1 m c),
    (h c _ (mem_uc main_arg2 (by decide))).trans (W9_main_arg2 m c),
    (h c _ (mem_uc main_arg3 (by decide))).trans (W9_main_arg3 m c),
    (h c _ (mem_uc main_arg4 (by decide))).trans (W9_main_arg4 m c),
    (h c _ (mem_uc main_arg5 (by decide))).trans (W9_main_arg5 m c),
    (h c _ (mem_uc main_arg6 (by decide))).trans (W9_main_arg6 m c),
    (h c _ (mem_uc main_arg7 (by decide))).trans (W9_main_arg7 m c)⟩) (run_all m ρ)

end Cert.KernelIdeal.Hand

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.Spec.lean ====
/-
  The value of the network on the extended reals, entry by entry, and the one law of sums it needs.

  A product with the second factor transposed: entry (r, c) of A·Wᵀ is the sum over k of A(r, k)·W(c, k).
  A rectified affine layer with such a product: max(A·Wᵀ + b, 0), the bias of the entry's column.
  The vector unit's product of an M×K by an N×K operand (both contracted on their last axis) into a zero
  accumulator is A·Wᵀ at every entry.

  The law: a sum over the first b·(n+1) numbers is the running accumulation "zero plus the sum of tile 0, then
  plus the sum of tile 1, …, plus the sum of tile n", a tile being b consecutive numbers. It holds in any
  commutative monoid, so on the extended reals nothing is asked of the terms.
-/
import Idealize.ShloMosaic.PureOps.Ideal
import Idealize.ShloMosaic.PureOps.Ideal.Laws
import Idealize.ShloMosaic.Lib.ValueIdx
import proofs.«107239_j17016660427224_1_alg».proof.Proof.LibDense

noncomputable section

open scoped BigOperators

namespace Cert.Spec

open Idealize.ShloMosaic Idealize.ShloMosaic.ValueIdx Cert.Dense

variable {M K N : ℕ}

/-! ## Products with the second factor transposed -/

/-- Entry (r, c) of A·Wᵀ: the sum over k of A(r, k)·W(c, k). -/
def mmT (A : Mat M K) (W : Mat N K) : Mat M N := fun i => ∑ k : Fin K, A (ix2 (i 0) k) * W (ix2 (i 1) k)

/-- A rectified affine layer: max(A·Wᵀ + b, 0), the bias a row indexed by the column. -/
def fcT (A : Mat M K) (W : Mat N K) (b : Row N) : Mat M N := fun i => max (mmT A W i + b (ix1 (i 1))) 0

/-- The same with the bias stored as a one-row matrix. -/
def fcT2 (A : Mat M K) (W : Mat N K) (b : Mat 1 N) : Mat M N := fun i => max (mmT A W i + b (ix2 (0 : Fin 1) (i 1))) 0

theorem fcT2_eq_fcT (A : Mat M K) (W : Mat N K) (b : Row N) (b2 : Mat 1 N)
    (hb : ∀ q : Fin N, b2 (ix2 (0 : Fin 1) q) = b (ix1 q)) : fcT2 A W b2 = fcT A W b := by
  funext i
  obtain ⟨p, q, rfl⟩ : ∃ (p : Fin M) (q : Fin N), i = ix2 p q := ⟨i 0, i 1, eq_ix2 i⟩
  show max (mmT A W (ix2 p q) + b2 (ix2 (0 : Fin 1) q)) 0 = max (mmT A W (ix2 p q) + b (ix1 q)) 0
  rw [hb]

/-- The sum over the one contracted axis of an M×K by N×K product is the sum over `Fin K`. -/
theorem transposedRhs_sum (a : Mat M K) (b : Mat N K) (j : (⟨2, ![M, N]⟩ : Shape).Idx) :
    ∑ k : (DotDims.transposedRhs M K N).contr.Idx,
        a ((DotDims.transposedRhs M K N).lhsIdx j k) * b ((DotDims.transposedRhs M K N).rhsIdx j k)
      = mmT a b j := by
  unfold mmT
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => rfl
      | ⟨1, _⟩ => exact hk)
  have er : (DotDims.transposedRhs M K N).rhsIdx j ((contrEquiv1 (DotDims.transposedRhs M K N) K rfl rfl).symm k) = ix2 (j 1) k :=
    funext fun a => Fin.ext (by
      match a with
      | ⟨0, _⟩ => rfl
      | ⟨1, _⟩ => exact hk)
  exact congr (congrArg _ (congrArg a el)) (congrArg b er)

/-- The vector unit's product of an M×K by an N×K operand into a zero accumulator is A·Wᵀ, entry by entry. -/
theorem matmul_transposedRhs_zero {φ₁ φ₂ : FTy} (prec : Option ContractPrecision) (a : FVec Ideal ⟨2, ![M, K]⟩ φ₁)
    (b : FVec Ideal ⟨2, ![N, K]⟩ φ₂) :
    matmul (DotDims.transposedRhs M K N) prec a b (constant (F := Ideal) ⟨2, ![M, N]⟩ .f32 0x00000000#32) = mmT a b := by
  funext j
  simp only [matmul]
  rw [Ideal.matmul_constant_zero_apply]
  exact transposedRhs_sum a b j

/-! ## A sum taken a tile at a time -/

section Tiles

variable {A : Type*} [AddCommMonoid A]

/-- The sum of tile t: the b consecutive terms from number b·t on. -/
def tileSum (f : ℕ → A) (b t : ℕ) : A := ∑ q : Fin b, f (b * t + q.val)

/-- The running accumulation: zero plus tile 0, then one more tile at each step. -/
def accum (f : ℕ → A) (b : ℕ) : ℕ → A
  | 0 => 0 + tileSum f b 0
  | n + 1 => accum f b n + tileSum f b (n + 1)

theorem accum_zero (f : ℕ → A) (b : ℕ) : accum f b 0 = 0 + tileSum f b 0 := rfl

theorem accum_succ (f : ℕ → A) (b n : ℕ) : accum f b (n + 1) = accum f b n + tileSum f b (n + 1) := rfl

theorem tileSum_eq_range (f : ℕ → A) (b t : ℕ) : tileSum f b t = ∑ q ∈ Finset.range b, f (b * t + q) :=
  (Finset.sum_range fun q => f (b * t + q)).symm

/-- After tile n the accumulation holds the first b·(n+1) terms. -/
theorem accum_eq_range (f : ℕ → A) (b n : ℕ) : accum f b n = ∑ i ∈ Finset.range (b * (n + 1)), f i := by
  induction n with
  | zero =>
    rw [accum_zero, zero_add, tileSum_eq_range, Nat.zero_add, Nat.mul_one]
    exact Finset.sum_congr rfl fun q _ => by rw [Nat.mul_zero, Nat.zero_add]
  | succ n ih =>
    rw [accum_succ, ih, tileSum_eq_range, Nat.mul_succ b (n + 1), Finset.sum_range_add]

/-- The same as a sum over `Fin`. -/
theorem accum_eq_sum (f : ℕ → A) (b n : ℕ) : accum f b n = ∑ i : Fin (b * (n + 1)), f i.val := by
  rw [accum_eq_range, Finset.sum_range]

end Tiles

/-! ## The transposed product a tile of the contracted axis at a time -/

/-- Term n of entry (r, c) of A·Wᵀ: A(r, n)·W(c, n), and zero past the contracted axis. -/
def termT (A : Mat M K) (W : Mat N K) (r : Fin M) (c : Fin N) (n : ℕ) : EReal :=
  if h : n < K then A (ix2 r ⟨n, h⟩) * W (ix2 c ⟨n, h⟩) else 0

/-- All K terms: the entry of the product. -/
theorem sum_termT (A : Mat M K) (W : Mat N K) (r : Fin M) (c : Fin N) :
    ∑ i : Fin K, termT A W r c i.val = mmT A W (ix2 r c) := by
  unfold mmT
  refine Finset.sum_congr rfl fun k _ => ?_
  unfold termT
  rw [dif_pos k.isLt]
  rfl

/-- The product of a block of A on columns b·t … b·t + b − 1 of row r with the block of W on the same columns of
    row c is tile t of the terms of entry (r, c). -/
theorem mmT_tile {Mb Nb b : ℕ} (A : Mat M K) (W : Mat N K) (bx : Mat Mb b) (bw : Mat Nb b) (t : ℕ) (hn : b * t + b ≤ K)
    (p : Fin Mb) (r : Fin M) (q : Fin Nb) (c : Fin N)
    (hx : ∀ (j : Fin b) (h : b * t + j.val < K), bx (ix2 p j) = A (ix2 r ⟨b * t + j.val, h⟩))
    (hw : ∀ (j : Fin b) (h : b * t + j.val < K), bw (ix2 q j) = W (ix2 c ⟨b * t + j.val, h⟩)) :
    mmT bx bw (ix2 p q) = tileSum (termT A W r c) b t := by
  unfold mmT tileSum
  refine Finset.sum_congr rfl fun j _ => ?_
  have h : b * t + j.val < K := by have := j.isLt; omega
  unfold termT
  rw [dif_pos h, ← hx j h, ← hw j h]
  rfl

/-- With the contracted axis cut into n + 1 tiles of b, the accumulation after the last tile is the entry. -/
theorem accum_termT (A : Mat M K) (W : Mat N K) (r : Fin M) (c : Fin N) (b n : ℕ) (hK : b * (n + 1) = K) :
    accum (termT A W r c) b n = mmT A W (ix2 r c) := by
  subst hK
  rw [accum_eq_sum, sum_termT]

end Cert.Spec

end
-- ==== Proof.KernelSide.lean ====
/-
  The arithmetic of the three kernels on the extended reals, entry by entry.

  Changes of float format are the identity on the extended reals and a reshape to the same shape is the identity, so:
  the first kernel's body is the product of its block of rows with the weight matrix; the second kernel's step adds
  to the accumulator the product of a block of the features with the same block of columns of the weights (both
  contracted on their last axis), its first step starting from zero, and its last step adds the bias and rectifies;
  the third kernel's body is a rectified affine layer with the weights contracted on their last axis.
-/
import proofs.«107239_j17016660427224_1_alg».proof.Proof.Gen.KernelIdeal.Skeleton
import proofs.«107239_j17016660427224_1_alg».proof.Proof.Spec
import Idealize.ShloMosaic.Lib.Pipeline.Value

noncomputable section

namespace Cert.KernelValue

open Cert.KernelIdeal Cert.KernelIdeal.Gen Idealize.ShloMosaic Idealize.ShloMosaic.ValueIdx
open Cert.Dense Cert.Spec

/-- The first kernel's body: the block of rows times the weight matrix. -/
theorem k0_pay1_eq (x0 : Vec Ideal S2000x128 .f32) (w : Vec Ideal S128x32 .f32) :
    k0_pay1 (F := Ideal) x0 w = mm (M := 2000) (K := 128) (N := 32) x0 w :=
  matmul_plain_zero (M := 2000) (K := 128) (N := 32) none (truncf .bf16 x0 bitsLt_bf16_f32) (truncf .bf16 w bitsLt_bf16_f32)

/-- At an entry. -/
theorem k0_pay1_apply (x0 : Vec Ideal S2000x128 .f32) (w : Vec Ideal S128x32 .f32) (p : Fin 2000) (q : Fin 32) :
    k0_pay1 (F := Ideal) x0 w (ix2 p q) = ∑ k : Fin 128, x0 (ix2 p k) * w (ix2 k q) :=
  congrFun (k0_pay1_eq x0 w) (ix2 p q)

/-- The second kernel's accumulator starts at zero. -/
theorem k1_pay1_apply (j : S1x128.Idx) : k1_pay1 (F := Ideal) j = 0 := by
  unfold k1_pay1
  show shapeCast S1x128 (broadcast S1x128 (Scalar.ofBits (F := Ideal) .f32 0x00000000#32)) shapeCasts_S1x128_S1x128 j = 0
  rw [shapeCast_self]
  exact Ideal.ofBits_zero_f32

/-- The second kernel's step: the accumulator plus the product of the two blocks. -/
theorem k1_pay2_eq (a : Vec Ideal S1x12800 .f32) (wb : Vec Ideal S128x12800 .f32) (acc : Vec Ideal S1x128 .f32) :
    k1_pay2 (F := Ideal) a wb acc = fun j => acc j + mmT (M := 1) (K := 12800) (N := 128) a wb j := by
  have e1 : shapeCast S1x12800 a shapeCasts_S1x12800_S1x12800 = a := shapeCast_self a _
  have e2 := matmul_transposedRhs_zero (M := 1) (K := 12800) (N := 128) none (truncf .bf16 a bitsLt_bf16_f32)
    (truncf .bf16 wb bitsLt_bf16_f32)
  unfold k1_pay2
  show shapeCast S1x128 (addf acc (matmul dot_S1x12800_S128x12800_S1x128_1_1_0_0_n_n none
      (truncf .bf16 (shapeCast S1x12800 a shapeCasts_S1x12800_S1x12800) bitsLt_bf16_f32) (truncf .bf16 wb bitsLt_bf16_f32)
      (constant (F := Ideal) S1x128 .f32 0x00000000#32))) shapeCasts_S1x128_S1x128 = _
  rw [shapeCast_self, e1]
  funext j
  exact congrArg (acc j + ·) (congrFun e2 j)

/-- At an entry. -/
theorem k1_pay2_apply (a : Vec Ideal S1x12800 .f32) (wb : Vec Ideal S128x12800 .f32) (acc : Vec Ideal S1x128 .f32)
    (j : Fin 128) :
    k1_pay2 (F := Ideal) a wb acc (ix2 (0 : Fin 1) j)
      = acc (ix2 (0 : Fin 1) j) + ∑ q : Fin 12800, a (ix2 (0 : Fin 1) q) * wb (ix2 j q) :=
  congrFun (k1_pay2_eq a wb acc) (ix2 (0 : Fin 1) j)

/-- The second kernel's last step: the bias is added and the result rectified. -/
theorem k1_pay3_eq (acc b : Vec Ideal S1x128 .f32) :
    k1_pay3 (F := Ideal) acc b = fun j => max (acc j + b j) 0 := by
  unfold k1_pay3
  show maximumf (addf acc (shapeCast S1x128 b shapeCasts_S1x128_S1x128))
      (broadcast S1x128 (Scalar.ofBits (F := Ideal) .f32 0x00000000#32)) = _
  rw [shapeCast_self]
  funext j
  show max (acc j + b j) (Ideal.ofBits .f32 0x00000000#32) = max (acc j + b j) 0
  rw [Ideal.ofBits_zero_f32]

/-- The third kernel's body: a rectified affine layer, the weights contracted on their last axis. -/
theorem k2_pay1_eq (h3 : Vec Ideal S1x128 .f32) (w : Vec Ideal S20000x128 .f32) (b : Vec Ideal S1x20000 .f32) :
    k2_pay1 (F := Ideal) h3 w b = fun i => max (mmT (M := 1) (K := 128) (N := 20000) h3 w i + b i) 0 := by
  have e1 : shapeCast S1x128 h3 shapeCasts_S1x128_S1x128 = h3 := shapeCast_self h3 _
  have e2 := matmul_transposedRhs_zero (M := 1) (K := 128) (N := 20000) none (truncf .bf16 h3 bitsLt_bf16_f32)
    (truncf .bf16 w bitsLt_bf16_f32)
  unfold k2_pay1
  show maximumf (addf (matmul dot_S1x128_S20000x128_S1x20000_1_1_0_0_n_n none
        (truncf .bf16 (shapeCast S1x128 h3 shapeCasts_S1x128_S1x128) bitsLt_bf16_f32) (truncf .bf16 w bitsLt_bf16_f32)
        (constant (F := Ideal) S1x20000 .f32 0x00000000#32)) (shapeCast S1x20000 b shapeCasts_S1x20000_S1x20000))
      (broadcast S1x20000 (Scalar.ofBits (F := Ideal) .f32 0x00000000#32)) = _
  rw [e1, shapeCast_self]
  funext i
  show max (matmul dot_S1x128_S20000x128_S1x20000_1_1_0_0_n_n none (truncf .bf16 h3 bitsLt_bf16_f32)
      (truncf .bf16 w bitsLt_bf16_f32) (constant (F := Ideal) S1x20000 .f32 0x00000000#32) i + b i)
      (Ideal.ofBits .f32 0x00000000#32) = _
  rw [Ideal.ofBits_zero_f32]
  exact congrArg (fun z => max (z + b i) 0) (congrFun e2 i)

end Cert.KernelValue

end
-- ==== Proof.KIVal0.lean ====
/-
  What region 0 leaves in its output array, on the extended reals: the whole product of the left factor with the
  right factor. Grid point t handles rows 2000·t … 2000·t + 1999: its input tile is those rows of the left factor,
  the right factor is read whole, and the product of a block of rows is the block of rows of the product. The ten
  tiles of 2000 rows cover the 20000 rows, so after the write-backs the array holds the product everywhere.
-/
import proofs.«107239_j17016660427224_1_alg».proof.Proof.KIBounds
import proofs.«107239_j17016660427224_1_alg».proof.Proof.KernelSide

import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Dense Cert.Spec Cert.KernelValue
open scoped BigOperators

variable (V : (c : Dev nD) → (b : Ref sig .tc) → Buf (Elt Ideal) ((c : Thread nD τ).loc b))

/-- Where each window's block sits at grid point `t`: the row-tiled windows at block row `t`, the right factor whole. -/
theorem idx0 : ∀ t : Fin cfg0.N,
    win0_0.index t (0 : Fin 2) = t.val ∧ win0_0.index t (1 : Fin 2) = 0
    ∧ win0_2.index t (0 : Fin 2) = t.val ∧ win0_2.index t (1 : Fin 2) = 0
    ∧ win0_1.index t (0 : Fin 2) = 0 ∧ win0_1.index t (1 : Fin 2) = 0 :=
  (by decide +kernel : ∀ t : Fin grid0.N, _)

/-- Row `p` of the left factor's tile at point `t` is row `2000·t + p` of the array. -/
theorem blk0_x (c : Dev nD) (t : Fin cfg0.N) (p : Fin 2000) (k : Fin 128) (h : 2000 * t.val + p.val < 20000) :
    iblk0 V c 0 t (ix2 p k) = V c main_arg0 (ix2 ⟨2000 * t.val + p.val, h⟩ k) := by
  obtain ⟨e0, e1, -⟩ := idx0 t
  show V c main_arg0 (((cfg0.win 0).blk t).view.emb (ix2 p k)) = _
  refine congrArg _ (funext fun a => Fin.ext ?_)
  match a with
  | ⟨0, _⟩ => show win0_0.index t (0 : Fin 2) * 2000 + 1 * p.val = 2000 * t.val + p.val; omega
  | ⟨1, _⟩ => show win0_0.index t (1 : Fin 2) * 128 + 1 * k.val = k.val; omega

/-- The right factor's tile is the whole array at every point. -/
theorem blk0_w (c : Dev nD) (t : Fin cfg0.N) (k : Fin 128) (q : Fin 32) :
    iblk0 V c 1 t (ix2 k q) = V c main_arg2 (ix2 k q) := by
  obtain ⟨-, -, -, -, e4, e5⟩ := idx0 t
  show V c main_arg2 (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 32 + 1 * q.val = q.val; omega

/-- What point `t` writes back is block `t` of the whole product. -/
theorem flushed0 (c : Dev nD) (t : Fin cfg0.N) :
    (dat0 V c).flushed 2 t = ((cfg0.win 2).blk t).view.read (Elt Ideal)
      (mm (M := 20000) (K := 128) (N := 32) (V c main_arg0) (V c main_arg2)) := by
  show (cfg0.win 2).cut (grid0.coords t) ((dat0 V c).after 2 t) = _
  rw [after0_2]
  have ht : t.val < 10 := lt_of_lt_of_eq t.isLt (show cfg0.N = 10 from N_0)
  obtain ⟨-, -, e2, e3, -⟩ := idx0 t
  funext j
  obtain ⟨p, q, rfl⟩ : ∃ (p : Fin 2000) (q : Fin 32), j = ix2 p q := ⟨j 0, j 1, eq_ix2 j⟩
  have hp : 2000 * t.val + p.val < 20000 := by have := p.isLt; omega
  have hemb : ((cfg0.win 2).blk t).view.emb (ix2 p q) = ix2 ⟨2000 * t.val + p.val, hp⟩ q := by
    funext a; apply Fin.ext
    match a with
    | ⟨0, _⟩ => show win0_2.index t (0 : Fin 2) * 2000 + 1 * p.val = 2000 * t.val + p.val; omega
    | ⟨1, _⟩ => show win0_2.index t (1 : Fin 2) * 32 + 1 * q.val = q.val; omega
  show k0_pay1 (F := Ideal) (iblk0 V c 0 t) (iblk0 V c 1 t) (ix2 p q)
    = mm (M := 20000) (K := 128) (N := 32) (V c main_arg0) (V c main_arg2) (((cfg0.win 2).blk t).view.emb (ix2 p q))
  rw [hemb]
  have hw : (iblk0 V c 1 t : Mat 128 32) = V c main_arg2 := funext fun y => by
    obtain ⟨k, q', rfl⟩ : ∃ (k : Fin 128) (q' : Fin 32), y = ix2 k q' := ⟨y 0, y 1, eq_ix2 y⟩
    exact blk0_w V c t k q'
  refine (congrFun (k0_pay1_eq (iblk0 V c 0 t) (iblk0 V c 1 t)) (ix2 p q)).trans ?_
  refine (congrArg (fun W : Mat 128 32 => mm (M := 2000) (K := 128) (N := 32) (iblk0 V c 0 t) W (ix2 p q)) hw).trans ?_
  exact mm_rows (M := 2000) (K := 128) (N := 32) (V c main_arg0) (iblk0 V c 0 t) (V c main_arg2)
    (fun p' => ⟨2000 * t.val + p'.val, by have := p'.isLt; omega⟩) (fun p' k => blk0_x V c t p' k _) p q

/-- An index of the output array is in point `t`'s block iff each coordinate is in the block's range. -/
theorem mem_blk0 (t : Fin cfg0.N) (i : S20000x32.Idx) :
    i ∈ ((cfg0.win 2).blk t).view.set ↔ ∀ a : Fin 2, win0_2.index t a * S2000x32.size a ≤ (i a).val
      ∧ (i a).val < win0_2.index t a * S2000x32.size a + S2000x32.size a := by
  show i ∈ ((View.whole main_v0).slice (win0_2.rect t)).set ↔ _
  rw [View.set_slice_whole, Rect.mem_set_unit]
  exact Iff.rfl

/-- Every index of the output array is in the block of the point that handles its row. -/
theorem cover0 (i : S20000x32.Idx) :
    ∃ t : Fin cfg0.N, (cfg0.win 2).flush t = true ∧ i ∈ ((cfg0.win 2).blk t).view.set := by
  have hi0 : (i 0).val < 20000 := (i 0).isLt
  have hi1 : (i 1).val < 32 := (i 1).isLt
  have hN : cfg0.N = 10 := N_0
  refine ⟨⟨(i 0).val / 2000, by rw [hN]; omega⟩, flush0_2 _, ?_⟩
  rw [mem_blk0]
  obtain ⟨-, -, e2, e3, -⟩ := idx0 ⟨(i 0).val / 2000, by rw [hN]; omega⟩
  intro a
  match a with
  | ⟨0, _⟩ =>
    show win0_2.index ⟨(i 0).val / 2000, _⟩ (0 : Fin 2) * 2000 ≤ (i 0).val
      ∧ (i 0).val < win0_2.index ⟨(i 0).val / 2000, _⟩ (0 : Fin 2) * 2000 + 2000
    rw [e2]; show (i 0).val / 2000 * 2000 ≤ (i 0).val ∧ (i 0).val < (i 0).val / 2000 * 2000 + 2000; omega
  | ⟨1, _⟩ =>
    show win0_2.index ⟨(i 0).val / 2000, _⟩ (1 : Fin 2) * 32 ≤ (i 1).val
      ∧ (i 1).val < win0_2.index ⟨(i 0).val / 2000, _⟩ (1 : Fin 2) * 32 + 32
    rw [e3]; omega

/-- After region 0 its output array holds the whole product. -/
theorem final0 (c : Dev nD) :
    (dat0 V c).arrAt 2 cfg0.N = mm (M := 20000) (K := 128) (N := 32) (V c main_arg0) (V c main_arg2) :=
  (dat0 V c).arrAt_eq_of_cover 2 _ (fun t _ => flushed0 V c t) cover0

end Cert.KernelIdeal.Val

end
-- ==== Proof.KIVal1.lean ====
/-
  What region 1 leaves in its output array, on the extended reals: the rectified affine layer
  max(flat · Wᵀ + b, 0) with the contracted axis of length 640000 taken fifty tiles of 12800 at a time.
  Grid point t sees columns 12800·t … 12800·t + 12799 of the feature row and of the weight matrix; the product of
  the two tiles is tile t of the terms of each output entry. The scratch row after point n is therefore the
  running accumulation "zero plus tile 0, …, plus tile n" of those terms, which after the last tile is the whole
  sum: regrouping a sum in a commutative monoid, nothing asked of the terms. The output is written back at the last
  point only, where it holds max(scratch + bias, 0).
-/
import proofs.«107239_j17016660427224_1_alg».proof.Proof.KIBounds
import proofs.«107239_j17016660427224_1_alg».proof.Proof.KernelSide

import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Dense Cert.Spec Cert.KernelValue
open scoped BigOperators

variable (V : (c : Dev nD) → (b : Ref sig .tc) → Buf (Elt Ideal) ((c : Thread nD τ).loc b))

/-- Where each window's block sits at grid point `t`: the two column-tiled windows at block column `t`, the bias and
    the output whole. -/
theorem idx1 : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Column `j` of the feature tile at point `t` is column `12800·t + j` of the feature row. -/
theorem blk1_a (c : Dev nD) (t : Fin cfg1.N) (p : Fin 1) (j : Fin 12800) (h : 12800 * t.val + j.val < 640000) :
    iblk1 V c 0 t (ix2 p j) = V c main_v48 (ix2 p ⟨12800 * t.val + j.val, h⟩) := by
  have e := idx1 t
  show V c main_v48 (((cfg1.win 0).blk t).view.emb (ix2 p j)) = _
  refine congrArg _ (funext fun a => Fin.ext ?_)
  match a with
  | ⟨0, _⟩ => show win1_0.index t (0 : Fin 2) * 1 + 1 * p.val = p.val; omega
  | ⟨1, _⟩ => show win1_0.index t (1 : Fin 2) * 12800 + 1 * j.val = 12800 * t.val + j.val; omega

/-- Column `j` of the weight tile at point `t` is column `12800·t + j` of the weight matrix. -/
theorem blk1_w (c : Dev nD) (t : Fin cfg1.N) (r : Fin 128) (j : Fin 12800) (h : 12800 * t.val + j.val < 640000) :
    iblk1 V c 1 t (ix2 r j) = V c main_arg4 (ix2 r ⟨12800 * t.val + j.val, h⟩) := by
  have e := idx1 t
  show V c main_arg4 (((cfg1.win 1).blk t).view.emb (ix2 r j)) = _
  refine congrArg _ (funext fun a => Fin.ext ?_)
  match a with
  | ⟨0, _⟩ => show win1_1.index t (0 : Fin 2) * 128 + 1 * r.val = r.val; omega
  | ⟨1, _⟩ => show win1_1.index t (1 : Fin 2) * 12800 + 1 * j.val = 12800 * t.val + j.val; omega

/-- Window 2's tile is its whole array at every point. -/
theorem blk1_2 (c : Dev nD) (t : Fin cfg1.N) : (iblk1 V c 2 t : Mat 1 128) = V c main_v49 := funext fun y => by
  obtain ⟨p, k, rfl⟩ : ∃ (p : Fin 1) (k : Fin 128), y = ix2 p k := ⟨y 0, y 1, eq_ix2 y⟩
  have e := idx1 t
  show V c main_v49 (((cfg1.win 2).blk t).view.emb (ix2 p k)) = V c main_v49 (ix2 p k)
  refine congrArg _ (funext fun a => Fin.ext ?_)
  match a with
  | ⟨0, _⟩ => show win1_2.index t (0 : Fin 2) * 1 + 1 * p.val = p.val; omega
  | ⟨1, _⟩ => show win1_2.index t (1 : Fin 2) * 128 + 1 * k.val = k.val; omega

/-- The product of the two tiles at point `t` is tile `t` of the terms of the output entry. -/
theorem tile1 (c : Dev nD) (t : Fin cfg1.N) (j : Fin 128) :
    mmT (M := 1) (K := 12800) (N := 128) (iblk1 V c 0 t) (iblk1 V c 1 t) (ix2 (0 : Fin 1) j)
      = tileSum (termT (M := 1) (K := 640000) (N := 128) (V c main_v48) (V c main_arg4) 0 j) 12800 t.val := by
  have ht : t.val < 50 := lt_of_lt_of_eq t.isLt (show cfg1.N = 50 from N_1)
  exact mmT_tile (M := 1) (K := 640000) (N := 128) (Mb := 1) (Nb := 128) (b := 12800) (V c main_v48) (V c main_arg4)
    (iblk1 V c 0 t) (iblk1 V c 1 t) t.val (by omega) 0 0 j j
    (fun q h => blk1_a V c t 0 q h) (fun q h => blk1_w V c t j q h)

/-- The scratch row after point `n` is the running accumulation of the tiles through `n`. -/
theorem acc_eq (c : Dev nD) (j : Fin 128) : ∀ (n : ℕ) (hn : n < cfg1.N),
    accAt1 V c n hn (ix2 (0 : Fin 1) j)
      = accum (termT (M := 1) (K := 640000) (N := 128) (V c main_v48) (V c main_arg4) 0 j) 12800 n
  | 0, hn => by
    rw [accAt1_zero, accum_zero]
    refine (congrFun (k1_pay2_eq (iblk1 V c 0 ⟨0, hn⟩) (iblk1 V c 1 ⟨0, hn⟩) (k1_pay1 (F := Ideal))) (ix2 (0 : Fin 1) j)).trans ?_
    show k1_pay1 (F := Ideal) (ix2 (0 : Fin 1) j) + mmT (M := 1) (K := 12800) (N := 128) (iblk1 V c 0 ⟨0, hn⟩) (iblk1 V c 1 ⟨0, hn⟩) (ix2 (0 : Fin 1) j) = _
    rw [k1_pay1_apply, tile1 V c ⟨0, hn⟩ j]
  | n + 1, hn => by
    rw [accAt1_succ, accum_succ]
    refine (congrFun (k1_pay2_eq (iblk1 V c 0 ⟨n + 1, hn⟩) (iblk1 V c 1 ⟨n + 1, hn⟩) (accAt1 V c n (Nat.lt_of_succ_lt hn))) (ix2 (0 : Fin 1) j)).trans ?_
    show accAt1 V c n (Nat.lt_of_succ_lt hn) (ix2 (0 : Fin 1) j) + mmT (M := 1) (K := 12800) (N := 128) (iblk1 V c 0 ⟨n + 1, hn⟩) (iblk1 V c 1 ⟨n + 1, hn⟩) (ix2 (0 : Fin 1) j) = _
    rw [acc_eq c j n (Nat.lt_of_succ_lt hn), tile1 V c ⟨n + 1, hn⟩ j]

/-- What the last point writes back is the whole layer. -/
theorem flushed1 (c : Dev nD) (t : Fin cfg1.N) (hf : (cfg1.win 3).flush t = true) :
    (dat1 V c).flushed 3 t = ((cfg1.win 3).blk t).view.read (Elt Ideal)
      (fcT2 (M := 1) (K := 640000) (N := 128) (V c main_v48) (V c main_arg4) (V c main_v49)) := by
  have hN : t.val < 50 := lt_of_lt_of_eq t.isLt (show cfg1.N = 50 from N_1)
  have ht : t.val = 49 := by have := (flush1_3 t).mp hf; omega
  show (cfg1.win 3).cut (grid1.coords t) ((dat1 V c).after 3 t) = _
  rw [after1_3]
  have e := idx1 t
  funext i
  obtain ⟨p, q, rfl⟩ : ∃ (p : Fin 1) (q : Fin 128), i = ix2 p q := ⟨i 0, i 1, eq_ix2 i⟩
  have hemb : ((cfg1.win 3).blk t).view.emb (ix2 p q) = ix2 p q := by
    funext a; apply Fin.ext
    match a with
    | ⟨0, _⟩ => show win1_3.index t (0 : Fin 2) * 1 + 1 * p.val = p.val; omega
    | ⟨1, _⟩ => show win1_3.index t (1 : Fin 2) * 128 + 1 * q.val = q.val; omega
  show k1_pay3 (F := Ideal) (accAt1 V c t.val t.isLt) (iblk1 V c 2 t) (ix2 p q)
    = fcT2 (M := 1) (K := 640000) (N := 128) (V c main_v48) (V c main_arg4) (V c main_v49) (((cfg1.win 3).blk t).view.emb (ix2 p q))
  rw [hemb]
  refine (congrFun (k1_pay3_eq (accAt1 V c t.val t.isLt) (iblk1 V c 2 t)) (ix2 p q)).trans ?_
  obtain rfl : p = 0 := Subsingleton.elim _ _
  show max (accAt1 V c t.val t.isLt (ix2 (0 : Fin 1) q) + iblk1 V c 2 t (ix2 0 q)) 0
    = max (mmT (M := 1) (K := 640000) (N := 128) (V c main_v48) (V c main_arg4) (ix2 0 q) + V c main_v49 (ix2 (0 : Fin 1) q)) 0
  rw [acc_eq V c q t.val t.isLt, blk1_2 V c t,
    accum_termT (M := 1) (K := 640000) (N := 128) (V c main_v48) (V c main_arg4) 0 q 12800 t.val (by omega)]

theorem mem_blk1 (t : Fin cfg1.N) (i : S1x128.Idx) :
    i ∈ ((cfg1.win 3).blk t).view.set ↔ ∀ a : Fin 2, win1_3.index t a * S1x128.size a ≤ (i a).val
      ∧ (i a).val < win1_3.index t a * S1x128.size a + S1x128.size a := by
  show i ∈ ((View.whole main_v50).slice (win1_3.rect t)).set ↔ _
  rw [View.set_slice_whole, Rect.mem_set_unit]
  exact Iff.rfl

/-- Every index of the output row is in the last point's block, which is written back. -/
theorem cover1 (i : S1x128.Idx) :
    ∃ t : Fin cfg1.N, (cfg1.win 3).flush t = true ∧ i ∈ ((cfg1.win 3).blk t).view.set := by
  have hi0 : (i 0).val < 1 := (i 0).isLt
  have hi1 : (i 1).val < 128 := (i 1).isLt
  have hN : cfg1.N = 50 := N_1
  refine ⟨⟨49, by rw [hN]; omega⟩, (flush1_3 _).mpr rfl, ?_⟩
  rw [mem_blk1]
  have e := idx1 ⟨49, by rw [hN]; omega⟩
  intro a
  match a with
  | ⟨0, _⟩ =>
    show win1_3.index ⟨49, _⟩ (0 : Fin 2) * 1 ≤ (i 0).val ∧ (i 0).val < win1_3.index ⟨49, _⟩ (0 : Fin 2) * 1 + 1
    omega
  | ⟨1, _⟩ =>
    show win1_3.index ⟨49, _⟩ (1 : Fin 2) * 128 ≤ (i 1).val ∧ (i 1).val < win1_3.index ⟨49, _⟩ (1 : Fin 2) * 128 + 128
    omega

/-- After region 1 its output row holds the whole layer. -/
theorem final1 (c : Dev nD) :
    (dat1 V c).arrAt 3 cfg1.N = fcT2 (M := 1) (K := 640000) (N := 128) (V c main_v48) (V c main_arg4) (V c main_v49) :=
  (dat1 V c).arrAt_eq_of_cover 3 _ (fun t hf => flushed1 V c t hf) cover1

end Cert.KernelIdeal.Val

end
-- ==== Proof.KIVal2.lean ====
/-
  What region 2 leaves in its output array, on the extended reals: the rectified affine layer
  max(h3 · Wᵀ + b, 0) of the hidden row, the weight matrix (contracted on its last axis) and the bias row. The
  region has one grid point and every window's block is its whole array, so the one write-back stores the whole
  result.
-/
import proofs.«107239_j17016660427224_1_alg».proof.Proof.KIBounds
import proofs.«107239_j17016660427224_1_alg».proof.Proof.KernelSide

import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Dense Cert.Spec Cert.KernelValue
open scoped BigOperators

variable (V : (c : Dev nD) → (b : Ref sig .tc) → Buf (Elt Ideal) ((c : Thread nD τ).loc b))

/-- Every window's block sits at block index zero on both axes. -/
theorem idx2 : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- Window 0's tile is its whole array at every point. -/
theorem blk2_0 (c : Dev nD) (t : Fin cfg2.N) : (iblk2 V c 0 t : Mat 1 128) = V c main_v50 := funext fun y => by
  obtain ⟨p, k, rfl⟩ : ∃ (p : Fin 1) (k : Fin 128), y = ix2 p k := ⟨y 0, y 1, eq_ix2 y⟩
  have e := idx2 t
  show V c main_v50 (((cfg2.win 0).blk t).view.emb (ix2 p k)) = V c main_v50 (ix2 p k)
  refine congrArg _ (funext fun a => Fin.ext ?_)
  match a with
  | ⟨0, _⟩ => show win2_0.index t (0 : Fin 2) * 1 + 1 * p.val = p.val; omega
  | ⟨1, _⟩ => show win2_0.index t (1 : Fin 2) * 128 + 1 * k.val = k.val; omega

/-- Window 1's tile is its whole array at every point. -/
theorem blk2_1 (c : Dev nD) (t : Fin cfg2.N) : (iblk2 V c 1 t : Mat 20000 128) = V c main_arg6 := funext fun y => by
  obtain ⟨p, k, rfl⟩ : ∃ (p : Fin 20000) (k : Fin 128), y = ix2 p k := ⟨y 0, y 1, eq_ix2 y⟩
  have e := idx2 t
  show V c main_arg6 (((cfg2.win 1).blk t).view.emb (ix2 p k)) = V c main_arg6 (ix2 p k)
  refine congrArg _ (funext fun a => Fin.ext ?_)
  match a with
  | ⟨0, _⟩ => show win2_1.index t (0 : Fin 2) * 20000 + 1 * p.val = p.val; omega
  | ⟨1, _⟩ => show win2_1.index t (1 : Fin 2) * 128 + 1 * k.val = k.val; omega

/-- Window 2's tile is its whole array at every point. -/
theorem blk2_2 (c : Dev nD) (t : Fin cfg2.N) : (iblk2 V c 2 t : Mat 1 20000) = V c main_v51 := funext fun y => by
  obtain ⟨p, k, rfl⟩ : ∃ (p : Fin 1) (k : Fin 20000), y = ix2 p k := ⟨y 0, y 1, eq_ix2 y⟩
  have e := idx2 t
  show V c main_v51 (((cfg2.win 2).blk t).view.emb (ix2 p k)) = V c main_v51 (ix2 p k)
  refine congrArg _ (funext fun a => Fin.ext ?_)
  match a with
  | ⟨0, _⟩ => show win2_2.index t (0 : Fin 2) * 1 + 1 * p.val = p.val; omega
  | ⟨1, _⟩ => show win2_2.index t (1 : Fin 2) * 20000 + 1 * k.val = k.val; omega

/-- What the one point writes back is the whole layer. -/
theorem flushed2 (c : Dev nD) (t : Fin cfg2.N) :
    (dat2 V c).flushed 3 t = ((cfg2.win 3).blk t).view.read (Elt Ideal)
      (fcT2 (M := 1) (K := 128) (N := 20000) (V c main_v50) (V c main_arg6) (V c main_v51)) := by
  show (cfg2.win 3).cut (grid2.coords t) ((dat2 V c).after 3 t) = _
  rw [after2_3]
  have e := idx2 t
  funext j
  obtain ⟨p, q, rfl⟩ : ∃ (p : Fin 1) (q : Fin 20000), j = ix2 p q := ⟨j 0, j 1, eq_ix2 j⟩
  have hemb : ((cfg2.win 3).blk t).view.emb (ix2 p q) = ix2 p q := by
    funext a; apply Fin.ext
    match a with
    | ⟨0, _⟩ => show win2_3.index t (0 : Fin 2) * 1 + 1 * p.val = p.val; omega
    | ⟨1, _⟩ => show win2_3.index t (1 : Fin 2) * 20000 + 1 * q.val = q.val; omega
  show k2_pay1 (F := Ideal) (iblk2 V c 0 t) (iblk2 V c 1 t) (iblk2 V c 2 t) (ix2 p q)
    = fcT2 (M := 1) (K := 128) (N := 20000) (V c main_v50) (V c main_arg6) (V c main_v51) (((cfg2.win 3).blk t).view.emb (ix2 p q))
  rw [hemb]
  refine (congrFun (k2_pay1_eq (iblk2 V c 0 t) (iblk2 V c 1 t) (iblk2 V c 2 t)) (ix2 p q)).trans ?_
  obtain rfl : p = 0 := Subsingleton.elim _ _
  show max (mmT (M := 1) (K := 128) (N := 20000) (iblk2 V c 0 t) (iblk2 V c 1 t) (ix2 0 q) + iblk2 V c 2 t (ix2 0 q)) 0
    = max (mmT (M := 1) (K := 128) (N := 20000) (V c main_v50) (V c main_arg6) (ix2 0 q) + V c main_v51 (ix2 (0 : Fin 1) q)) 0
  rw [blk2_0 V c t, blk2_1 V c t, blk2_2 V c t]

theorem mem_blk2 (t : Fin cfg2.N) (i : S1x20000.Idx) :
    i ∈ ((cfg2.win 3).blk t).view.set ↔ ∀ a : Fin 2, win2_3.index t a * S1x20000.size a ≤ (i a).val
      ∧ (i a).val < win2_3.index t a * S1x20000.size a + S1x20000.size a := by
  show i ∈ ((View.whole main_v52).slice (win2_3.rect t)).set ↔ _
  rw [View.set_slice_whole, Rect.mem_set_unit]
  exact Iff.rfl

/-- Every index of the output array is in the one point's block. -/
theorem cover2 (i : S1x20000.Idx) :
    ∃ t : Fin cfg2.N, (cfg2.win 3).flush t = true ∧ i ∈ ((cfg2.win 3).blk t).view.set := by
  have hi0 : (i 0).val < 1 := (i 0).isLt
  have hi1 : (i 1).val < 20000 := (i 1).isLt
  refine ⟨t2_0, flush2_3 _, ?_⟩
  rw [mem_blk2]
  have e := idx2 t2_0
  intro a
  match a with
  | ⟨0, _⟩ =>
    show win2_3.index t2_0 (0 : Fin 2) * 1 ≤ (i 0).val ∧ (i 0).val < win2_3.index t2_0 (0 : Fin 2) * 1 + 1
    omega
  | ⟨1, _⟩ =>
    show win2_3.index t2_0 (1 : Fin 2) * 20000 ≤ (i 1).val ∧ (i 1).val < win2_3.index t2_0 (1 : Fin 2) * 20000 + 20000
    omega

/-- After region 2 its output array holds the whole layer. -/
theorem final2 (c : Dev nD) :
    (dat2 V c).arrAt 3 cfg2.N = fcT2 (M := 1) (K := 128) (N := 20000) (V c main_v50) (V c main_arg6) (V c main_v51) :=
  (dat2 V c).arrAt_eq_of_cover 3 _ (fun t _ => flushed2 V c t) cover2

end Cert.KernelIdeal.Val

end
-- ==== Proof.Mid.lean ====
/-
  The aggregation stage and the whole network as one function of the argument arrays.

  Between the first product h = x·w and the flattened features both programs apply the same operations: self
  loops are appended to the edge list, the degree of every node is a segment sum of ones, the normalisation is the
  reciprocal square root of the degree where it is positive, the rows of h are gathered by source node, scaled, and
  summed by target node, the bias is added, the result is rectified and flattened to one row. `Mid` is that stage as
  ONE function of h, the edge list and the bias, written with exactly those operations; nothing below opens it.
  The network is then: flat = Mid (x·w_conv); h3 = max(flat·w_fc1ᵀ + b_fc1, 0); out = max(h3·w_fc2ᵀ + b_fc2, 0).
-/
import proofs.«107239_j17016660427224_1_alg».proof.Proof.Gen.ReferenceIdeal
import proofs.«107239_j17016660427224_1_alg».proof.Proof.Spec

noncomputable section

namespace Cert.RefValue

open Cert.ReferenceIdeal Cert.ReferenceIdeal.Gen Idealize.ShloMosaic Idealize.ShloMosaic.TcCoe Idealize.SL.Sem
open Cert.Dense Cert.Spec

variable {F : FTy → Type} [FloatOps F]

set_option maxRecDepth 8192 in
/-- The aggregation stage: from the transformed features h [20000, 32], the edge list [2, 640000] and the bias [32]
    to the flattened rectified features [1, 640000]. -/
def Mid (h : (⟨S20000x32, .f32⟩ : BufTy).Contents (Elt F)) (e : (⟨S2x640000, .i32⟩ : BufTy).Contents (Elt F))
    (b : (⟨S32, .f32⟩ : BufTy).Contents (Elt F)) : (⟨S1x640000, .f32⟩ : BufTy).Contents (Elt F) :=
  (shapeCast _ (maximumf (addf (Host.scatterAdd scatter_S20000x32_S660000x1_S660000x32_1_0_0_1 (broadcastInDim S20000x32 ![] bcast_S_S20000x32 (constant S_ .f32 0x00000000#32)) (broadcastInDim S660000x1 ![0] bcast_S660000_S660000x1_0 (concatenate S660000 0 [⟨S640000, (shapeCast _ (extractStridedSlice S1x640000 ![1, 0] e slices_S2x640000_S1x640000_1_0) shapeCasts_S1x640000_S640000)⟩, ⟨S20000, (iotaInDim S20000 32 0)⟩] concatenates_S640000_S20000_S660000_d0)) (mulf (Host.gather gather_S20000x32_S660000x1_S660000x32_1_0_n_n_0_1_132 h (broadcastInDim S660000x1 ![0] bcast_S660000_S660000x1_0 (select (cmpi .slt (concatenate S660000 0 [⟨S640000, (shapeCast _ (extractStridedSlice S1x640000 ![0, 0] e slices_S2x640000_S1x640000_0_0) shapeCasts_S1x640000_S640000)⟩, ⟨S20000, (iotaInDim S20000 32 0)⟩] concatenates_S640000_S20000_S660000_d0) (broadcastInDim S660000 ![] bcast_S_S660000 (constantI S_ 32 0#32))) (addi (concatenate S660000 0 [⟨S640000, (shapeCast _ (extractStridedSlice S1x640000 ![0, 0] e slices_S2x640000_S1x640000_0_0) shapeCasts_S1x640000_S640000)⟩, ⟨S20000, (iotaInDim S20000 32 0)⟩] concatenates_S640000_S20000_S660000_d0) (broadcastInDim S660000 ![] bcast_S_S660000 (constantI S_ 32 20000#32))) (concatenate S660000 0 [⟨S640000, (shapeCast _ (extractStridedSlice S1x640000 ![0, 0] e slices_S2x640000_S1x640000_0_0) shapeCasts_S1x640000_S640000)⟩, ⟨S20000, (iotaInDim S20000 32 0)⟩] concatenates_S640000_S20000_S660000_d0)))) (broadcastInDim S660000x32 ![0, 1] bcast_S660000x1_S660000x32_0_1 (broadcastInDim S660000x1 ![0] bcast_S660000_S660000x1_0 (mulf (Host.gather gather_S20000_S660000x1_S660000_n_0_n_n_0_1_1 (select (cmpf (F := F) .ogt (Host.scatterAdd scatter_S20000_S660000x1_S660000_n_0_0_1 (broadcastInDim S20000 ![] bcast_S_S20000 (constant S_ .f32 0x00000000#32)) (broadcastInDim S660000x1 ![0] bcast_S660000_S660000x1_0 (concatenate S660000 0 [⟨S640000, (shapeCast _ (extractStridedSlice S1x640000 ![1, 0] e slices_S2x640000_S1x640000_1_0) shapeCasts_S1x640000_S640000)⟩, ⟨S20000, (iotaInDim S20000 32 0)⟩] concatenates_S640000_S20000_S660000_d0)) (broadcastInDim S660000 ![] bcast_S_S660000 (constant S_ .f32 0x3F800000#32))) (broadcastInDim S20000 ![] bcast_S_S20000 (constant S_ .f32 0x00000000#32))) (Host.rsqrt (Host.scatterAdd scatter_S20000_S660000x1_S660000_n_0_0_1 (broadcastInDim S20000 ![] bcast_S_S20000 (constant S_ .f32 0x00000000#32)) (broadcastInDim S660000x1 ![0] bcast_S660000_S660000x1_0 (concatenate S660000 0 [⟨S640000, (shapeCast _ (extractStridedSlice S1x640000 ![1, 0] e slices_S2x640000_S1x640000_1_0) shapeCasts_S1x640000_S640000)⟩, ⟨S20000, (iotaInDim S20000 32 0)⟩] concatenates_S640000_S20000_S660000_d0)) (broadcastInDim S660000 ![] bcast_S_S660000 (constant S_ .f32 0x3F800000#32)))) (broadcastInDim S20000 ![] bcast_S_S20000 (id (constant S_ .f32 0x00000000#32)))) (broadcastInDim S660000x1 ![0] bcast_S660000_S660000x1_0 (select (cmpi .slt (concatenate S660000 0 [⟨S640000, (shapeCast _ (extractStridedSlice S1x640000 ![0, 0] e slices_S2x640000_S1x640000_0_0) shapeCasts_S1x640000_S640000)⟩, ⟨S20000, (iotaInDim S20000 32 0)⟩] concatenates_S640000_S20000_S660000_d0) (broadcastInDim S660000 ![] bcast_S_S660000 (constantI S_ 32 0#32))) (addi (concatenate S660000 0 [⟨S640000, (shapeCast _ (extractStridedSlice S1x640000 ![0, 0] e slices_S2x640000_S1x640000_0_0) shapeCasts_S1x640000_S640000)⟩, ⟨S20000, (iotaInDim S20000 32 0)⟩] concatenates_S640000_S20000_S660000_d0) (broadcastInDim S660000 ![] bcast_S_S660000 (constantI S_ 32 20000#32))) (concatenate S660000 0 [⟨S640000, (shapeCast _ (extractStridedSlice S1x640000 ![0, 0] e slices_S2x640000_S1x640000_0_0) shapeCasts_S1x640000_S640000)⟩, ⟨S20000, (iotaInDim S20000 32 0)⟩] concatenates_S640000_S20000_S660000_d0)))) (Host.gather gather_S20000_S660000x1_S660000_n_0_n_n_0_1_1 (select (cmpf (F := F) .ogt (Host.scatterAdd scatter_S20000_S660000x1_S660000_n_0_0_1 (broadcastInDim S20000 ![] bcast_S_S20000 (constant S_ .f32 0x00000000#32)) (broadcastInDim S660000x1 ![0] bcast_S660000_S660000x1_0 (concatenate S660000 0 [⟨S640000, (shapeCast _ (extractStridedSlice S1x640000 ![1, 0] e slices_S2x640000_S1x640000_1_0) shapeCasts_S1x640000_S640000)⟩, ⟨S20000, (iotaInDim S20000 32 0)⟩] concatenates_S640000_S20000_S660000_d0)) (broadcastInDim S660000 ![] bcast_S_S660000 (constant S_ .f32 0x3F800000#32))) (broadcastInDim S20000 ![] bcast_S_S20000 (constant S_ .f32 0x00000000#32))) (Host.rsqrt (Host.scatterAdd scatter_S20000_S660000x1_S660000_n_0_0_1 (broadcastInDim S20000 ![] bcast_S_S20000 (constant S_ .f32 0x00000000#32)) (broadcastInDim S660000x1 ![0] bcast_S660000_S660000x1_0 (concatenate S660000 0 [⟨S640000, (shapeCast _ (extractStridedSlice S1x640000 ![1, 0] e slices_S2x640000_S1x640000_1_0) shapeCasts_S1x640000_S640000)⟩, ⟨S20000, (iotaInDim S20000 32 0)⟩] concatenates_S640000_S20000_S660000_d0)) (broadcastInDim S660000 ![] bcast_S_S660000 (constant S_ .f32 0x3F800000#32)))) (broadcastInDim S20000 ![] bcast_S_S20000 (id (constant S_ .f32 0x00000000#32)))) (broadcastInDim S660000x1 ![0] bcast_S660000_S660000x1_0 (select (cmpi .slt (concatenate S660000 0 [⟨S640000, (shapeCast _ (extractStridedSlice S1x640000 ![1, 0] e slices_S2x640000_S1x640000_1_0) shapeCasts_S1x640000_S640000)⟩, ⟨S20000, (iotaInDim S20000 32 0)⟩] concatenates_S640000_S20000_S660000_d0) (broadcastInDim S660000 ![] bcast_S_S660000 (constantI S_ 32 0#32))) (addi (concatenate S660000 0 [⟨S640000, (shapeCast _ (extractStridedSlice S1x640000 ![1, 0] e slices_S2x640000_S1x640000_1_0) shapeCasts_S1x640000_S640000)⟩, ⟨S20000, (iotaInDim S20000 32 0)⟩] concatenates_S640000_S20000_S660000_d0) (broadcastInDim S660000 ![] bcast_S_S660000 (constantI S_ 32 20000#32))) (concatenate S660000 0 [⟨S640000, (shapeCast _ (extractStridedSlice S1x640000 ![1, 0] e slices_S2x640000_S1x640000_1_0) shapeCasts_S1x640000_S640000)⟩, ⟨S20000, (iotaInDim S20000 32 0)⟩] concatenates_S640000_S20000_S660000_d0))))))))) (broadcastInDim S20000x32 ![0, 1] bcast_S1x32_S20000x32_0_1 (broadcastInDim S1x32 ![1] bcast_S32_S1x32_1 b))) (broadcastInDim S20000x32 ![] bcast_S_S20000x32 (constant S_ .f32 0x00000000#32))) shapeCasts_S20000x32_S1x640000)

/-- The network on the extended reals as one function of its eight argument arrays. -/
def G (x : (⟨S20000x128, .f32⟩ : BufTy).Contents (Elt Ideal)) (e : (⟨S2x640000, .i32⟩ : BufTy).Contents (Elt Ideal))
    (wc : (⟨S128x32, .f32⟩ : BufTy).Contents (Elt Ideal)) (bc : (⟨S32, .f32⟩ : BufTy).Contents (Elt Ideal))
    (w1 : (⟨S128x640000, .f32⟩ : BufTy).Contents (Elt Ideal)) (b1 : (⟨S128, .f32⟩ : BufTy).Contents (Elt Ideal))
    (w2 : (⟨S20000x128, .f32⟩ : BufTy).Contents (Elt Ideal)) (b2 : (⟨S20000, .f32⟩ : BufTy).Contents (Elt Ideal)) :
    (⟨S1x20000, .f32⟩ : BufTy).Contents (Elt Ideal) :=
  fcT (M := 1) (K := 128) (N := 20000)
    (fcT (M := 1) (K := 640000) (N := 128) (Mid (F := Ideal) (mm (M := 20000) (K := 128) (N := 32) x wc) e bc) w1 b1) w2 b2

end Cert.RefValue

end
-- ==== Proof.KIHost.lean ====
/-
  The host operations between the kernels, read at the buffers the next kernel takes.

  Between the first and the second kernel the program applies, to the first kernel's result h and to the edge list and
  bias it was launched with, exactly the operations of the aggregation stage: the five stretches of host operations,
  folded over the buffer contents the first kernel leaves, put in the flattened-features buffer the stage `Mid` of h.
  The same term written with this program's own shape and dimension records is `KMid`; the two programs' records are
  the same data, so `KMid` is `Mid`. The biases of the two dense layers reach their kernels reshaped to one row:
  entry (0, q) of the row is entry q of the bias as launched, since nothing in between writes the bias.
-/
import proofs.«107239_j17016660427224_1_alg».proof.Proof.KIBounds
import proofs.«107239_j17016660427224_1_alg».proof.Proof.Gen.KernelIdeal.Regions
import proofs.«107239_j17016660427224_1_alg».proof.Proof.Mid
import Idealize.ShloMosaic.Lib.StableHlo.Run
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx

variable {F : FTy → Type} [FloatOps F]

/-- The aggregation stage written with this program's own shape and dimension records. -/
def KMid (h : (⟨S20000x32, .f32⟩ : BufTy).Contents (Elt F)) (e : (⟨S2x640000, .i32⟩ : BufTy).Contents (Elt F))
    (b : (⟨S32, .f32⟩ : BufTy).Contents (Elt F)) : (⟨S1x640000, .f32⟩ : BufTy).Contents (Elt F) :=
  (shapeCast _ (maximumf (addf (Host.scatterAdd scatter_S20000x32_S660000x1_S660000x32_1_0_0_1 (broadcastInDim S20000x32 ![] bcast_S_S20000x32 (constant S_ .f32 0x00000000#32)) (broadcastInDim S660000x1 ![0] bcast_S660000_S660000x1_0 (concatenate S660000 0 [⟨S640000, (shapeCast _ (extractStridedSlice S1x640000 ![1, 0] e slices_S2x640000_S1x640000_1_0) shapeCasts_S1x640000_S640000)⟩, ⟨S20000, (iotaInDim S20000 32 0)⟩] concatenates_S640000_S20000_S660000_d0)) (mulf (Host.gather gather_S20000x32_S660000x1_S660000x32_1_0_n_n_0_1_132 h (broadcastInDim S660000x1 ![0] bcast_S660000_S660000x1_0 (select (cmpi .slt (concatenate S660000 0 [⟨S640000, (shapeCast _ (extractStridedSlice S1x640000 ![0, 0] e slices_S2x640000_S1x640000_0_0) shapeCasts_S1x640000_S640000)⟩, ⟨S20000, (iotaInDim S20000 32 0)⟩] concatenates_S640000_S20000_S660000_d0) (broadcastInDim S660000 ![] bcast_S_S660000 (constantI S_ 32 0#32))) (addi (concatenate S660000 0 [⟨S640000, (shapeCast _ (extractStridedSlice S1x640000 ![0, 0] e slices_S2x640000_S1x640000_0_0) shapeCasts_S1x640000_S640000)⟩, ⟨S20000, (iotaInDim S20000 32 0)⟩] concatenates_S640000_S20000_S660000_d0) (broadcastInDim S660000 ![] bcast_S_S660000 (constantI S_ 32 20000#32))) (concatenate S660000 0 [⟨S640000, (shapeCast _ (extractStridedSlice S1x640000 ![0, 0] e slices_S2x640000_S1x640000_0_0) shapeCasts_S1x640000_S640000)⟩, ⟨S20000, (iotaInDim S20000 32 0)⟩] concatenates_S640000_S20000_S660000_d0)))) (broadcastInDim S660000x32 ![0, 1] bcast_S660000x1_S660000x32_0_1 (broadcastInDim S660000x1 ![0] bcast_S660000_S660000x1_0 (mulf (Host.gather gather_S20000_S660000x1_S660000_n_0_n_n_0_1_1 (select (cmpf (F := F) .ogt (Host.scatterAdd scatter_S20000_S660000x1_S660000_n_0_0_1 (broadcastInDim S20000 ![] bcast_S_S20000 (constant S_ .f32 0x00000000#32)) (broadcastInDim S660000x1 ![0] bcast_S660000_S660000x1_0 (concatenate S660000 0 [⟨S640000, (shapeCast _ (extractStridedSlice S1x640000 ![1, 0] e slices_S2x640000_S1x640000_1_0) shapeCasts_S1x640000_S640000)⟩, ⟨S20000, (iotaInDim S20000 32 0)⟩] concatenates_S640000_S20000_S660000_d0)) (broadcastInDim S660000 ![] bcast_S_S660000 (constant S_ .f32 0x3F800000#32))) (broadcastInDim S20000 ![] bcast_S_S20000 (constant S_ .f32 0x00000000#32))) (Host.rsqrt (Host.scatterAdd scatter_S20000_S660000x1_S660000_n_0_0_1 (broadcastInDim S20000 ![] bcast_S_S20000 (constant S_ .f32 0x00000000#32)) (broadcastInDim S660000x1 ![0] bcast_S660000_S660000x1_0 (concatenate S660000 0 [⟨S640000, (shapeCast _ (extractStridedSlice S1x640000 ![1, 0] e slices_S2x640000_S1x640000_1_0) shapeCasts_S1x640000_S640000)⟩, ⟨S20000, (iotaInDim S20000 32 0)⟩] concatenates_S640000_S20000_S660000_d0)) (broadcastInDim S660000 ![] bcast_S_S660000 (constant S_ .f32 0x3F800000#32)))) (broadcastInDim S20000 ![] bcast_S_S20000 (id (constant S_ .f32 0x00000000#32)))) (broadcastInDim S660000x1 ![0] bcast_S660000_S660000x1_0 (select (cmpi .slt (concatenate S660000 0 [⟨S640000, (shapeCast _ (extractStridedSlice S1x640000 ![0, 0] e slices_S2x640000_S1x640000_0_0) shapeCasts_S1x640000_S640000)⟩, ⟨S20000, (iotaInDim S20000 32 0)⟩] concatenates_S640000_S20000_S660000_d0) (broadcastInDim S660000 ![] bcast_S_S660000 (constantI S_ 32 0#32))) (addi (concatenate S660000 0 [⟨S640000, (shapeCast _ (extractStridedSlice S1x640000 ![0, 0] e slices_S2x640000_S1x640000_0_0) shapeCasts_S1x640000_S640000)⟩, ⟨S20000, (iotaInDim S20000 32 0)⟩] concatenates_S640000_S20000_S660000_d0) (broadcastInDim S660000 ![] bcast_S_S660000 (constantI S_ 32 20000#32))) (concatenate S660000 0 [⟨S640000, (shapeCast _ (extractStridedSlice S1x640000 ![0, 0] e slices_S2x640000_S1x640000_0_0) shapeCasts_S1x640000_S640000)⟩, ⟨S20000, (iotaInDim S20000 32 0)⟩] concatenates_S640000_S20000_S660000_d0)))) (Host.gather gather_S20000_S660000x1_S660000_n_0_n_n_0_1_1 (select (cmpf (F := F) .ogt (Host.scatterAdd scatter_S20000_S660000x1_S660000_n_0_0_1 (broadcastInDim S20000 ![] bcast_S_S20000 (constant S_ .f32 0x00000000#32)) (broadcastInDim S660000x1 ![0] bcast_S660000_S660000x1_0 (concatenate S660000 0 [⟨S640000, (shapeCast _ (extractStridedSlice S1x640000 ![1, 0] e slices_S2x640000_S1x640000_1_0) shapeCasts_S1x640000_S640000)⟩, ⟨S20000, (iotaInDim S20000 32 0)⟩] concatenates_S640000_S20000_S660000_d0)) (broadcastInDim S660000 ![] bcast_S_S660000 (constant S_ .f32 0x3F800000#32))) (broadcastInDim S20000 ![] bcast_S_S20000 (constant S_ .f32 0x00000000#32))) (Host.rsqrt (Host.scatterAdd scatter_S20000_S660000x1_S660000_n_0_0_1 (broadcastInDim S20000 ![] bcast_S_S20000 (constant S_ .f32 0x00000000#32)) (broadcastInDim S660000x1 ![0] bcast_S660000_S660000x1_0 (concatenate S660000 0 [⟨S640000, (shapeCast _ (extractStridedSlice S1x640000 ![1, 0] e slices_S2x640000_S1x640000_1_0) shapeCasts_S1x640000_S640000)⟩, ⟨S20000, (iotaInDim S20000 32 0)⟩] concatenates_S640000_S20000_S660000_d0)) (broadcastInDim S660000 ![] bcast_S_S660000 (constant S_ .f32 0x3F800000#32)))) (broadcastInDim S20000 ![] bcast_S_S20000 (id (constant S_ .f32 0x00000000#32)))) (broadcastInDim S660000x1 ![0] bcast_S660000_S660000x1_0 (select (cmpi .slt (concatenate S660000 0 [⟨S640000, (shapeCast _ (extractStridedSlice S1x640000 ![1, 0] e slices_S2x640000_S1x640000_1_0) shapeCasts_S1x640000_S640000)⟩, ⟨S20000, (iotaInDim S20000 32 0)⟩] concatenates_S640000_S20000_S660000_d0) (broadcastInDim S660000 ![] bcast_S_S660000 (constantI S_ 32 0#32))) (addi (concatenate S660000 0 [⟨S640000, (shapeCast _ (extractStridedSlice S1x640000 ![1, 0] e slices_S2x640000_S1x640000_1_0) shapeCasts_S1x640000_S640000)⟩, ⟨S20000, (iotaInDim S20000 32 0)⟩] concatenates_S640000_S20000_S660000_d0) (broadcastInDim S660000 ![] bcast_S_S660000 (constantI S_ 32 20000#32))) (concatenate S660000 0 [⟨S640000, (shapeCast _ (extractStridedSlice S1x640000 ![1, 0] e slices_S2x640000_S1x640000_1_0) shapeCasts_S1x640000_S640000)⟩, ⟨S20000, (iotaInDim S20000 32 0)⟩] concatenates_S640000_S20000_S660000_d0))))))))) (broadcastInDim S20000x32 ![0, 1] bcast_S1x32_S20000x32_0_1 (broadcastInDim S1x32 ![1] bcast_S32_S1x32_1 b))) (broadcastInDim S20000x32 ![] bcast_S_S20000x32 (constant S_ .f32 0x00000000#32))) shapeCasts_S20000x32_S1x640000)

/-- The two programs' records are the same data: the stage is the same function. -/
theorem KMid_eq_Mid (h : (⟨S20000x32, .f32⟩ : BufTy).Contents (Elt Ideal)) (e : (⟨S2x640000, .i32⟩ : BufTy).Contents (Elt Ideal))
    (b : (⟨S32, .f32⟩ : BufTy).Contents (Elt Ideal)) : KMid (F := Ideal) h e b = Cert.RefValue.Mid (F := Ideal) h e b := rfl

set_option maxHeartbeats 32000000 in
/-- The five host stretches between the first and the second kernel, folded over any buffer contents and read at the
    flattened features: the aggregation stage of what the contents hold at h, the edge list and the bias. -/
theorem fold_eq_KMid (U : Valuation τ sig (Elt F)) :
    StableHlo.after (hostOps1_4 (F := F)) (StableHlo.after hostOps1_3 (StableHlo.after hostOps1_2 (StableHlo.after hostOps1_1
        (StableHlo.after hostOps1 U)))) (Proc.devRef .tc main_v48)
      = KMid (F := F) (U (Proc.devRef .tc main_v0)) (U (Proc.devRef .tc main_arg1)) (U (Proc.devRef .tc main_arg3)) := by
  simp only [hostOps1_4, hostOps1_3, hostOps1_2, hostOps1_1, hostOps1]
  after_results_simp <;> rfl

/-- The last stretch before the second kernel reshapes the bias [128] to one row [1, 128]. -/
theorem reshape_b1 (U : Valuation τ sig (Elt F)) :
    StableHlo.after (hostOps1_4 (F := F)) U (Proc.devRef .tc main_v49)
      = shapeCast S1x128 (U (Proc.devRef .tc main_arg5)) shapeCasts_S128_S1x128 := by
  simp only [hostOps1_4]
  after_results_simp <;> rfl

/-- The stretch before the third kernel reshapes the bias [20000] to one row [1, 20000]. -/
theorem reshape_b2 (U : Valuation τ sig (Elt F)) :
    StableHlo.after (hostOps2 (F := F)) U (Proc.devRef .tc main_v51)
      = shapeCast S1x20000 (U (Proc.devRef .tc main_arg7)) shapeCasts_S20000_S1x20000 := by
  simp only [hostOps2]
  after_results_simp <;> rfl

variable (m : (ℓ : Loc nD τ sig) → Buf (Elt Ideal) ℓ)

/-- No stretch before the second kernel writes the first dense layer's bias. -/
theorem W5_main_arg5 (c : Dev nD) : W5 m c (Proc.devRef .tc main_arg5) = m ((c : Thread nD τ).loc main_arg5) :=
  (StableHlo.after_of_writes_sub hostOps1_3 _ Gen.hostOps1_3_writes (by decide)).trans <|
    (StableHlo.after_of_writes_sub hostOps1_2 _ Gen.hostOps1_2_writes (by decide)).trans <|
    (StableHlo.after_of_writes_sub hostOps1_1 _ Gen.hostOps1_1_writes (by decide)).trans <|
    (StableHlo.after_of_writes_sub hostOps1 _ Gen.hostOps1_writes (by decide)).trans <|
    (W1_of_ne m c main_arg5 (by decide)).trans rfl

/-- Nor does anything before the third kernel write the second dense layer's bias. -/
theorem W7_main_arg7 (c : Dev nD) : W7 m c (Proc.devRef .tc main_arg7) = m ((c : Thread nD τ).loc main_arg7) :=
  (W7_of_ne m c main_arg7 (by decide)).trans <|
    (StableHlo.after_of_writes_sub hostOps1_4 _ Gen.hostOps1_4_writes (by decide)).trans <|
    (StableHlo.after_of_writes_sub hostOps1_3 _ Gen.hostOps1_3_writes (by decide)).trans <|
    (StableHlo.after_of_writes_sub hostOps1_2 _ Gen.hostOps1_2_writes (by decide)).trans <|
    (StableHlo.after_of_writes_sub hostOps1_1 _ Gen.hostOps1_1_writes (by decide)).trans <|
    (StableHlo.after_of_writes_sub hostOps1 _ Gen.hostOps1_writes (by decide)).trans <|
    (W1_of_ne m c main_arg7 (by decide)).trans rfl

/-- The flattened features the second kernel takes: the aggregation stage of the first kernel's result. -/
theorem host_flat (c : Dev nD) :
    StableHlo.after (hostOps1_4 (F := Ideal)) (W5 m c) (Proc.devRef .tc main_v48)
      = Cert.RefValue.Mid (F := Ideal) (W1 m c (Proc.devRef .tc main_v0)) (m ((c : Thread nD τ).loc main_arg1))
          (m ((c : Thread nD τ).loc main_arg3)) := by
  have h := fold_eq_KMid (F := Ideal) (W1 m c)
  rw [W1_of_ne m c main_arg1 (by decide), W1_of_ne m c main_arg3 (by decide), KMid_eq_Mid] at h
  exact h

/-- The bias row of the second kernel, entry by entry. -/
theorem host_b1 (c : Dev nD) (q : Fin 128) :
    StableHlo.after (hostOps1_4 (F := Ideal)) (W5 m c) (Proc.devRef .tc main_v49) (ix2 (0 : Fin 1) q)
      = m ((c : Thread nD τ).loc main_arg5) (ix1 q) := by
  refine (congrFun (reshape_b1 (F := Ideal) (W5 m c)) (ix2 (0 : Fin 1) q)).trans ?_
  rw [W5_main_arg5 m c]
  exact shapeCast_apply _ shapeCasts_S128_S1x128 (ix2 (0 : Fin 1) q) (ix1 q)
    (by rewrite [Shape.rowMajor_val_one, Shape.rowMajor_val_two]; show q.val = 0 * 128 + q.val; omega)

/-- The bias row of the third kernel, entry by entry. -/
theorem host_b2 (c : Dev nD) (q : Fin 20000) :
    StableHlo.after (hostOps2 (F := Ideal)) (W7 m c) (Proc.devRef .tc main_v51) (ix2 (0 : Fin 1) q)
      = m ((c : Thread nD τ).loc main_arg7) (ix1 q) := by
  refine (congrFun (reshape_b2 (F := Ideal) (W7 m c)) (ix2 (0 : Fin 1) q)).trans ?_
  rw [W7_main_arg7 m c]
  exact shapeCast_apply _ shapeCasts_S20000_S1x20000 (ix2 (0 : Fin 1) q) (ix1 q)
    (by rewrite [Shape.rowMajor_val_one, Shape.rowMajor_val_two]; show q.val = 0 * 20000 + q.val; omega)

end Cert.KernelIdeal.Val

end
-- ==== Proof.KIKeep.lean ====
/-
  Reads of the boundary contents at buffers the steps in between leave alone: the wide weight matrix at the entry
  of region 1, the last weight matrix and region 1's output at the entry of region 2.
-/
import proofs.«107239_j17016660427224_1_alg».proof.Proof.KIBounds
import proofs.«107239_j17016660427224_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- A buffer region 0 does not change and none of the five stretches writes holds its launch contents when region 1
    is entered. -/
theorem W6_keep (c : Dev nD) (r : Ref sig .tc)
    (h1 : W1 m c (Proc.devRef .tc r) = W0 m c (Proc.devRef .tc r))
    (w6 : r ∉ Gen.hostOps1_4_W) (w5 : r ∉ Gen.hostOps1_3_W) (w4 : r ∉ Gen.hostOps1_2_W)
    (w3 : r ∉ Gen.hostOps1_1_W) (w2 : r ∉ Gen.hostOps1_W) :
    W6 m c (Proc.devRef .tc r) = m ((c : Thread nD τ).loc r) :=
  (StableHlo.after_of_writes_sub hostOps1_4 _ Gen.hostOps1_4_writes w6).trans <|
    (StableHlo.after_of_writes_sub hostOps1_3 _ Gen.hostOps1_3_writes w5).trans <|
    (StableHlo.after_of_writes_sub hostOps1_2 _ Gen.hostOps1_2_writes w4).trans <|
    (StableHlo.after_of_writes_sub hostOps1_1 _ Gen.hostOps1_1_writes w3).trans <|
    (StableHlo.after_of_writes_sub hostOps1 _ Gen.hostOps1_writes w2).trans <| h1.trans rfl

theorem W6_main_arg4 (c : Dev nD) : W6 m c (Proc.devRef .tc main_arg4) = m ((c : Thread nD τ).loc main_arg4) :=
  W6_keep m c main_arg4 (W1_of_ne m c main_arg4 (by decide)) (by decide) (by decide) (by decide) (by decide) (by decide)

theorem W1_main_arg1 (c : Dev nD) : W1 m c (Proc.devRef .tc main_arg1) = m ((c : Thread nD τ).loc main_arg1) :=
  W1_of_ne m c main_arg1 (by decide)
theorem W1_main_arg3 (c : Dev nD) : W1 m c (Proc.devRef .tc main_arg3) = m ((c : Thread nD τ).loc main_arg3) :=
  W1_of_ne m c main_arg3 (by decide)

theorem W8_main_v50 (c : Dev nD) : W8 m c (Proc.devRef .tc main_v50) = W7 m c (Proc.devRef .tc main_v50) :=
  StableHlo.after_of_writes_sub hostOps2 _ Gen.hostOps2_writes (by decide)

theorem W8_main_arg6 (c : Dev nD) : W8 m c (Proc.devRef .tc main_arg6) = m ((c : Thread nD τ).loc main_arg6) :=
  (StableHlo.after_of_writes_sub hostOps2 _ Gen.hostOps2_writes (by decide)).trans <|
    (W7_of_ne m c main_arg6 (by decide)).trans <|
    W6_keep m c main_arg6 (W1_of_ne m c main_arg6 (by decide)) (by decide) (by decide) (by decide) (by decide) (by decide)

end Cert.KernelIdeal.Hand

end
-- ==== Proof.KIResult.lean ====
/-
  The kernel program's result as the network's function of the arguments.

  Reading the last boundary back: region 2 leaves max(h3 · W2ᵀ + b2, 0), where h3 is what region 1 left,
  max(flat · W1ᵀ + b1, 0); flat is the aggregation stage of what region 0 left, the product x · Wc. The two bias
  rows reach the regions as one-row matrices, reshaped from the bias vectors, so each layer with its one-row bias is
  the layer with the bias vector.
-/
import proofs.«107239_j17016660427224_1_alg».proof.Proof.KIVal0
import proofs.«107239_j17016660427224_1_alg».proof.Proof.KIVal1
import proofs.«107239_j17016660427224_1_alg».proof.Proof.KIVal2
import proofs.«107239_j17016660427224_1_alg».proof.Proof.KIHost
import proofs.«107239_j17016660427224_1_alg».proof.Proof.KIKeep
import proofs.«107239_j17016660427224_1_alg».proof.Proof.Mid

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Cert.Dense Cert.Spec Cert.RefValue

variable (m : (ℓ : Loc nD τ sig) → Buf (Elt Ideal) ℓ)

/-- Region 0 leaves the first product. -/
theorem W1_v0 (c : Dev nD) :
    W1 m c (Proc.devRef .tc main_v0) = mm (M := 20000) (K := 128) (N := 32) (m ((c : Thread nD τ).loc main_arg0)) (m ((c : Thread nD τ).loc main_arg2)) :=
  (W1_arr m c 2).trans (final0 (Vr0 m) c)

/-- The flattened features region 1 is entered with are the aggregation stage of the first product. -/
theorem flat_eq (c : Dev nD) :
    Vr6 m c main_v48 = Mid (F := Ideal) (mm (M := 20000) (K := 128) (N := 32) (m ((c : Thread nD τ).loc main_arg0)) (m ((c : Thread nD τ).loc main_arg2))) (m ((c : Thread nD τ).loc main_arg1)) (m ((c : Thread nD τ).loc main_arg3)) :=
  (host_flat m c).trans (congrArg (fun h => Mid (F := Ideal) h (m ((c : Thread nD τ).loc main_arg1)) (m ((c : Thread nD τ).loc main_arg3))) (W1_v0 m c))

/-- Region 1 leaves the first dense layer. -/
theorem W7_v50 (c : Dev nD) :
    W7 m c (Proc.devRef .tc main_v50)
      = fcT (M := 1) (K := 640000) (N := 128)
          (Mid (F := Ideal) (mm (M := 20000) (K := 128) (N := 32) (m ((c : Thread nD τ).loc main_arg0)) (m ((c : Thread nD τ).loc main_arg2))) (m ((c : Thread nD τ).loc main_arg1)) (m ((c : Thread nD τ).loc main_arg3))) (m ((c : Thread nD τ).loc main_arg4)) (m ((c : Thread nD τ).loc main_arg5)) :=
  ((W7_arr m c 3).trans (final1 (Vr6 m) c)).trans <|
    (fcT2_eq_fcT (M := 1) (K := 640000) (N := 128) (Vr6 m c main_v48) (Vr6 m c main_arg4) (m ((c : Thread nD τ).loc main_arg5)) (Vr6 m c main_v49)
      (fun q => host_b1 m c q)).trans <|
    congrArg₂ (fun A W => fcT (M := 1) (K := 640000) (N := 128) A W (m ((c : Thread nD τ).loc main_arg5))) (flat_eq m c) (W6_main_arg4 m c)

/-- Region 2 leaves the network's result. -/
theorem W9_result (c : Dev nD) :
    W9 (F := Ideal) m c (Proc.devRef .tc main_v52)
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((W9_arr m c 3).trans (final2 (Vr8 m) c)).trans <|
    (fcT2_eq_fcT (M := 1) (K := 128) (N := 20000) (Vr8 m c main_v50) (Vr8 m c main_arg6) (m ((c : Thread nD τ).loc main_arg7)) (Vr8 m c main_v51)
      (fun q => host_b2 m c q)).trans <|
    congrArg₂ (fun A W => fcT (M := 1) (K := 128) (N := 20000) A W (m ((c : Thread nD τ).loc main_arg7)))
      ((W8_main_v50 m c).trans (W7_v50 m c)) (W8_main_arg6 m c)

end Cert.KernelIdeal.Val

end
-- ==== Proof.RefSide.lean ====
/-
  The reference program computes the network: its result, read stage by stage, is
  max(max(Mid(x·w_conv)·w_fc1ᵀ + b_fc1, 0)·w_fc2ᵀ + b_fc2, 0).

  The first product is the host's general dot product with one contracted axis; the aggregation stage is `Mid` of it by
  unfolding names only; each dense layer is the host's dot product with the transposed weight matrix, read at an entry
  as the sum over the contracted axis, plus the broadcast bias, rectified against a broadcast zero.
-/
import proofs.«107239_j17016660427224_1_alg».proof.Proof.RefReadP
import proofs.«107239_j17016660427224_1_alg».proof.Proof.Mid

noncomputable section

namespace Cert.RefValue

open Cert.ReferenceIdeal Cert.ReferenceIdeal.Gen Cert.ReferenceIdeal.ReadP Idealize.ShloMosaic Idealize.ShloMosaic.ValueIdx
open Cert.Dense Cert.Spec

/-- The first product. -/
theorem v30_eq (x0 : (⟨S20000x128, .f32⟩ : BufTy).Contents (Elt Ideal)) (x2 : (⟨S128x32, .f32⟩ : BufTy).Contents (Elt Ideal)) :
    val_main_v30 (F := Ideal) x0 x2 = mm (M := 20000) (K := 128) (N := 32) x0 x2 := by
  funext i
  rw [val_main_v30_apply]
  show _ = ∑ k : Fin 128, x0 (ix2 (i 0) k) * x2 (ix2 k (i 1))
  refine Finset.sum_congr rfl fun k _ => ?_
  have el : lidx_main_v30 i k = ix2 (i 0) k := funext fun a => by
    match a with
    | ⟨0, _⟩ => rfl
    | ⟨1, _⟩ => rfl
  have er : ridx_main_v30 i k = ix2 k (i 1) := funext fun a => by
    match a with
    | ⟨0, _⟩ => rfl
    | ⟨1, _⟩ => rfl
  exact congr (congrArg _ (congrArg x0 el)) (congrArg x2 er)

set_option maxRecDepth 8192 in
/-- The aggregation stage of the reference is `Mid` of the first product: the names unfold to the same operations. -/
theorem v48_eq (x0 : (⟨S20000x128, .f32⟩ : BufTy).Contents (Elt Ideal)) (x1 : (⟨S2x640000, .i32⟩ : BufTy).Contents (Elt Ideal))
    (x2 : (⟨S128x32, .f32⟩ : BufTy).Contents (Elt Ideal)) (x3 : (⟨S32, .f32⟩ : BufTy).Contents (Elt Ideal)) :
    val_main_v48 (F := Ideal) x0 x1 x2 x3 = Mid (F := Ideal) (val_main_v30 (F := Ideal) x0 x2) x1 x3 := rfl

/-- The first dense layer. -/
theorem v53_eq (x0 : (⟨S20000x128, .f32⟩ : BufTy).Contents (Elt Ideal)) (x1 : (⟨S2x640000, .i32⟩ : BufTy).Contents (Elt Ideal))
    (x2 : (⟨S128x32, .f32⟩ : BufTy).Contents (Elt Ideal)) (x3 : (⟨S32, .f32⟩ : BufTy).Contents (Elt Ideal))
    (x4 : (⟨S128x640000, .f32⟩ : BufTy).Contents (Elt Ideal)) (x5 : (⟨S128, .f32⟩ : BufTy).Contents (Elt Ideal)) :
    val_main_v53 (F := Ideal) x0 x1 x2 x3 x4 x5
      = fcT (M := 1) (K := 640000) (N := 128) (val_main_v48 (F := Ideal) x0 x1 x2 x3) x4 x5 := by
  funext i
  obtain ⟨p, q, rfl⟩ : ∃ (p : Fin 1) (q : Fin 128), i = ix2 p q := ⟨i 0, i 1, eq_ix2 i⟩
  rw [val_main_v53_apply, val_main_v52_apply, val_main_v50_apply, val_main_v51_apply, val_main_call2_v0_apply,
    val_main_call2_cst_apply]
  generalize val_main_v48 (F := Ideal) x0 x1 x2 x3 = flat
  have hs : (∑ k : Fin 640000, flat (lidx_main_v50 (ix2 p q) k) * val_main_v49 (F := Ideal) x4 (ridx_main_v50 (ix2 p q) k))
      = ∑ k : Fin 640000, flat (ix2 p k) * x4 (ix2 q k) :=
    Finset.sum_congr rfl fun k _ => by
      rw [val_main_v49_apply]
      have el : lidx_main_v50 (ix2 p q) k = ix2 p k := funext fun a => by
        match a with
        | ⟨0, _⟩ => rfl
        | ⟨1, _⟩ => rfl
      have er : idx_main_v49 (ridx_main_v50 (ix2 p q) k) = ix2 q k := funext fun a => by
        match a with
        | ⟨0, _⟩ => rfl
        | ⟨1, _⟩ => rfl
      rw [el, er]
  have hb : x5 (idx_main_v51 (ix2 p q)) = x5 (ix1 q) := congrArg x5 (funext fun a => by
    match a with
    | ⟨0, _⟩ => rfl)
  show max ((∑ k : Fin 640000, flat (lidx_main_v50 (ix2 p q) k) * val_main_v49 (F := Ideal) x4 (ridx_main_v50 (ix2 p q) k))
      + x5 (idx_main_v51 (ix2 p q))) (Ideal.ofBits .f32 0x00000000#32)
    = max ((∑ k : Fin 640000, flat (ix2 p k) * x4 (ix2 q k)) + x5 (ix1 q)) 0
  rw [hs, hb, Ideal.ofBits_zero_f32]

/-- The second dense layer. -/
theorem v58_eq (x0 : (⟨S20000x128, .f32⟩ : BufTy).Contents (Elt Ideal)) (x1 : (⟨S2x640000, .i32⟩ : BufTy).Contents (Elt Ideal))
    (x2 : (⟨S128x32, .f32⟩ : BufTy).Contents (Elt Ideal)) (x3 : (⟨S32, .f32⟩ : BufTy).Contents (Elt Ideal))
    (x4 : (⟨S128x640000, .f32⟩ : BufTy).Contents (Elt Ideal)) (x5 : (⟨S128, .f32⟩ : BufTy).Contents (Elt Ideal))
    (x6 : (⟨S20000x128, .f32⟩ : BufTy).Contents (Elt Ideal)) (x7 : (⟨S20000, .f32⟩ : BufTy).Contents (Elt Ideal)) :
    val_main_v58 (F := Ideal) x0 x1 x2 x3 x4 x5 x6 x7
      = fcT (M := 1) (K := 128) (N := 20000) (val_main_v53 (F := Ideal) x0 x1 x2 x3 x4 x5) x6 x7 := by
  funext i
  obtain ⟨p, q, rfl⟩ : ∃ (p : Fin 1) (q : Fin 20000), i = ix2 p q := ⟨i 0, i 1, eq_ix2 i⟩
  rw [val_main_v58_apply, val_main_v57_apply, val_main_v55_apply, val_main_v56_apply, val_main_call3_v0_apply,
    val_main_call3_cst_apply]
  generalize val_main_v53 (F := Ideal) x0 x1 x2 x3 x4 x5 = h3
  have hs : (∑ k : Fin 128, h3 (lidx_main_v55 (ix2 p q) k) * val_main_v54 (F := Ideal) x6 (ridx_main_v55 (ix2 p q) k))
      = ∑ k : Fin 128, h3 (ix2 p k) * x6 (ix2 q k) :=
    Finset.sum_congr rfl fun k _ => by
      rw [val_main_v54_apply]
      have el : lidx_main_v55 (ix2 p q) k = ix2 p k := funext fun a => by
        match a with
        | ⟨0, _⟩ => rfl
        | ⟨1, _⟩ => rfl
      have er : idx_main_v54 (ridx_main_v55 (ix2 p q) k) = ix2 q k := funext fun a => by
        match a with
        | ⟨0, _⟩ => rfl
        | ⟨1, _⟩ => rfl
      rw [el, er]
  have hb : x7 (idx_main_v56 (ix2 p q)) = x7 (ix1 q) := congrArg x7 (funext fun a => by
    match a with
    | ⟨0, _⟩ => rfl)
  show max ((∑ k : Fin 128, h3 (lidx_main_v55 (ix2 p q) k) * val_main_v54 (F := Ideal) x6 (ridx_main_v55 (ix2 p q) k))
      + x7 (idx_main_v56 (ix2 p q))) (Ideal.ofBits .f32 0x00000000#32)
    = max ((∑ k : Fin 128, h3 (ix2 p k) * x6 (ix2 q k)) + x7 (ix1 q)) 0
  rw [hs, hb, Ideal.ofBits_zero_f32]

/-- The reference's result is the network `G` of its eight arguments. -/
theorem ref_eq_G (x0 : (⟨S20000x128, .f32⟩ : BufTy).Contents (Elt Ideal)) (x1 : (⟨S2x640000, .i32⟩ : BufTy).Contents (Elt Ideal))
    (x2 : (⟨S128x32, .f32⟩ : BufTy).Contents (Elt Ideal)) (x3 : (⟨S32, .f32⟩ : BufTy).Contents (Elt Ideal))
    (x4 : (⟨S128x640000, .f32⟩ : BufTy).Contents (Elt Ideal)) (x5 : (⟨S128, .f32⟩ : BufTy).Contents (Elt Ideal))
    (x6 : (⟨S20000x128, .f32⟩ : BufTy).Contents (Elt Ideal)) (x7 : (⟨S20000, .f32⟩ : BufTy).Contents (Elt Ideal)) :
    val_main_v58 (F := Ideal) x0 x1 x2 x3 x4 x5 x6 x7 = G x0 x1 x2 x3 x4 x5 x6 x7 := by
  rw [v58_eq, v53_eq, v48_eq, v30_eq]
  rfl

end Cert.RefValue

end
-- ==== Proof.lean ====
/-
  The certificate's claim: the word-level kernel program and its reading on the extended reals both run to their end
  without fault and leave their arguments unchanged; so does the reference; and on the extended reals the kernel
  program and the reference compute the same result.

  The kernel program is three pipelined regions among stretches of host operations. Each region's body, run at a
  grid point, leaves in its output tile a pure function of its input tiles (region 1 also keeps a running total in a
  scratch row across its fifty points); from these body runs each region takes the buffers from the contents before
  it to the contents after it, and the chain of the nine steps is the program's run. Read on the extended reals the
  last contents are: the product x · Wc (ten row tiles), the aggregation stage shared with the reference, the dense
  layer max(flat · W1ᵀ + b1, 0) whose contracted axis of 640000 is summed fifty tiles of 12800 at a time — a regrouping
  of a sum in a commutative monoid, nothing asked of the terms — and the dense layer max(h3 · W2ᵀ + b2, 0). The
  reference's result, read operation by operation, is the same function of the arguments. The ideal pass rewrote
  nothing, so the idealization claim is trivial.
-/
import proofs.«107239_j17016660427224_1_alg».proof.Defs
import proofs.«107239_j17016660427224_1_alg».proof.Proof.Gen.Kernel
import proofs.«107239_j17016660427224_1_alg».proof.Proof.Gen.KernelIdeal
import proofs.«107239_j17016660427224_1_alg».proof.Proof.Gen.ReferenceIdeal
import proofs.«107239_j17016660427224_1_alg».proof.Proof.Gen.Pre_finite_inputs
import proofs.«107239_j17016660427224_1_alg».proof.Proof.KFrame
import proofs.«107239_j17016660427224_1_alg».proof.Proof.KIFrame
import proofs.«107239_j17016660427224_1_alg».proof.Proof.KIResult
import proofs.«107239_j17016660427224_1_alg».proof.Proof.RefSide
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Hand.frame m ρ

/-- So does its reading on the extended reals. -/
theorem frame_kernelIdeal : Cert.frame_KernelIdeal := fun m ρ _ => Cert.KernelIdeal.Hand.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- On the extended reals both programs end with the network's function of the arguments. -/
theorem algebraic : Cert.algebraic_KernelIdeal_ReferenceIdeal := by
  intro m ρ m' ρ' _ hagree
  refine ⟨fun c => Cert.RefValue.G
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Val.W9_result m c), (h c).2⟩)
      (Cert.KernelIdeal.Hand.run_value m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v58_eq, Cert.RefValue.ref_eq_G, (hagree c).1, (hagree c).2.1, (hagree c).2.2.1,
      (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
